-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S524287 : Shape := ⟨1, ![524287]⟩
abbrev S100000x64 : Shape := ⟨2, ![100000, 64]⟩
abbrev S64x64 : Shape := ⟨2, ![64, 64]⟩
abbrev S64x128 : Shape := ⟨2, ![64, 128]⟩
abbrev S128x256 : Shape := ⟨2, ![128, 256]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S524288 32) (main_arg1 : IVec S524288 32) (main_arg2 : IVec S524287 32) (main_arg3 : FVec F S100000x64 .f32) (main_arg4 : FVec F S64x64 .f32) (main_arg5 : FVec F S64x128 .f32) (main_arg6 : FVec F S128x256 .f32) (main_arg7 : FVec F S128 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_v13 main_v16
-- ==== Kernel.lean ====
abbrev S524288 : Shape := ⟨1, ![524288]⟩
abbrev S524287 : Shape := ⟨1, ![524287]⟩
abbrev S100000x64 : Shape := ⟨2, ![100000, 64]⟩
abbrev S64x64 : Shape := ⟨2, ![64, 64]⟩
abbrev S64x128 : Shape := ⟨2, ![64, 128]⟩
abbrev S128x256 : Shape := ⟨2, ![128, 256]⟩
abbrev S128 : Shape := ⟨1, ![128]⟩
abbrev S_ : Shape := ⟨0, ![]⟩
abbrev S524288x1 : Shape := ⟨2, ![524288, 1]⟩
abbrev S524288x64 : Shape := ⟨2, ![524288, 64]⟩
abbrev S524288x128 : Shape := ⟨2, ![524288, 128]⟩
abbrev S256x128 : Shape := ⟨2, ![256, 128]⟩
abbrev S1x128 : Shape := ⟨2, ![1, 128]⟩
abbrev S262144x256 : Shape := ⟨2, ![262144, 256]⟩
abbrev S262144 : Shape := ⟨1, ![262144]⟩
abbrev S262144x1 : Shape := ⟨2, ![262144, 1]⟩
abbrev S262144x128 : Shape := ⟨2, ![262144, 128]⟩
abbrev S4096x256 : Shape := ⟨2, ![4096, 256]⟩
abbrev S4096x128 : Shape := ⟨2, ![4096, 128]⟩
abbrev S131072x256 : Shape := ⟨2, ![131072, 256]⟩
abbrev S131072 : Shape := ⟨1, ![131072]⟩
abbrev S131072x1 : Shape := ⟨2, ![131072, 1]⟩
abbrev S131072x128 : Shape := ⟨2, ![131072, 128]⟩
abbrev S65536x256 : Shape := ⟨2, ![65536, 256]⟩
abbrev S65536 : Shape := ⟨1, ![65536]⟩
abbrev S65536x1 : Shape := ⟨2, ![65536, 1]⟩
abbrev S65536x128 : Shape := ⟨2, ![65536, 128]⟩
abbrev S32768x256 : Shape := ⟨2, ![32768, 256]⟩
abbrev S32768 : Shape := ⟨1, ![32768]⟩
abbrev S32768x1 : Shape := ⟨2, ![32768, 1]⟩
abbrev S32768x128 : Shape := ⟨2, ![32768, 128]⟩
abbrev S16384x256 : Shape := ⟨2, ![16384, 256]⟩
abbrev S16384 : Shape := ⟨1, ![16384]⟩
abbrev S16384x1 : Shape := ⟨2, ![16384, 1]⟩
abbrev S16384x128 : Shape := ⟨2, ![16384, 128]⟩
abbrev S8192x256 : Shape := ⟨2, ![8192, 256]⟩
abbrev S8192 : Shape := ⟨1, ![8192]⟩
abbrev S8192x1 : Shape := ⟨2, ![8192, 1]⟩
abbrev S8192x128 : Shape := ⟨2, ![8192, 128]⟩
abbrev S4096 : Shape := ⟨1, ![4096]⟩
abbrev S4096x1 : Shape := ⟨2, ![4096, 1]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S64x256 : Shape := ⟨2, ![64, 256]⟩
abbrev S64 : Shape := ⟨1, ![64]⟩
abbrev S64x1 : Shape := ⟨2, ![64, 1]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S16x256 : Shape := ⟨2, ![16, 256]⟩
abbrev S16 : Shape := ⟨1, ![16]⟩
abbrev S16x1 : Shape := ⟨2, ![16, 1]⟩
abbrev S16x128 : Shape := ⟨2, ![16, 128]⟩
abbrev S8x256 : Shape := ⟨2, ![8, 256]⟩
abbrev S8 : Shape := ⟨1, ![8]⟩
abbrev S8x1 : Shape := ⟨2, ![8, 1]⟩
abbrev S8x128 : Shape := ⟨2, ![8, 128]⟩
abbrev S4x256 : Shape := ⟨2, ![4, 256]⟩
abbrev S4 : Shape := ⟨1, ![4]⟩
abbrev S4x1 : Shape := ⟨2, ![4, 1]⟩
abbrev S4x128 : Shape := ⟨2, ![4, 128]⟩
abbrev S2x256 : Shape := ⟨2, ![2, 256]⟩
abbrev S2 : Shape := ⟨1, ![2]⟩
abbrev S2x1 : Shape := ⟨2, ![2, 1]⟩
abbrev S2x128 : Shape := ⟨2, ![2, 128]⟩
abbrev S1x256 : Shape := ⟨2, ![1, 256]⟩
abbrev S1 : Shape := ⟨1, ![1]⟩
abbrev S1x1 : Shape := ⟨2, ![1, 1]⟩

abbrev nBuf : Space → Nat
  | .hbm => 257
  | .vmem => 113
  | .smem => 0
  | _ => 0

abbrev hbmTy0_0 (i : Nat) : BufTy := match i % 128 with
  | 0 => ⟨S524288, .i32⟩
  | 1 => ⟨S524288, .i32⟩
  | 2 => ⟨S524287, .i32⟩
  | 3 => ⟨S100000x64, .f32⟩
  | 4 => ⟨S64x64, .f32⟩
  | 5 => ⟨S64x128, .f32⟩
  | 6 => ⟨S128x256, .f32⟩
  | 7 => ⟨S128, .f32⟩
  | 8 => ⟨S_, .i32⟩
  | 9 => ⟨S524288, .i32⟩
  | 10 => ⟨S524288, .i1⟩
  | 11 => ⟨S_, .i32⟩
  | 12 => ⟨S524288, .i32⟩
  | 13 => ⟨S524288, .i32⟩
  | 14 => ⟨S524288, .i32⟩
  | 15 => ⟨S524288x1, .i32⟩
  | 16 => ⟨S524288x64, .f32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x64, .f32⟩
  | 26 => ⟨S524288x128, .f32⟩
  | 27 => ⟨S256x128, .f32⟩
  | 28 => ⟨S1x128, .f32⟩
  | 29 => ⟨S262144x256, .f32⟩
  | 30 => ⟨S262144, .i32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x128, .f32⟩
  | 40 => ⟨S262144x128, .f32⟩
  | 41 => ⟨S131072x256, .f32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x128, .f32⟩
  | 52 => ⟨S131072x128, .f32⟩
  | 53 => ⟨S65536x256, .f32⟩
  | 54 => ⟨S65536, .i32⟩
  | 55 => ⟨S_, .i32⟩
  | 56 => ⟨S65536, .i32⟩
  | 57 => ⟨S65536, .i1⟩
  | 58 => ⟨S_, .i32⟩
  | 59 => ⟨S65536, .i32⟩
  | 60 => ⟨S65536, .i32⟩
  | 61 => ⟨S65536, .i32⟩
  | 62 => ⟨S65536x1, .i32⟩
  | 63 => ⟨S65536x128, .f32⟩
  | 64 => ⟨S65536x128, .f32⟩
  | 65 => ⟨S32768x256, .f32⟩
  | 66 => ⟨S32768, .i32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S32768x128, .f32⟩
  | 76 => ⟨S32768x128, .f32⟩
  | 77 => ⟨S16384x256, .f32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x128, .f32⟩
  | 88 => ⟨S16384x128, .f32⟩
  | 89 => ⟨S8192x256, .f32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192x128, .f32⟩
  | 100 => ⟨S8192x128, .f32⟩
  | 101 => ⟨S4096x256, .f32⟩
  | 102 => ⟨S4096, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S4096x128, .f32⟩
  | 112 => ⟨S4096x128, .f32⟩
  | 113 => ⟨S2048x256, .f32⟩
  | 114 => ⟨S2048, .i32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S2048x1, .i32⟩
  | 123 => ⟨S2048x128, .f32⟩
  | 124 => ⟨S2048x128, .f32⟩
  | 125 => ⟨S1024x256, .f32⟩
  | 126 => ⟨S1024, .i32⟩
  | 127 => ⟨S_, .i32⟩
  | _ => ⟨S524288, .i32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1024x128, .f32⟩
  | 8 => ⟨S1024x128, .f32⟩
  | 9 => ⟨S512x256, .f32⟩
  | 10 => ⟨S512, .i32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S512x128, .f32⟩
  | 20 => ⟨S512x128, .f32⟩
  | 21 => ⟨S256x256, .f32⟩
  | 22 => ⟨S256, .i32⟩
  | 23 => ⟨S_, .i32⟩
  | 24 => ⟨S256, .i32⟩
  | 25 => ⟨S256, .i1⟩
  | 26 => ⟨S_, .i32⟩
  | 27 => ⟨S256, .i32⟩
  | 28 => ⟨S256, .i32⟩
  | 29 => ⟨S256, .i32⟩
  | 30 => ⟨S256x1, .i32⟩
  | 31 => ⟨S256x128, .f32⟩
  | 32 => ⟨S256x128, .f32⟩
  | 33 => ⟨S128x256, .f32⟩
  | 34 => ⟨S128, .i32⟩
  | 35 => ⟨S_, .i32⟩
  | 36 => ⟨S128, .i32⟩
  | 37 => ⟨S128, .i1⟩
  | 38 => ⟨S_, .i32⟩
  | 39 => ⟨S128, .i32⟩
  | 40 => ⟨S128, .i32⟩
  | 41 => ⟨S128, .i32⟩
  | 42 => ⟨S128x1, .i32⟩
  | 43 => ⟨S128x128, .f32⟩
  | 44 => ⟨S128x128, .f32⟩
  | 45 => ⟨S64x256, .f32⟩
  | 46 => ⟨S64, .i32⟩
  | 47 => ⟨S_, .i32⟩
  | 48 => ⟨S64, .i32⟩
  | 49 => ⟨S64, .i1⟩
  | 50 => ⟨S_, .i32⟩
  | 51 => ⟨S64, .i32⟩
  | 52 => ⟨S64, .i32⟩
  | 53 => ⟨S64, .i32⟩
  | 54 => ⟨S64x1, .i32⟩
  | 55 => ⟨S64x128, .f32⟩
  | 56 => ⟨S64x128, .f32⟩
  | 57 => ⟨S32x256, .f32⟩
  | 58 => ⟨S32, .i32⟩
  | 59 => ⟨S_, .i32⟩
  | 60 => ⟨S32, .i32⟩
  | 61 => ⟨S32, .i1⟩
  | 62 => ⟨S_, .i32⟩
  | 63 => ⟨S32, .i32⟩
  | 64 => ⟨S32, .i32⟩
  | 65 => ⟨S32, .i32⟩
  | 66 => ⟨S32x1, .i32⟩
  | 67 => ⟨S32x128, .f32⟩
  | 68 => ⟨S32x128, .f32⟩
  | 69 => ⟨S16x256, .f32⟩
  | 70 => ⟨S16, .i32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S16x128, .f32⟩
  | 80 => ⟨S16x128, .f32⟩
  | 81 => ⟨S8x256, .f32⟩
  | 82 => ⟨S8, .i32⟩
  | 83 => ⟨S_, .i32⟩
  | 84 => ⟨S8, .i32⟩
  | 85 => ⟨S8, .i1⟩
  | 86 => ⟨S_, .i32⟩
  | 87 => ⟨S8, .i32⟩
  | 88 => ⟨S8, .i32⟩
  | 89 => ⟨S8, .i32⟩
  | 90 => ⟨S8x1, .i32⟩
  | 91 => ⟨S8x128, .f32⟩
  | 92 => ⟨S8x128, .f32⟩
  | 93 => ⟨S4x256, .f32⟩
  | 94 => ⟨S4, .i32⟩
  | 95 => ⟨S_, .i32⟩
  | 96 => ⟨S4, .i32⟩
  | 97 => ⟨S4, .i1⟩
  | 98 => ⟨S_, .i32⟩
  | 99 => ⟨S4, .i32⟩
  | 100 => ⟨S4, .i32⟩
  | 101 => ⟨S4, .i32⟩
  | 102 => ⟨S4x1, .i32⟩
  | 103 => ⟨S4x128, .f32⟩
  | 104 => ⟨S4x128, .f32⟩
  | 105 => ⟨S2x256, .f32⟩
  | 106 => ⟨S2, .i32⟩
  | 107 => ⟨S_, .i32⟩
  | 108 => ⟨S2, .i32⟩
  | 109 => ⟨S2, .i1⟩
  | 110 => ⟨S_, .i32⟩
  | 111 => ⟨S2, .i32⟩
  | 112 => ⟨S2, .i32⟩
  | 113 => ⟨S2, .i32⟩
  | 114 => ⟨S2x1, .i32⟩
  | 115 => ⟨S2x128, .f32⟩
  | 116 => ⟨S2x128, .f32⟩
  | 117 => ⟨S1x256, .f32⟩
  | 118 => ⟨S1, .i32⟩
  | 119 => ⟨S_, .i32⟩
  | 120 => ⟨S1, .i32⟩
  | 121 => ⟨S1, .i1⟩
  | 122 => ⟨S_, .i32⟩
  | 123 => ⟨S1, .i32⟩
  | 124 => ⟨S1, .i32⟩
  | 125 => ⟨S1, .i32⟩
  | 126 => ⟨S1x1, .i32⟩
  | 127 => ⟨S1x128, .f32⟩
  | _ => ⟨S524288, .i32⟩

abbrev hbmTy0_2 (i : Nat) : BufTy := match i % 128 with
  | 0 => ⟨S1x128, .f32⟩
  | _ => ⟨S524288, .i32⟩

abbrev hbmTy (i : Nat) : BufTy := match i / 128 with
  | 0 => hbmTy0_0 i
  | 1 => hbmTy0_1 i
  | 2 => hbmTy0_2 i
  | _ => ⟨S524288, .i32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S256x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x256, .f32⟩
  | .local _ .vmem, ⟨9, _⟩ => ⟨S4096x256, .f32⟩
  | .local _ .vmem, ⟨10, _⟩ => ⟨S4096x128, .f32⟩
  | .local _ .vmem, ⟨11, _⟩ => ⟨S4096x128, .f32⟩
  | .local _ .vmem, ⟨12, _⟩ => ⟨S256x128, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S4096x256, .f32⟩
  | .local _ .vmem, ⟨17, _⟩ => ⟨S4096x256, .f32⟩
  | .local _ .vmem, ⟨18, _⟩ => ⟨S4096x128, .f32⟩
  | .local _ .vmem, ⟨19, _⟩ => ⟨S4096x128, .f32⟩
  | .local _ .vmem, ⟨20, _⟩ => ⟨S256x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | .local _ .vmem, ⟨28, _⟩ => ⟨S256x128, .f32⟩
  | .local _ .vmem, ⟨29, _⟩ => ⟨S1x128, .f32⟩
  | .local _ .vmem, ⟨30, _⟩ => ⟨S4096x128, .f32⟩
  | .local _ .vmem, ⟨31, _⟩ => ⟨S4096x128, .f32⟩
  | .local _ .vmem, ⟨32, _⟩ => ⟨S4096x256, .f32⟩
  | .local _ .vmem, ⟨33, _⟩ => ⟨S4096x256, .f32⟩
  | .local _ .vmem, ⟨34, _⟩ => ⟨S4096x128, .f32⟩
  | .local _ .vmem, ⟨35, _⟩ => ⟨S4096x128, .f32⟩
  | .local _ .vmem, ⟨36, _⟩ => ⟨S256x128, .f32⟩
  | .local _ .vmem, ⟨37, _⟩ => ⟨S1x128, .f32⟩
  | .local _ .vmem, ⟨38, _⟩ => ⟨S4096x128, .f32⟩
  | .local _ .vmem, ⟨39, _⟩ => ⟨S4096x128, .f32⟩
  | .local _ .vmem, ⟨40, _⟩ => ⟨S4096x256, .f32⟩
  | .local _ .vmem, ⟨41, _⟩ => ⟨S4096x256, .f32⟩
  | .local _ .vmem, ⟨42, _⟩ => ⟨S4096x128, .f32⟩
  | .local _ .vmem, ⟨43, _⟩ => ⟨S4096x128, .f32⟩
  | .local _ .vmem, ⟨44, _⟩ => ⟨S256x128, .f32⟩
  | .local _ .vmem, ⟨45, _⟩ => ⟨S1x128, .f32⟩
  | .local _ .vmem, ⟨46, _⟩ => ⟨S4096x128, .f32⟩
  | .local _ .vmem, ⟨47, _⟩ => ⟨S4096x128, .f32⟩
  | .local _ .vmem, ⟨48, _⟩ => ⟨S4096x256, .f32⟩
  | .local _ .vmem, ⟨49, _⟩ => ⟨S4096x128, .f32⟩
  | .local _ .vmem, ⟨50, _⟩ => ⟨S256x128, .f32⟩
  | .local _ .vmem, ⟨51, _⟩ => ⟨S1x128, .f32⟩
  | .local _ .vmem, ⟨52, _⟩ => ⟨S4096x128, .f32⟩
  | .local _ .vmem, ⟨53, _⟩ => ⟨S2048x256, .f32⟩
  | .local _ .vmem, ⟨54, _⟩ => ⟨S2048x128, .f32⟩
  | .local _ .vmem, ⟨55, _⟩ => ⟨S256x128, .f32⟩
  | .local _ .vmem, ⟨56, _⟩ => ⟨S1x128, .f32⟩
  | .local _ .vmem, ⟨57, _⟩ => ⟨S2048x128, .f32⟩
  | .local _ .vmem, ⟨58, _⟩ => ⟨S1024x256, .f32⟩
  | .local _ .vmem, ⟨59, _⟩ => ⟨S1024x128, .f32⟩
  | .local _ .vmem, ⟨60, _⟩ => ⟨S256x128, .f32⟩
  | .local _ .vmem, ⟨61, _⟩ => ⟨S1x128, .f32⟩
  | .local _ .vmem, ⟨62, _⟩ => ⟨S1024x128, .f32⟩
  | .local _ .vmem, ⟨63, _⟩ => ⟨S512x256, .f32⟩
  | .local _ .vmem, ⟨64, _⟩ => ⟨S512x128, .f32⟩
  | .local _ .vmem, ⟨65, _⟩ => ⟨S256x128, .f32⟩
  | .local _ .vmem, ⟨66, _⟩ => ⟨S1x128, .f32⟩
  | .local _ .vmem, ⟨67, _⟩ => ⟨S512x128, .f32⟩
  | .local _ .vmem, ⟨68, _⟩ => ⟨S256x256, .f32⟩
  | .local _ .vmem, ⟨69, _⟩ => ⟨S256x128, .f32⟩
  | .local _ .vmem, ⟨70, _⟩ => ⟨S256x128, .f32⟩
  | .local _ .vmem, ⟨71, _⟩ => ⟨S1x128, .f32⟩
  | .local _ .vmem, ⟨72, _⟩ => ⟨S256x128, .f32⟩
  | .local _ .vmem, ⟨73, _⟩ => ⟨S128x256, .f32⟩
  | .local _ .vmem, ⟨74, _⟩ => ⟨S128x128, .f32⟩
  | .local _ .vmem, ⟨75, _⟩ => ⟨S256x128, .f32⟩
  | .local _ .vmem, ⟨76, _⟩ => ⟨S1x128, .f32⟩
  | .local _ .vmem, ⟨77, _⟩ => ⟨S128x128, .f32⟩
  | .local _ .vmem, ⟨78, _⟩ => ⟨S64x256, .f32⟩
  | .local _ .vmem, ⟨79, _⟩ => ⟨S64x128, .f32⟩
  | .local _ .vmem, ⟨80, _⟩ => ⟨S256x128, .f32⟩
  | .local _ .vmem, ⟨81, _⟩ => ⟨S1x128, .f32⟩
  | .local _ .vmem, ⟨82, _⟩ => ⟨S64x128, .f32⟩
  | .local _ .vmem, ⟨83, _⟩ => ⟨S32x256, .f32⟩
  | .local _ .vmem, ⟨84, _⟩ => ⟨S32x128, .f32⟩
  | .local _ .vmem, ⟨85, _⟩ => ⟨S256x128, .f32⟩
  | .local _ .vmem, ⟨86, _⟩ => ⟨S1x128, .f32⟩
  | .local _ .vmem, ⟨87, _⟩ => ⟨S32x128, .f32⟩
  | .local _ .vmem, ⟨88, _⟩ => ⟨S16x256, .f32⟩
  | .local _ .vmem, ⟨89, _⟩ => ⟨S16x128, .f32⟩
  | .local _ .vmem, ⟨90, _⟩ => ⟨S256x128, .f32⟩
  | .local _ .vmem, ⟨91, _⟩ => ⟨S1x128, .f32⟩
  | .local _ .vmem, ⟨92, _⟩ => ⟨S16x128, .f32⟩
  | .local _ .vmem, ⟨93, _⟩ => ⟨S8x256, .f32⟩
  | .local _ .vmem, ⟨94, _⟩ => ⟨S8x128, .f32⟩
  | .local _ .vmem, ⟨95, _⟩ => ⟨S256x128, .f32⟩
  | .local _ .vmem, ⟨96, _⟩ => ⟨S1x128, .f32⟩
  | .local _ .vmem, ⟨97, _⟩ => ⟨S8x128, .f32⟩
  | .local _ .vmem, ⟨98, _⟩ => ⟨S4x256, .f32⟩
  | .local _ .vmem, ⟨99, _⟩ => ⟨S4x128, .f32⟩
  | .local _ .vmem, ⟨100, _⟩ => ⟨S256x128, .f32⟩
  | .local _ .vmem, ⟨101, _⟩ => ⟨S1x128, .f32⟩
  | .local _ .vmem, ⟨102, _⟩ => ⟨S4x128, .f32⟩
  | .local _ .vmem, ⟨103, _⟩ => ⟨S2x256, .f32⟩
  | .local _ .vmem, ⟨104, _⟩ => ⟨S2x128, .f32⟩
  | .local _ .vmem, ⟨105, _⟩ => ⟨S256x128, .f32⟩
  | .local _ .vmem, ⟨106, _⟩ => ⟨S1x128, .f32⟩
  | .local _ .vmem, ⟨107, _⟩ => ⟨S2x128, .f32⟩
  | .local _ .vmem, ⟨108, _⟩ => ⟨S1x256, .f32⟩
  | .local _ .vmem, ⟨109, _⟩ => ⟨S1x128, .f32⟩
  | .local _ .vmem, ⟨110, _⟩ => ⟨S256x128, .f32⟩
  | .local _ .vmem, ⟨111, _⟩ => ⟨S1x128, .f32⟩
  | .local _ .vmem, ⟨112, _⟩ => ⟨S1x128, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  ofTc nBuf bufTy 0 113 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_13 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_15 : Ref sig .tc := ⟨.hbm, 103, rfl⟩
abbrev main_v79 : Ref sig .tc := ⟨.hbm, 104, rfl⟩
abbrev main_v80 : Ref sig .tc := ⟨.hbm, 105, rfl⟩
abbrev main_c_16 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_17 : Ref sig .tc := ⟨.hbm, 115, rfl⟩
abbrev main_v89 : Ref sig .tc := ⟨.hbm, 116, rfl⟩
abbrev main_v90 : Ref sig .tc := ⟨.hbm, 117, rfl⟩
abbrev main_c_18 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_19 : Ref sig .tc := ⟨.hbm, 127, rfl⟩
abbrev main_v99 : Ref sig .tc := ⟨.hbm, 128, rfl⟩
abbrev main_v100 : Ref sig .tc := ⟨.hbm, 129, rfl⟩
abbrev main_c_20 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_21 : Ref sig .tc := ⟨.hbm, 139, rfl⟩
abbrev main_v109 : Ref sig .tc := ⟨.hbm, 140, rfl⟩
abbrev main_v110 : Ref sig .tc := ⟨.hbm, 141, rfl⟩
abbrev main_c_22 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_23 : Ref sig .tc := ⟨.hbm, 151, rfl⟩
abbrev main_v119 : Ref sig .tc := ⟨.hbm, 152, rfl⟩
abbrev main_v120 : Ref sig .tc := ⟨.hbm, 153, rfl⟩
abbrev main_c_24 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_25 : Ref sig .tc := ⟨.hbm, 163, rfl⟩
abbrev main_v129 : Ref sig .tc := ⟨.hbm, 164, rfl⟩
abbrev main_v130 : Ref sig .tc := ⟨.hbm, 165, rfl⟩
abbrev main_c_26 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_c_27 : Ref sig .tc := ⟨.hbm, 175, rfl⟩
abbrev main_v139 : Ref sig .tc := ⟨.hbm, 176, rfl⟩
abbrev main_v140 : Ref sig .tc := ⟨.hbm, 177, rfl⟩
abbrev main_c_28 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_29 : Ref sig .tc := ⟨.hbm, 187, rfl⟩
abbrev main_v149 : Ref sig .tc := ⟨.hbm, 188, rfl⟩
abbrev main_v150 : Ref sig .tc := ⟨.hbm, 189, rfl⟩
abbrev main_c_30 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c_31 : Ref sig .tc := ⟨.hbm, 199, rfl⟩
abbrev main_v159 : Ref sig .tc := ⟨.hbm, 200, rfl⟩
abbrev main_v160 : Ref sig .tc := ⟨.hbm, 201, rfl⟩
abbrev main_c_32 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_c_33 : Ref sig .tc := ⟨.hbm, 211, rfl⟩
abbrev main_v169 : Ref sig .tc := ⟨.hbm, 212, rfl⟩
abbrev main_v170 : Ref sig .tc := ⟨.hbm, 213, rfl⟩
abbrev main_c_34 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_c_35 : Ref sig .tc := ⟨.hbm, 223, rfl⟩
abbrev main_v179 : Ref sig .tc := ⟨.hbm, 224, rfl⟩
abbrev main_v180 : Ref sig .tc := ⟨.hbm, 225, rfl⟩
abbrev main_c_36 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_c_37 : Ref sig .tc := ⟨.hbm, 235, rfl⟩
abbrev main_v189 : Ref sig .tc := ⟨.hbm, 236, rfl⟩
abbrev main_v190 : Ref sig .tc := ⟨.hbm, 237, rfl⟩
abbrev main_c_38 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_c_39 : Ref sig .tc := ⟨.hbm, 247, rfl⟩
abbrev main_v199 : Ref sig .tc := ⟨.hbm, 248, rfl⟩
abbrev main_v200 : Ref sig .tc := ⟨.hbm, 249, rfl⟩
abbrev main_c_40 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc7_stg0_0 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc8_stg0_0 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc9_stg0_0 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg4_0 : Ref sig .tc := ⟨.vmem, 67, rfl⟩
abbrev cc10_stg0_0 : Ref sig .tc := ⟨.vmem, 68, rfl⟩
abbrev cc10_stg1_0 : Ref sig .tc := ⟨.vmem, 69, rfl⟩
abbrev cc10_stg2_0 : Ref sig .tc := ⟨.vmem, 70, rfl⟩
abbrev cc10_stg3_0 : Ref sig .tc := ⟨.vmem, 71, rfl⟩
abbrev cc10_stg4_0 : Ref sig .tc := ⟨.vmem, 72, rfl⟩
abbrev cc11_stg0_0 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg4_0 : Ref sig .tc := ⟨.vmem, 77, rfl⟩
abbrev cc12_stg0_0 : Ref sig .tc := ⟨.vmem, 78, rfl⟩
abbrev cc12_stg1_0 : Ref sig .tc := ⟨.vmem, 79, rfl⟩
abbrev cc12_stg2_0 : Ref sig .tc := ⟨.vmem, 80, rfl⟩
abbrev cc12_stg3_0 : Ref sig .tc := ⟨.vmem, 81, rfl⟩
abbrev cc12_stg4_0 : Ref sig .tc := ⟨.vmem, 82, rfl⟩
abbrev cc13_stg0_0 : Ref sig .tc := ⟨.vmem, 83, rfl⟩
abbrev cc13_stg1_0 : Ref sig .tc := ⟨.vmem, 84, rfl⟩
abbrev cc13_stg2_0 : Ref sig .tc := ⟨.vmem, 85, rfl⟩
abbrev cc13_stg3_0 : Ref sig .tc := ⟨.vmem, 86, rfl⟩
abbrev cc13_stg4_0 : Ref sig .tc := ⟨.vmem, 87, rfl⟩
abbrev cc14_stg0_0 : Ref sig .tc := ⟨.vmem, 88, rfl⟩
abbrev cc14_stg1_0 : Ref sig .tc := ⟨.vmem, 89, rfl⟩
abbrev cc14_stg2_0 : Ref sig .tc := ⟨.vmem, 90, rfl⟩
abbrev cc14_stg3_0 : Ref sig .tc := ⟨.vmem, 91, rfl⟩
abbrev cc14_stg4_0 : Ref sig .tc := ⟨.vmem, 92, rfl⟩
abbrev cc15_stg0_0 : Ref sig .tc := ⟨.vmem, 93, rfl⟩
abbrev cc15_stg1_0 : Ref sig .tc := ⟨.vmem, 94, rfl⟩
abbrev cc15_stg2_0 : Ref sig .tc := ⟨.vmem, 95, rfl⟩
abbrev cc15_stg3_0 : Ref sig .tc := ⟨.vmem, 96, rfl⟩
abbrev cc15_stg4_0 : Ref sig .tc := ⟨.vmem, 97, rfl⟩
abbrev cc16_stg0_0 : Ref sig .tc := ⟨.vmem, 98, rfl⟩
abbrev cc16_stg1_0 : Ref sig .tc := ⟨.vmem, 99, rfl⟩
abbrev cc16_stg2_0 : Ref sig .tc := ⟨.vmem, 100, rfl⟩
abbrev cc16_stg3_0 : Ref sig .tc := ⟨.vmem, 101, rfl⟩
abbrev cc16_stg4_0 : Ref sig .tc := ⟨.vmem, 102, rfl⟩
abbrev cc17_stg0_0 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg3_0 : Ref sig .tc := ⟨.vmem, 106, rfl⟩
abbrev cc17_stg4_0 : Ref sig .tc := ⟨.vmem, 107, rfl⟩
abbrev cc18_stg0_0 : Ref sig .tc := ⟨.vmem, 108, rfl⟩
abbrev cc18_stg1_0 : Ref sig .tc := ⟨.vmem, 109, rfl⟩
abbrev cc18_stg2_0 : Ref sig .tc := ⟨.vmem, 110, rfl⟩
abbrev cc18_stg3_0 : Ref sig .tc := ⟨.vmem, 111, rfl⟩
abbrev cc18_stg4_0 : Ref sig .tc := ⟨.vmem, 112, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc7_sem0_0 : DmaSem sig := 53
abbrev cc7_sem1_0 : DmaSem sig := 54
abbrev cc7_sem2_0 : DmaSem sig := 55
abbrev cc7_sem3_0 : DmaSem sig := 56
abbrev cc7_sem4_0 : DmaSem sig := 57
abbrev cc8_sem0_0 : DmaSem sig := 58
abbrev cc8_sem1_0 : DmaSem sig := 59
abbrev cc8_sem2_0 : DmaSem sig := 60
abbrev cc8_sem3_0 : DmaSem sig := 61
abbrev cc8_sem4_0 : DmaSem sig := 62
abbrev cc9_sem0_0 : DmaSem sig := 63
abbrev cc9_sem1_0 : DmaSem sig := 64
abbrev cc9_sem2_0 : DmaSem sig := 65
abbrev cc9_sem3_0 : DmaSem sig := 66
abbrev cc9_sem4_0 : DmaSem sig := 67
abbrev cc10_sem0_0 : DmaSem sig := 68
abbrev cc10_sem1_0 : DmaSem sig := 69
abbrev cc10_sem2_0 : DmaSem sig := 70
abbrev cc10_sem3_0 : DmaSem sig := 71
abbrev cc10_sem4_0 : DmaSem sig := 72
abbrev cc11_sem0_0 : DmaSem sig := 73
abbrev cc11_sem1_0 : DmaSem sig := 74
abbrev cc11_sem2_0 : DmaSem sig := 75
abbrev cc11_sem3_0 : DmaSem sig := 76
abbrev cc11_sem4_0 : DmaSem sig := 77
abbrev cc12_sem0_0 : DmaSem sig := 78
abbrev cc12_sem1_0 : DmaSem sig := 79
abbrev cc12_sem2_0 : DmaSem sig := 80
abbrev cc12_sem3_0 : DmaSem sig := 81
abbrev cc12_sem4_0 : DmaSem sig := 82
abbrev cc13_sem0_0 : DmaSem sig := 83
abbrev cc13_sem1_0 : DmaSem sig := 84
abbrev cc13_sem2_0 : DmaSem sig := 85
abbrev cc13_sem3_0 : DmaSem sig := 86
abbrev cc13_sem4_0 : DmaSem sig := 87
abbrev cc14_sem0_0 : DmaSem sig := 88
abbrev cc14_sem1_0 : DmaSem sig := 89
abbrev cc14_sem2_0 : DmaSem sig := 90
abbrev cc14_sem3_0 : DmaSem sig := 91
abbrev cc14_sem4_0 : DmaSem sig := 92
abbrev cc15_sem0_0 : DmaSem sig := 93
abbrev cc15_sem1_0 : DmaSem sig := 94
abbrev cc15_sem2_0 : DmaSem sig := 95
abbrev cc15_sem3_0 : DmaSem sig := 96
abbrev cc15_sem4_0 : DmaSem sig := 97
abbrev cc16_sem0_0 : DmaSem sig := 98
abbrev cc16_sem1_0 : DmaSem sig := 99
abbrev cc16_sem2_0 : DmaSem sig := 100
abbrev cc16_sem3_0 : DmaSem sig := 101
abbrev cc16_sem4_0 : DmaSem sig := 102
abbrev cc17_sem0_0 : DmaSem sig := 103
abbrev cc17_sem1_0 : DmaSem sig := 104
abbrev cc17_sem2_0 : DmaSem sig := 105
abbrev cc17_sem3_0 : DmaSem sig := 106
abbrev cc17_sem4_0 : DmaSem sig := 107
abbrev cc18_sem0_0 : DmaSem sig := 108
abbrev cc18_sem1_0 : DmaSem sig := 109
abbrev cc18_sem2_0 : DmaSem sig := 110
abbrev cc18_sem3_0 : DmaSem sig := 111
abbrev cc18_sem4_0 : DmaSem sig := 112

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4096x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4096x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S4096x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S4096x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S2048x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S2048x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2048x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1024x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1024x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S256x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1024x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S512x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S512x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S256x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S256x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S128x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S256x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S64x256 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev stage12_2 : Fin 1 → Memref sig .tc .vmem S256x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S32x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S32x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true]

abbrev stage13_2 : Fin 1 → Memref sig .tc .vmem S256x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S32x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S16x256 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S16x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S256x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S16x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S8x256 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S8x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![true]

abbrev stage15_2 : Fin 1 → Memref sig .tc .vmem S256x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S8x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S4x256 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S4x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![true]

abbrev stage16_2 : Fin 1 → Memref sig .tc .vmem S256x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S4x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S2x256 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S2x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true]

abbrev stage17_2 : Fin 1 → Memref sig .tc .vmem S256x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S2x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S1x256 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S1x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![true]

abbrev stage18_2 : Fin 1 → Memref sig .tc .vmem S256x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  transposes_S128x256_S256x128_1_0 : S128x256.Transposes [1, 0] S256x128
  shapeCasts_S128_S1x128 : S128.ShapeCasts S1x128
  shapeCasts_S524288x128_S262144x256 : S524288x128.ShapeCasts S262144x256
  slices_S524287_S262144_0 : S524287.Slices ![0] S262144
  bcast_S_S262144 : S_.BroadcastsInDim S262144 (![] : Fin 0 → Fin S262144.rank)
  bcast_S262144_S262144x1_0 : S262144.BroadcastsInDim S262144x1 (![0] : Fin 1 → Fin S262144x1.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S262144x128_S131072x256 : S262144x128.ShapeCasts S131072x256
  slices_S524287_S131072_262144 : S524287.Slices ![262144] S131072
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x128_S65536x256 : S131072x128.ShapeCasts S65536x256
  slices_S524287_S65536_393216 : S524287.Slices ![393216] S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x128_S32768x256 : S65536x128.ShapeCasts S32768x256
  slices_S524287_S32768_458752 : S524287.Slices ![458752] S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x128_S16384x256 : S32768x128.ShapeCasts S16384x256
  slices_S524287_S16384_491520 : S524287.Slices ![491520] S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x128_S8192x256 : S16384x128.ShapeCasts S8192x256
  slices_S524287_S8192_507904 : S524287.Slices ![507904] S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x128_S4096x256 : S8192x128.ShapeCasts S4096x256
  slices_S524287_S4096_516096 : S524287.Slices ![516096] S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x128_S2048x256 : S4096x128.ShapeCasts S2048x256
  slices_S524287_S2048_520192 : S524287.Slices ![520192] S2048
  bcast_S_S2048 : S_.BroadcastsInDim S2048 (![] : Fin 0 → Fin S2048.rank)
  bcast_S2048_S2048x1_0 : S2048.BroadcastsInDim S2048x1 (![0] : Fin 1 → Fin S2048x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  shapeCasts_S2048x128_S1024x256 : S2048x128.ShapeCasts S1024x256
  slices_S524287_S1024_522240 : S524287.Slices ![522240] S1024
  bcast_S_S1024 : S_.BroadcastsInDim S1024 (![] : Fin 0 → Fin S1024.rank)
  bcast_S1024_S1024x1_0 : S1024.BroadcastsInDim S1024x1 (![0] : Fin 1 → Fin S1024x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  shapeCasts_S1024x128_S512x256 : S1024x128.ShapeCasts S512x256
  slices_S524287_S512_523264 : S524287.Slices ![523264] S512
  bcast_S_S512 : S_.BroadcastsInDim S512 (![] : Fin 0 → Fin S512.rank)
  bcast_S512_S512x1_0 : S512.BroadcastsInDim S512x1 (![0] : Fin 1 → Fin S512x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  shapeCasts_S512x128_S256x256 : S512x128.ShapeCasts S256x256
  slices_S524287_S256_523776 : S524287.Slices ![523776] S256
  bcast_S_S256 : S_.BroadcastsInDim S256 (![] : Fin 0 → Fin S256.rank)
  bcast_S256_S256x1_0 : S256.BroadcastsInDim S256x1 (![0] : Fin 1 → Fin S256x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x128_S256x128 : S1x128.Broadcasts S256x128
  shapeCasts_S256x128_S128x256 : S256x128.ShapeCasts S128x256
  slices_S524287_S128_524032 : S524287.Slices ![524032] S128
  bcast_S_S128 : S_.BroadcastsInDim S128 (![] : Fin 0 → Fin S128.rank)
  bcast_S128_S128x1_0 : S128.BroadcastsInDim S128x1 (![0] : Fin 1 → Fin S128x1.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S128x128 : S1x128.Broadcasts S128x128
  shapeCasts_S128x128_S64x256 : S128x128.ShapeCasts S64x256
  slices_S524287_S64_524160 : S524287.Slices ![524160] S64
  bcast_S_S64 : S_.BroadcastsInDim S64 (![] : Fin 0 → Fin S64.rank)
  bcast_S64_S64x1_0 : S64.BroadcastsInDim S64x1 (![0] : Fin 1 → Fin S64x1.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  shapeCasts_S64x128_S32x256 : S64x128.ShapeCasts S32x256
  slices_S524287_S32_524224 : S524287.Slices ![524224] S32
  bcast_S_S32 : S_.BroadcastsInDim S32 (![] : Fin 0 → Fin S32.rank)
  bcast_S32_S32x1_0 : S32.BroadcastsInDim S32x1 (![0] : Fin 1 → Fin S32x1.rank)
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S32x128 : S1x128.Broadcasts S32x128
  shapeCasts_S32x128_S16x256 : S32x128.ShapeCasts S16x256
  slices_S524287_S16_524256 : S524287.Slices ![524256] S16
  bcast_S_S16 : S_.BroadcastsInDim S16 (![] : Fin 0 → Fin S16.rank)
  bcast_S16_S16x1_0 : S16.BroadcastsInDim S16x1 (![0] : Fin 1 → Fin S16x1.rank)
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S16x128 : S1x128.Broadcasts S16x128
  shapeCasts_S16x128_S8x256 : S16x128.ShapeCasts S8x256
  slices_S524287_S8_524272 : S524287.Slices ![524272] S8
  bcast_S_S8 : S_.BroadcastsInDim S8 (![] : Fin 0 → Fin S8.rank)
  bcast_S8_S8x1_0 : S8.BroadcastsInDim S8x1 (![0] : Fin 1 → Fin S8x1.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  broadcasts_S1x128_S8x128 : S1x128.Broadcasts S8x128
  shapeCasts_S8x128_S4x256 : S8x128.ShapeCasts S4x256
  slices_S524287_S4_524280 : S524287.Slices ![524280] S4
  bcast_S_S4 : S_.BroadcastsInDim S4 (![] : Fin 0 → Fin S4.rank)
  bcast_S4_S4x1_0 : S4.BroadcastsInDim S4x1 (![0] : Fin 1 → Fin S4x1.rank)
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x128_S4x128_0_0 : ∀ a, (![0, 0] : Fin 2 → Nat) a + S4x128.size a ≤ S4x128.size a
  h_S4x128 : 0 < S4x128.numel
  shapeCasts_S4x128_S4x128 : S4x128.ShapeCasts S4x128
  broadcasts_S1x128_S4x128 : S1x128.Broadcasts S4x128
  shapeCasts_S4x128_S2x256 : S4x128.ShapeCasts S2x256
  slices_S524287_S2_524284 : S524287.Slices ![524284] S2
  bcast_S_S2 : S_.BroadcastsInDim S2 (![] : Fin 0 → Fin S2.rank)
  bcast_S2_S2x1_0 : S2.BroadcastsInDim S2x1 (![0] : Fin 1 → Fin S2x1.rank)
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x128_S2x128_0_0 : ∀ a, (![0, 0] : Fin 2 → Nat) a + S2x128.size a ≤ S2x128.size a
  h_S2x128 : 0 < S2x128.numel
  shapeCasts_S2x128_S2x128 : S2x128.ShapeCasts S2x128
  broadcasts_S1x128_S2x128 : S1x128.Broadcasts S2x128
  shapeCasts_S2x128_S1x256 : S2x128.ShapeCasts S1x256
  slices_S524287_S1_524286 : S524287.Slices ![524286] S1
  bcast_S_S1 : S_.BroadcastsInDim S1 (![] : Fin 0 → Fin S1.rank)
  bcast_S1_S1x1_0 : S1.BroadcastsInDim S1x1 (![0] : Fin 1 → Fin S1x1.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  gather_S64x64_S524288x1_S524288x64_1_0_n_n_0_1_164_wf : GatherDims.WF S64x64 S524288x1 S524288x64 [1] [0] [] [0] [] 1 ![1, 64]
  gather_S100000x64_S524288x1_S524288x64_1_0_n_n_0_1_164_wf : GatherDims.WF S100000x64 S524288x1 S524288x64 [1] [0] [] [0] [] 1 ![1, 64]
  gather_S64x128_S262144x1_S262144x128_1_0_n_n_0_1_1128_wf : GatherDims.WF S64x128 S262144x1 S262144x128 [1] [0] [] [0] [] 1 ![1, 128]
  dot_S4096x256_S256x128_S4096x128_1_0_0_1_n_n_wf : DotDims.WF S4096x256 S256x128 S4096x128 [1] [0] [0] [1] [] []
  gather_S64x128_S131072x1_S131072x128_1_0_n_n_0_1_1128_wf : GatherDims.WF S64x128 S131072x1 S131072x128 [1] [0] [] [0] [] 1 ![1, 128]
  gather_S64x128_S65536x1_S65536x128_1_0_n_n_0_1_1128_wf : GatherDims.WF S64x128 S65536x1 S65536x128 [1] [0] [] [0] [] 1 ![1, 128]
  gather_S64x128_S32768x1_S32768x128_1_0_n_n_0_1_1128_wf : GatherDims.WF S64x128 S32768x1 S32768x128 [1] [0] [] [0] [] 1 ![1, 128]
  gather_S64x128_S16384x1_S16384x128_1_0_n_n_0_1_1128_wf : GatherDims.WF S64x128 S16384x1 S16384x128 [1] [0] [] [0] [] 1 ![1, 128]
  gather_S64x128_S8192x1_S8192x128_1_0_n_n_0_1_1128_wf : GatherDims.WF S64x128 S8192x1 S8192x128 [1] [0] [] [0] [] 1 ![1, 128]
  gather_S64x128_S4096x1_S4096x128_1_0_n_n_0_1_1128_wf : GatherDims.WF S64x128 S4096x1 S4096x128 [1] [0] [] [0] [] 1 ![1, 128]
  gather_S64x128_S2048x1_S2048x128_1_0_n_n_0_1_1128_wf : GatherDims.WF S64x128 S2048x1 S2048x128 [1] [0] [] [0] [] 1 ![1, 128]
  dot_S2048x256_S256x128_S2048x128_1_0_0_1_n_n_wf : DotDims.WF S2048x256 S256x128 S2048x128 [1] [0] [0] [1] [] []
  gather_S64x128_S1024x1_S1024x128_1_0_n_n_0_1_1128_wf : GatherDims.WF S64x128 S1024x1 S1024x128 [1] [0] [] [0] [] 1 ![1, 128]
  dot_S1024x256_S256x128_S1024x128_1_0_0_1_n_n_wf : DotDims.WF S1024x256 S256x128 S1024x128 [1] [0] [0] [1] [] []
  gather_S64x128_S512x1_S512x128_1_0_n_n_0_1_1128_wf : GatherDims.WF S64x128 S512x1 S512x128 [1] [0] [] [0] [] 1 ![1, 128]
  dot_S512x256_S256x128_S512x128_1_0_0_1_n_n_wf : DotDims.WF S512x256 S256x128 S512x128 [1] [0] [0] [1] [] []
  gather_S64x128_S256x1_S256x128_1_0_n_n_0_1_1128_wf : GatherDims.WF S64x128 S256x1 S256x128 [1] [0] [] [0] [] 1 ![1, 128]
  dot_S256x256_S256x128_S256x128_1_0_0_1_n_n_wf : DotDims.WF S256x256 S256x128 S256x128 [1] [0] [0] [1] [] []
  gather_S64x128_S128x1_S128x128_1_0_n_n_0_1_1128_wf : GatherDims.WF S64x128 S128x1 S128x128 [1] [0] [] [0] [] 1 ![1, 128]
  dot_S128x256_S256x128_S128x128_1_0_0_1_n_n_wf : DotDims.WF S128x256 S256x128 S128x128 [1] [0] [0] [1] [] []
  gather_S64x128_S64x1_S64x128_1_0_n_n_0_1_1128_wf : GatherDims.WF S64x128 S64x1 S64x128 [1] [0] [] [0] [] 1 ![1, 128]
  dot_S64x256_S256x128_S64x128_1_0_0_1_n_n_wf : DotDims.WF S64x256 S256x128 S64x128 [1] [0] [0] [1] [] []
  gather_S64x128_S32x1_S32x128_1_0_n_n_0_1_1128_wf : GatherDims.WF S64x128 S32x1 S32x128 [1] [0] [] [0] [] 1 ![1, 128]
  dot_S32x256_S256x128_S32x128_1_0_0_1_n_n_wf : DotDims.WF S32x256 S256x128 S32x128 [1] [0] [0] [1] [] []
  gather_S64x128_S16x1_S16x128_1_0_n_n_0_1_1128_wf : GatherDims.WF S64x128 S16x1 S16x128 [1] [0] [] [0] [] 1 ![1, 128]
  dot_S16x256_S256x128_S16x128_1_0_0_1_n_n_wf : DotDims.WF S16x256 S256x128 S16x128 [1] [0] [0] [1] [] []
  gather_S64x128_S8x1_S8x128_1_0_n_n_0_1_1128_wf : GatherDims.WF S64x128 S8x1 S8x128 [1] [0] [] [0] [] 1 ![1, 128]
  dot_S8x256_S256x128_S8x128_1_0_0_1_n_n_wf : DotDims.WF S8x256 S256x128 S8x128 [1] [0] [0] [1] [] []
  gather_S64x128_S4x1_S4x128_1_0_n_n_0_1_1128_wf : GatherDims.WF S64x128 S4x1 S4x128 [1] [0] [] [0] [] 1 ![1, 128]
  dot_S4x256_S256x128_S4x128_1_0_0_1_n_n_wf : DotDims.WF S4x256 S256x128 S4x128 [1] [0] [0] [1] [] []
  gather_S64x128_S2x1_S2x128_1_0_n_n_0_1_1128_wf : GatherDims.WF S64x128 S2x1 S2x128 [1] [0] [] [0] [] 1 ![1, 128]
  dot_S2x256_S256x128_S2x128_1_0_0_1_n_n_wf : DotDims.WF S2x256 S256x128 S2x128 [1] [0] [0] [1] [] []
  gather_S64x128_S1x1_S1x128_1_0_n_n_0_1_1128_wf : GatherDims.WF S64x128 S1x1 S1x128 [1] [0] [] [0] [] 1 ![1, 128]
  dot_S1x256_S256x128_S1x128_1_0_0_1_n_n_wf : DotDims.WF S1x256 S256x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S131072x128.size a
  hwx1_1 : ∀ i : grid1.Coords, EltTy.bits .f32 = 32 ∨ (Rect.block (s := S131072x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S131072x128.size a
  hwx1_4 : ∀ i : grid1.Coords, EltTy.bits .f32 = 32 ∨ (Rect.block (s := S131072x128) S4096x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S65536x256.size a
  hwx2_0 : ∀ i : grid2.Coords, EltTy.bits .f32 = 32 ∨ (Rect.block (s := S65536x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S65536x128.size a
  hwx2_1 : ∀ i : grid2.Coords, EltTy.bits .f32 = 32 ∨ (Rect.block (s := S65536x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S65536x128.size a
  hwx2_4 : ∀ i : grid2.Coords, EltTy.bits .f32 = 32 ∨ (Rect.block (s := S65536x128) S4096x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S32768x128.size a
  hwx3_1 : ∀ i : grid3.Coords, EltTy.bits .f32 = 32 ∨ (Rect.block (s := S32768x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x128.size a ≤ S32768x128.size a
  hwx3_4 : ∀ i : grid3.Coords, EltTy.bits .f32 = 32 ∨ (Rect.block (s := S32768x128) S4096x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S16384x256.size a
  hwx4_0 : ∀ i : grid4.Coords, EltTy.bits .f32 = 32 ∨ (Rect.block (s := S16384x256) S4096x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S16384x128.size a
  hwx4_1 : ∀ i : grid4.Coords, EltTy.bits .f32 = 32 ∨ (Rect.block (s := S16384x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x128.size a ≤ S16384x128.size a
  hwx4_4 : ∀ i : grid4.Coords, EltTy.bits .f32 = 32 ∨ (Rect.block (s := S16384x128) S4096x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S8192x256.size a
  hwx5_0 : ∀ i : grid5.Coords, EltTy.bits .f32 = 32 ∨ (Rect.block (s := S8192x256) S4096x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S8192x128.size a
  hwx5_1 : ∀ i : grid5.Coords, EltTy.bits .f32 = 32 ∨ (Rect.block (s := S8192x128) S4096x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x128.size a ≤ S8192x128.size a
  hwx5_4 : ∀ i : grid5.Coords, EltTy.bits .f32 = 32 ∨ (Rect.block (s := S8192x128) S4096x128.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S4096x256.size a
  hwx6_0 : ∀ i : grid6.Coords, EltTy.bits .f32 = 32 ∨ (Rect.block (s := S4096x256) S4096x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S4096x128.size a
  hwx6_1 : ∀ i : grid6.Coords, EltTy.bits .f32 = 32 ∨ (Rect.block (s := S4096x128) S4096x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_4 i = cc6_transform_4 i'
  hinb6_4 : ∀ (i : grid6.Coords) a, (cc6_transform_4 i a + 1) * S4096x128.size a ≤ S4096x128.size a
  hwx6_4 : ∀ i : grid6.Coords, EltTy.bits .f32 = 32 ∨ (Rect.block (s := S4096x128) S4096x128.size (cc6_transform_4 i) (hinb6_4 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S2048x256.size a
  hwx7_0 : ∀ i : grid7.Coords, EltTy.bits .f32 = 32 ∨ (Rect.block (s := S2048x256) S2048x256.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S2048x128.size a ≤ S2048x128.size a
  hwx7_1 : ∀ i : grid7.Coords, EltTy.bits .f32 = 32 ∨ (Rect.block (s := S2048x128) S2048x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S2048x128.size a ≤ S2048x128.size a
  hwx7_4 : ∀ i : grid7.Coords, EltTy.bits .f32 = 32 ∨ (Rect.block (s := S2048x128) S2048x128.size (cc7_transform_4 i) (hinb7_4 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1024x256.size a ≤ S1024x256.size a
  hwx8_0 : ∀ i : grid8.Coords, EltTy.bits .f32 = 32 ∨ (Rect.block (s := S1024x256) S1024x256.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1024x128.size a ≤ S1024x128.size a
  hwx8_1 : ∀ i : grid8.Coords, EltTy.bits .f32 = 32 ∨ (Rect.block (s := S1024x128) S1024x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x128.size a ≤ S256x128.size a
  hwx8_2 : ∀ i : grid8.Coords, EltTy.bits .f32 = 32 ∨ (Rect.block (s := S256x128) S256x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S1024x128.size a ≤ S1024x128.size a
  hwx8_4 : ∀ i : grid8.Coords, EltTy.bits .f32 = 32 ∨ (Rect.block (s := S1024x128) S1024x128.size (cc8_transform_4 i) (hinb8_4 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x256.size a ≤ S512x256.size a
  hwx9_0 : ∀ i : grid9.Coords, EltTy.bits .f32 = 32 ∨ (Rect.block (s := S512x256) S512x256.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S512x128.size a ≤ S512x128.size a
  hwx9_1 : ∀ i : grid9.Coords, EltTy.bits .f32 = 32 ∨ (Rect.block (s := S512x128) S512x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x128.size a ≤ S256x128.size a
  hwx9_2 : ∀ i : grid9.Coords, EltTy.bits .f32 = 32 ∨ (Rect.block (s := S256x128) S256x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S512x128.size a ≤ S512x128.size a
  hwx9_4 : ∀ i : grid9.Coords, EltTy.bits .f32 = 32 ∨ (Rect.block (s := S512x128) S512x128.size (cc9_transform_4 i) (hinb9_4 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S256x256.size a ≤ S256x256.size a
  hwx10_0 : ∀ i : grid10.Coords, EltTy.bits .f32 = 32 ∨ (Rect.block (s := S256x256) S256x256.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x128.size a ≤ S256x128.size a
  hwx10_2 : ∀ i : grid10.Coords, EltTy.bits .f32 = 32 ∨ (Rect.block (s := S256x128) S256x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S256x128.size a ≤ S256x128.size a
  hwx10_4 : ∀ i : grid10.Coords, EltTy.bits .f32 = 32 ∨ (Rect.block (s := S256x128) S256x128.size (cc10_transform_4 i) (hinb10_4 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S128x256.size a ≤ S128x256.size a
  hwx11_0 : ∀ i : grid11.Coords, EltTy.bits .f32 = 32 ∨ (Rect.block (s := S128x256) S128x256.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x128.size a ≤ S256x128.size a
  hwx11_2 : ∀ i : grid11.Coords, EltTy.bits .f32 = 32 ∨ (Rect.block (s := S256x128) S256x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S128x128.size a ≤ S128x128.size a
  hwx11_4 : ∀ i : grid11.Coords, EltTy.bits .f32 = 32 ∨ (Rect.block (s := S128x128) S128x128.size (cc11_transform_4 i) (hinb11_4 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S64x256.size a ≤ S64x256.size a
  hwx12_0 : ∀ i : grid12.Coords, EltTy.bits .f32 = 32 ∨ (Rect.block (s := S64x256) S64x256.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S64x128.size a ≤ S64x128.size a
  hwx12_1 : ∀ i : grid12.Coords, EltTy.bits .f32 = 32 ∨ (Rect.block (s := S64x128) S64x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x128.size a ≤ S256x128.size a
  hwx12_2 : ∀ i : grid12.Coords, EltTy.bits .f32 = 32 ∨ (Rect.block (s := S256x128) S256x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 1
  hreads12_4 : ∀ i i' : grid12.Coords, (∀ a, reads12_4 a = true → i a = i' a) → cc12_transform_4 i = cc12_transform_4 i'
  hinb12_4 : ∀ (i : grid12.Coords) a, (cc12_transform_4 i a + 1) * S64x128.size a ≤ S64x128.size a
  hwx12_4 : ∀ i : grid12.Coords, EltTy.bits .f32 = 32 ∨ (Rect.block (s := S64x128) S64x128.size (cc12_transform_4 i) (hinb12_4 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S32x256.size a ≤ S32x256.size a
  hwx13_0 : ∀ i : grid13.Coords, EltTy.bits .f32 = 32 ∨ (Rect.block (s := S32x256) S32x256.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S32x128.size a ≤ S32x128.size a
  hwx13_1 : ∀ i : grid13.Coords, EltTy.bits .f32 = 32 ∨ (Rect.block (s := S32x128) S32x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x128.size a ≤ S256x128.size a
  hwx13_2 : ∀ i : grid13.Coords, EltTy.bits .f32 = 32 ∨ (Rect.block (s := S256x128) S256x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 1
  hreads13_4 : ∀ i i' : grid13.Coords, (∀ a, reads13_4 a = true → i a = i' a) → cc13_transform_4 i = cc13_transform_4 i'
  hinb13_4 : ∀ (i : grid13.Coords) a, (cc13_transform_4 i a + 1) * S32x128.size a ≤ S32x128.size a
  hwx13_4 : ∀ i : grid13.Coords, EltTy.bits .f32 = 32 ∨ (Rect.block (s := S32x128) S32x128.size (cc13_transform_4 i) (hinb13_4 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S16x256.size a ≤ S16x256.size a
  hwx14_0 : ∀ i : grid14.Coords, EltTy.bits .f32 = 32 ∨ (Rect.block (s := S16x256) S16x256.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S16x128.size a ≤ S16x128.size a
  hwx14_1 : ∀ i : grid14.Coords, EltTy.bits .f32 = 32 ∨ (Rect.block (s := S16x128) S16x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S256x128.size a ≤ S256x128.size a
  hwx14_2 : ∀ i : grid14.Coords, EltTy.bits .f32 = 32 ∨ (Rect.block (s := S256x128) S256x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 false = 1
  hreads14_4 : ∀ i i' : grid14.Coords, (∀ a, reads14_4 a = true → i a = i' a) → cc14_transform_4 i = cc14_transform_4 i'
  hinb14_4 : ∀ (i : grid14.Coords) a, (cc14_transform_4 i a + 1) * S16x128.size a ≤ S16x128.size a
  hwx14_4 : ∀ i : grid14.Coords, EltTy.bits .f32 = 32 ∨ (Rect.block (s := S16x128) S16x128.size (cc14_transform_4 i) (hinb14_4 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S8x256.size a ≤ S8x256.size a
  hwx15_0 : ∀ i : grid15.Coords, EltTy.bits .f32 = 32 ∨ (Rect.block (s := S8x256) S8x256.size (cc15_transform_0 i) (hinb15_0 i)).WholeWords (EltTy.packing .f32)
  hstage15_1 : ∀ j, (stage15_1 j).IsWhole
  nbuf15_1 : grid15.bufCount reads15_1 false = 1
  hreads15_1 : ∀ i i' : grid15.Coords, (∀ a, reads15_1 a = true → i a = i' a) → cc15_transform_1 i = cc15_transform_1 i'
  hinb15_1 : ∀ (i : grid15.Coords) a, (cc15_transform_1 i a + 1) * S8x128.size a ≤ S8x128.size a
  hwx15_1 : ∀ i : grid15.Coords, EltTy.bits .f32 = 32 ∨ (Rect.block (s := S8x128) S8x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x128.size a ≤ S256x128.size a
  hwx15_2 : ∀ i : grid15.Coords, EltTy.bits .f32 = 32 ∨ (Rect.block (s := S256x128) S256x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 false = 1
  hreads15_4 : ∀ i i' : grid15.Coords, (∀ a, reads15_4 a = true → i a = i' a) → cc15_transform_4 i = cc15_transform_4 i'
  hinb15_4 : ∀ (i : grid15.Coords) a, (cc15_transform_4 i a + 1) * S8x128.size a ≤ S8x128.size a
  hwx15_4 : ∀ i : grid15.Coords, EltTy.bits .f32 = 32 ∨ (Rect.block (s := S8x128) S8x128.size (cc15_transform_4 i) (hinb15_4 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S4x256.size a ≤ S4x256.size a
  hwx16_0 : ∀ i : grid16.Coords, EltTy.bits .f32 = 32 ∨ (Rect.block (s := S4x256) S4x256.size (cc16_transform_0 i) (hinb16_0 i)).WholeWords (EltTy.packing .f32)
  hstage16_1 : ∀ j, (stage16_1 j).IsWhole
  nbuf16_1 : grid16.bufCount reads16_1 false = 1
  hreads16_1 : ∀ i i' : grid16.Coords, (∀ a, reads16_1 a = true → i a = i' a) → cc16_transform_1 i = cc16_transform_1 i'
  hinb16_1 : ∀ (i : grid16.Coords) a, (cc16_transform_1 i a + 1) * S4x128.size a ≤ S4x128.size a
  hwx16_1 : ∀ i : grid16.Coords, EltTy.bits .f32 = 32 ∨ (Rect.block (s := S4x128) S4x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S256x128.size a ≤ S256x128.size a
  hwx16_2 : ∀ i : grid16.Coords, EltTy.bits .f32 = 32 ∨ (Rect.block (s := S256x128) S256x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 false = 1
  hreads16_4 : ∀ i i' : grid16.Coords, (∀ a, reads16_4 a = true → i a = i' a) → cc16_transform_4 i = cc16_transform_4 i'
  hinb16_4 : ∀ (i : grid16.Coords) a, (cc16_transform_4 i a + 1) * S4x128.size a ≤ S4x128.size a
  hwx16_4 : ∀ i : grid16.Coords, EltTy.bits .f32 = 32 ∨ (Rect.block (s := S4x128) S4x128.size (cc16_transform_4 i) (hinb16_4 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S2x256.size a ≤ S2x256.size a
  hwx17_0 : ∀ i : grid17.Coords, EltTy.bits .f32 = 32 ∨ (Rect.block (s := S2x256) S2x256.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S2x128.size a ≤ S2x128.size a
  hwx17_1 : ∀ i : grid17.Coords, EltTy.bits .f32 = 32 ∨ (Rect.block (s := S2x128) S2x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S256x128.size a ≤ S256x128.size a
  hwx17_2 : ∀ i : grid17.Coords, EltTy.bits .f32 = 32 ∨ (Rect.block (s := S256x128) S256x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 false = 1
  hreads17_4 : ∀ i i' : grid17.Coords, (∀ a, reads17_4 a = true → i a = i' a) → cc17_transform_4 i = cc17_transform_4 i'
  hinb17_4 : ∀ (i : grid17.Coords) a, (cc17_transform_4 i a + 1) * S2x128.size a ≤ S2x128.size a
  hwx17_4 : ∀ i : grid17.Coords, EltTy.bits .f32 = 32 ∨ (Rect.block (s := S2x128) S2x128.size (cc17_transform_4 i) (hinb17_4 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S1x256.size a ≤ S1x256.size a
  hwx18_0 : ∀ i : grid18.Coords, EltTy.bits .f32 = 32 ∨ (Rect.block (s := S1x256) S1x256.size (cc18_transform_0 i) (hinb18_0 i)).WholeWords (EltTy.packing .f32)
  hstage18_1 : ∀ j, (stage18_1 j).IsWhole
  nbuf18_1 : grid18.bufCount reads18_1 false = 1
  hreads18_1 : ∀ i i' : grid18.Coords, (∀ a, reads18_1 a = true → i a = i' a) → cc18_transform_1 i = cc18_transform_1 i'
  hinb18_1 : ∀ (i : grid18.Coords) a, (cc18_transform_1 i a + 1) * S1x128.size a ≤ S1x128.size a
  hwx18_1 : ∀ i : grid18.Coords, EltTy.bits .f32 = 32 ∨ (Rect.block (s := S1x128) S1x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S256x128.size a ≤ S256x128.size a
  hwx18_2 : ∀ i : grid18.Coords, EltTy.bits .f32 = 32 ∨ (Rect.block (s := S256x128) S256x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 false = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)

variable [Facts₀]

def gather_S64x64_S524288x1_S524288x64_1_0_n_n_0_1_164 : GatherDims S64x64 S524288x1 S524288x64 where
  offsetDims := [1]
  collapsedSliceDims := [0]
  operandBatchingDims := []
  startIndicesBatchingDims := []
  startIndexMap := [0]
  indexVectorDim := 1
  sliceSizes := ![1, 64]
  wf := gather_S64x64_S524288x1_S524288x64_1_0_n_n_0_1_164_wf
def gather_S100000x64_S524288x1_S524288x64_1_0_n_n_0_1_164 : GatherDims S100000x64 S524288x1 S524288x64 where
  offsetDims := [1]
  collapsedSliceDims := [0]
  operandBatchingDims := []
  startIndicesBatchingDims := []
  startIndexMap := [0]
  indexVectorDim := 1
  sliceSizes := ![1, 64]
  wf := gather_S100000x64_S524288x1_S524288x64_1_0_n_n_0_1_164_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S64x128_S131072x1_S131072x128_1_0_n_n_0_1_1128 : GatherDims S64x128 S131072x1 S131072x128 where
  offsetDims := [1]
  collapsedSliceDims := [0]
  operandBatchingDims := []
  startIndicesBatchingDims := []
  startIndexMap := [0]
  indexVectorDim := 1
  sliceSizes := ![1, 128]
  wf := gather_S64x128_S131072x1_S131072x128_1_0_n_n_0_1_1128_wf
def gather_S64x128_S65536x1_S65536x128_1_0_n_n_0_1_1128 : GatherDims S64x128 S65536x1 S65536x128 where
  offsetDims := [1]
  collapsedSliceDims := [0]
  operandBatchingDims := []
  startIndicesBatchingDims := []
  startIndexMap := [0]
  indexVectorDim := 1
  sliceSizes := ![1, 128]
  wf := gather_S64x128_S65536x1_S65536x128_1_0_n_n_0_1_1128_wf
def gather_S64x128_S32768x1_S32768x128_1_0_n_n_0_1_1128 : GatherDims S64x128 S32768x1 S32768x128 where
  offsetDims := [1]
  collapsedSliceDims := [0]
  operandBatchingDims := []
  startIndicesBatchingDims := []
  startIndexMap := [0]
  indexVectorDim := 1
  sliceSizes := ![1, 128]
  wf := gather_S64x128_S32768x1_S32768x128_1_0_n_n_0_1_1128_wf
def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf
def gather_S64x128_S4096x1_S4096x128_1_0_n_n_0_1_1128 : GatherDims S64x128 S4096x1 S4096x128 where
  offsetDims := [1]
  collapsedSliceDims := [0]
  operandBatchingDims := []
  startIndicesBatchingDims := []
  startIndexMap := [0]
  indexVectorDim := 1
  sliceSizes := ![1, 128]
  wf := gather_S64x128_S4096x1_S4096x128_1_0_n_n_0_1_1128_wf
def gather_S64x128_S2048x1_S2048x128_1_0_n_n_0_1_1128 : GatherDims S64x128 S2048x1 S2048x128 where
  offsetDims := [1]
  collapsedSliceDims := [0]
  operandBatchingDims := []
  startIndicesBatchingDims := []
  startIndexMap := [0]
  indexVectorDim := 1
  sliceSizes := ![1, 128]
  wf := gather_S64x128_S2048x1_S2048x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S64x128_S1024x1_S1024x128_1_0_n_n_0_1_1128 : GatherDims S64x128 S1024x1 S1024x128 where
  offsetDims := [1]
  collapsedSliceDims := [0]
  operandBatchingDims := []
  startIndicesBatchingDims := []
  startIndexMap := [0]
  indexVectorDim := 1
  sliceSizes := ![1, 128]
  wf := gather_S64x128_S1024x1_S1024x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S64x128_S512x1_S512x128_1_0_n_n_0_1_1128 : GatherDims S64x128 S512x1 S512x128 where
  offsetDims := [1]
  collapsedSliceDims := [0]
  operandBatchingDims := []
  startIndicesBatchingDims := []
  startIndexMap := [0]
  indexVectorDim := 1
  sliceSizes := ![1, 128]
  wf := gather_S64x128_S512x1_S512x128_1_0_n_n_0_1_1128_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def gather_S64x128_S256x1_S256x128_1_0_n_n_0_1_1128 : GatherDims S64x128 S256x1 S256x128 where
  offsetDims := [1]
  collapsedSliceDims := [0]
  operandBatchingDims := []
  startIndicesBatchingDims := []
  startIndexMap := [0]
  indexVectorDim := 1
  sliceSizes := ![1, 128]
  wf := gather_S64x128_S256x1_S256x128_1_0_n_n_0_1_1128_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def gather_S64x128_S128x1_S128x128_1_0_n_n_0_1_1128 : GatherDims S64x128 S128x1 S128x128 where
  offsetDims := [1]
  collapsedSliceDims := [0]
  operandBatchingDims := []
  startIndicesBatchingDims := []
  startIndexMap := [0]
  indexVectorDim := 1
  sliceSizes := ![1, 128]
  wf := gather_S64x128_S128x1_S128x128_1_0_n_n_0_1_1128_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def gather_S64x128_S64x1_S64x128_1_0_n_n_0_1_1128 : GatherDims S64x128 S64x1 S64x128 where
  offsetDims := [1]
  collapsedSliceDims := [0]
  operandBatchingDims := []
  startIndicesBatchingDims := []
  startIndexMap := [0]
  indexVectorDim := 1
  sliceSizes := ![1, 128]
  wf := gather_S64x128_S64x1_S64x128_1_0_n_n_0_1_1128_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def gather_S64x128_S32x1_S32x128_1_0_n_n_0_1_1128 : GatherDims S64x128 S32x1 S32x128 where
  offsetDims := [1]
  collapsedSliceDims := [0]
  operandBatchingDims := []
  startIndicesBatchingDims := []
  startIndexMap := [0]
  indexVectorDim := 1
  sliceSizes := ![1, 128]
  wf := gather_S64x128_S32x1_S32x128_1_0_n_n_0_1_1128_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def gather_S64x128_S16x1_S16x128_1_0_n_n_0_1_1128 : GatherDims S64x128 S16x1 S16x128 where
  offsetDims := [1]
  collapsedSliceDims := [0]
  operandBatchingDims := []
  startIndicesBatchingDims := []
  startIndexMap := [0]
  indexVectorDim := 1
  sliceSizes := ![1, 128]
  wf := gather_S64x128_S16x1_S16x128_1_0_n_n_0_1_1128_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def gather_S64x128_S8x1_S8x128_1_0_n_n_0_1_1128 : GatherDims S64x128 S8x1 S8x128 where
  offsetDims := [1]
  collapsedSliceDims := [0]
  operandBatchingDims := []
  startIndicesBatchingDims := []
  startIndexMap := [0]
  indexVectorDim := 1
  sliceSizes := ![1, 128]
  wf := gather_S64x128_S8x1_S8x128_1_0_n_n_0_1_1128_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def gather_S64x128_S4x1_S4x128_1_0_n_n_0_1_1128 : GatherDims S64x128 S4x1 S4x128 where
  offsetDims := [1]
  collapsedSliceDims := [0]
  operandBatchingDims := []
  startIndicesBatchingDims := []
  startIndexMap := [0]
  indexVectorDim := 1
  sliceSizes := ![1, 128]
  wf := gather_S64x128_S4x1_S4x128_1_0_n_n_0_1_1128_wf
def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf
def gather_S64x128_S2x1_S2x128_1_0_n_n_0_1_1128 : GatherDims S64x128 S2x1 S2x128 where
  offsetDims := [1]
  collapsedSliceDims := [0]
  operandBatchingDims := []
  startIndicesBatchingDims := []
  startIndexMap := [0]
  indexVectorDim := 1
  sliceSizes := ![1, 128]
  wf := gather_S64x128_S2x1_S2x128_1_0_n_n_0_1_1128_wf
def dot_S2x256_S256x128_S2x128_1_0_0_1_n_n : DotDims S2x256 S256x128 S2x128 where
  lhsContracting := [1]
  rhsContracting := [0]
  lhsNonContracting := [0]
  rhsNonContracting := [1]
  lhsBatch := []
  rhsBatch := []
  wf := dot_S2x256_S256x128_S2x128_1_0_0_1_n_n_wf
def gather_S64x128_S1x1_S1x128_1_0_n_n_0_1_1128 : GatherDims S64x128 S1x1 S1x128 where
  offsetDims := [1]
  collapsedSliceDims := [0]
  operandBatchingDims := []
  startIndicesBatchingDims := []
  startIndexMap := [0]
  indexVectorDim := 1
  sliceSizes := ![1, 128]
  wf := gather_S64x128_S1x1_S1x128_1_0_n_n_0_1_1128_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_v17) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S4096x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S4096x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S4096x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v67) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S4096x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v77) S4096x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v85) S4096x128.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v16) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S4096x128.size cc6_transform_4 reads6_4 true false 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v87) S2048x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v95) S2048x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S256x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v16) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v96) S2048x128.size cc7_transform_4 reads7_4 true false 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v97) S1024x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v105) S1024x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v15) S256x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v16) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v106) S1024x128.size cc8_transform_4 reads8_4 true false 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v107) S512x256.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v115) S512x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v15) S256x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v16) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v116) S512x128.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v117) S256x256.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v125) S256x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v15) S256x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v16) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v126) S256x128.size cc10_transform_4 reads10_4 true false 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v127) S128x256.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v135) S128x128.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v15) S256x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v16) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v136) S128x128.size cc11_transform_4 reads11_4 true false 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v137) S64x256.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v145) S64x128.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v15) S256x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v16) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v146) S64x128.size cc12_transform_4 reads12_4 true false 1 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v147) S32x256.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v155) S32x128.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v15) S256x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v16) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v156) S32x128.size cc13_transform_4 reads13_4 true false 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v157) S16x256.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v165) S16x128.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v15) S256x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v16) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v166) S16x128.size cc14_transform_4 reads14_4 true false 1 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v167) S8x256.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v175) S8x128.size cc15_transform_1 reads15_1 false false 1 stage15_1 sem15_1
    hrank15 hreads15_1 hinb15_1 nbuf15_1 (Memref.isWhole_whole _) hwx15_1 hstage15_1

abbrev win15_2 : Pipeline.Window sig grid15 :=
  Pipeline.Window.ofSpec (Memref.whole main_v15) S256x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v16) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v176) S8x128.size cc15_transform_4 reads15_4 true false 1 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v177) S4x256.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v185) S4x128.size cc16_transform_1 reads16_1 false false 1 stage16_1 sem16_1
    hrank16 hreads16_1 hinb16_1 nbuf16_1 (Memref.isWhole_whole _) hwx16_1 hstage16_1

abbrev win16_2 : Pipeline.Window sig grid16 :=
  Pipeline.Window.ofSpec (Memref.whole main_v15) S256x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v16) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v186) S4x128.size cc16_transform_4 reads16_4 true false 1 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v187) S2x256.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v195) S2x128.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v15) S256x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v16) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v196) S2x128.size cc17_transform_4 reads17_4 true false 1 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v197) S1x256.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v205) S1x128.size cc18_transform_1 reads18_1 false false 1 stage18_1 sem18_1
    hrank18 hreads18_1 hinb18_1 nbuf18_1 (Memref.isWhole_whole _) hwx18_1 hstage18_1

abbrev win18_2 : Pipeline.Window sig grid18 :=
  Pipeline.Window.ofSpec (Memref.whole main_v15) S256x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v16) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v206) S1x128.size cc18_transform_4 reads18_4 true false 1 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

class Facts : Prop extends Facts₀ where

variable [Facts]
-- ==== ReferenceIdeal.lean ====
abbrev S524288 : Shape := ⟨1, ![524288]⟩
abbrev S524287 : Shape := ⟨1, ![524287]⟩
abbrev S100000x64 : Shape := ⟨2, ![100000, 64]⟩
abbrev S64x64 : Shape := ⟨2, ![64, 64]⟩
abbrev S64x128 : Shape := ⟨2, ![64, 128]⟩
abbrev S128x256 : Shape := ⟨2, ![128, 256]⟩
abbrev S128 : Shape := ⟨1, ![128]⟩
abbrev S_ : Shape := ⟨0, ![]⟩
abbrev S524288x1 : Shape := ⟨2, ![524288, 1]⟩
abbrev S524288x64 : Shape := ⟨2, ![524288, 64]⟩
abbrev S524288x128 : Shape := ⟨2, ![524288, 128]⟩
abbrev S262144x256 : Shape := ⟨2, ![262144, 256]⟩
abbrev S262144 : Shape := ⟨1, ![262144]⟩
abbrev S262144x1 : Shape := ⟨2, ![262144, 1]⟩
abbrev S262144x128 : Shape := ⟨2, ![262144, 128]⟩
abbrev S256x128 : Shape := ⟨2, ![256, 128]⟩
abbrev S1x128 : Shape := ⟨2, ![1, 128]⟩
abbrev S131072x256 : Shape := ⟨2, ![131072, 256]⟩
abbrev S131072 : Shape := ⟨1, ![131072]⟩
abbrev S131072x1 : Shape := ⟨2, ![131072, 1]⟩
abbrev S131072x128 : Shape := ⟨2, ![131072, 128]⟩
abbrev S65536x256 : Shape := ⟨2, ![65536, 256]⟩
abbrev S65536 : Shape := ⟨1, ![65536]⟩
abbrev S65536x1 : Shape := ⟨2, ![65536, 1]⟩
abbrev S65536x128 : Shape := ⟨2, ![65536, 128]⟩
abbrev S32768x256 : Shape := ⟨2, ![32768, 256]⟩
abbrev S32768 : Shape := ⟨1, ![32768]⟩
abbrev S32768x1 : Shape := ⟨2, ![32768, 1]⟩
abbrev S32768x128 : Shape := ⟨2, ![32768, 128]⟩
abbrev S16384x256 : Shape := ⟨2, ![16384, 256]⟩
abbrev S16384 : Shape := ⟨1, ![16384]⟩
abbrev S16384x1 : Shape := ⟨2, ![16384, 1]⟩
abbrev S16384x128 : Shape := ⟨2, ![16384, 128]⟩
abbrev S8192x256 : Shape := ⟨2, ![8192, 256]⟩
abbrev S8192 : Shape := ⟨1, ![8192]⟩
abbrev S8192x1 : Shape := ⟨2, ![8192, 1]⟩
abbrev S8192x128 : Shape := ⟨2, ![8192, 128]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S64x256 : Shape := ⟨2, ![64, 256]⟩
abbrev S64 : Shape := ⟨1, ![64]⟩
abbrev S64x1 : Shape := ⟨2, ![64, 1]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S16x256 : Shape := ⟨2, ![16, 256]⟩
abbrev S16 : Shape := ⟨1, ![16]⟩
abbrev S16x1 : Shape := ⟨2, ![16, 1]⟩
abbrev S16x128 : Shape := ⟨2, ![16, 128]⟩
abbrev S8x256 : Shape := ⟨2, ![8, 256]⟩
abbrev S8 : Shape := ⟨1, ![8]⟩
abbrev S8x1 : Shape := ⟨2, ![8, 1]⟩
abbrev S8x128 : Shape := ⟨2, ![8, 128]⟩
abbrev S4x256 : Shape := ⟨2, ![4, 256]⟩
abbrev S4 : Shape := ⟨1, ![4]⟩
abbrev S4x1 : Shape := ⟨2, ![4, 1]⟩
abbrev S4x128 : Shape := ⟨2, ![4, 128]⟩
abbrev S2x256 : Shape := ⟨2, ![2, 256]⟩
abbrev S2 : Shape := ⟨1, ![2]⟩
abbrev S2x1 : Shape := ⟨2, ![2, 1]⟩
abbrev S2x128 : Shape := ⟨2, ![2, 128]⟩
abbrev S1x256 : Shape := ⟨2, ![1, 256]⟩
abbrev S1 : Shape := ⟨1, ![1]⟩
abbrev S1x1 : Shape := ⟨2, ![1, 1]⟩

abbrev nBuf : Space → Nat
  | .hbm => 368
  | .vmem => 0
  | .smem => 0
  | _ => 0

abbrev hbmTy0_0 (i : Nat) : BufTy := match i % 128 with
  | 0 => ⟨S524288, .i32⟩
  | 1 => ⟨S524288, .i32⟩
  | 2 => ⟨S524287, .i32⟩
  | 3 => ⟨S100000x64, .f32⟩
  | 4 => ⟨S64x64, .f32⟩
  | 5 => ⟨S64x128, .f32⟩
  | 6 => ⟨S128x256, .f32⟩
  | 7 => ⟨S128, .f32⟩
  | 8 => ⟨S_, .i32⟩
  | 9 => ⟨S524288, .i32⟩
  | 10 => ⟨S524288, .i1⟩
  | 11 => ⟨S_, .i32⟩
  | 12 => ⟨S524288, .i32⟩
  | 13 => ⟨S524288, .i32⟩
  | 14 => ⟨S524288, .i32⟩
  | 15 => ⟨S524288x1, .i32⟩
  | 16 => ⟨S524288x64, .f32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x64, .f32⟩
  | 26 => ⟨S524288x128, .f32⟩
  | 27 => ⟨S262144x256, .f32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144x128, .f32⟩
  | 38 => ⟨S256x128, .f32⟩
  | 39 => ⟨S262144x128, .f32⟩
  | 40 => ⟨S262144x128, .f32⟩
  | 41 => ⟨S1x128, .f32⟩
  | 42 => ⟨S262144x128, .f32⟩
  | 43 => ⟨S262144x128, .f32⟩
  | 44 => ⟨S262144x128, .f32⟩
  | 45 => ⟨S131072x256, .f32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072x128, .f32⟩
  | 56 => ⟨S256x128, .f32⟩
  | 57 => ⟨S131072x128, .f32⟩
  | 58 => ⟨S131072x128, .f32⟩
  | 59 => ⟨S1x128, .f32⟩
  | 60 => ⟨S131072x128, .f32⟩
  | 61 => ⟨S131072x128, .f32⟩
  | 62 => ⟨S131072x128, .f32⟩
  | 63 => ⟨S65536x256, .f32⟩
  | 64 => ⟨S65536, .i32⟩
  | 65 => ⟨S_, .i32⟩
  | 66 => ⟨S65536, .i32⟩
  | 67 => ⟨S65536, .i1⟩
  | 68 => ⟨S_, .i32⟩
  | 69 => ⟨S65536, .i32⟩
  | 70 => ⟨S65536, .i32⟩
  | 71 => ⟨S65536, .i32⟩
  | 72 => ⟨S65536x1, .i32⟩
  | 73 => ⟨S65536x128, .f32⟩
  | 74 => ⟨S256x128, .f32⟩
  | 75 => ⟨S65536x128, .f32⟩
  | 76 => ⟨S65536x128, .f32⟩
  | 77 => ⟨S1x128, .f32⟩
  | 78 => ⟨S65536x128, .f32⟩
  | 79 => ⟨S65536x128, .f32⟩
  | 80 => ⟨S65536x128, .f32⟩
  | 81 => ⟨S32768x256, .f32⟩
  | 82 => ⟨S32768, .i32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S32768x128, .f32⟩
  | 92 => ⟨S256x128, .f32⟩
  | 93 => ⟨S32768x128, .f32⟩
  | 94 => ⟨S32768x128, .f32⟩
  | 95 => ⟨S1x128, .f32⟩
  | 96 => ⟨S32768x128, .f32⟩
  | 97 => ⟨S32768x128, .f32⟩
  | 98 => ⟨S32768x128, .f32⟩
  | 99 => ⟨S16384x256, .f32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x128, .f32⟩
  | 110 => ⟨S256x128, .f32⟩
  | 111 => ⟨S16384x128, .f32⟩
  | 112 => ⟨S16384x128, .f32⟩
  | 113 => ⟨S1x128, .f32⟩
  | 114 => ⟨S16384x128, .f32⟩
  | 115 => ⟨S16384x128, .f32⟩
  | 116 => ⟨S16384x128, .f32⟩
  | 117 => ⟨S8192x256, .f32⟩
  | 118 => ⟨S8192, .i32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x128, .f32⟩
  | _ => ⟨S524288, .i32⟩

abbrev hbmTy0_1 (i : Nat) : BufTy := match i % 128 with
  | 0 => ⟨S256x128, .f32⟩
  | 1 => ⟨S8192x128, .f32⟩
  | 2 => ⟨S8192x128, .f32⟩
  | 3 => ⟨S1x128, .f32⟩
  | 4 => ⟨S8192x128, .f32⟩
  | 5 => ⟨S8192x128, .f32⟩
  | 6 => ⟨S8192x128, .f32⟩
  | 7 => ⟨S4096x256, .f32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x128, .f32⟩
  | 18 => ⟨S256x128, .f32⟩
  | 19 => ⟨S4096x128, .f32⟩
  | 20 => ⟨S4096x128, .f32⟩
  | 21 => ⟨S1x128, .f32⟩
  | 22 => ⟨S4096x128, .f32⟩
  | 23 => ⟨S4096x128, .f32⟩
  | 24 => ⟨S4096x128, .f32⟩
  | 25 => ⟨S2048x256, .f32⟩
  | 26 => ⟨S2048, .i32⟩
  | 27 => ⟨S_, .i32⟩
  | 28 => ⟨S2048, .i32⟩
  | 29 => ⟨S2048, .i1⟩
  | 30 => ⟨S_, .i32⟩
  | 31 => ⟨S2048, .i32⟩
  | 32 => ⟨S2048, .i32⟩
  | 33 => ⟨S2048, .i32⟩
  | 34 => ⟨S2048x1, .i32⟩
  | 35 => ⟨S2048x128, .f32⟩
  | 36 => ⟨S256x128, .f32⟩
  | 37 => ⟨S2048x128, .f32⟩
  | 38 => ⟨S2048x128, .f32⟩
  | 39 => ⟨S1x128, .f32⟩
  | 40 => ⟨S2048x128, .f32⟩
  | 41 => ⟨S2048x128, .f32⟩
  | 42 => ⟨S2048x128, .f32⟩
  | 43 => ⟨S1024x256, .f32⟩
  | 44 => ⟨S1024, .i32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S1024x1, .i32⟩
  | 53 => ⟨S1024x128, .f32⟩
  | 54 => ⟨S256x128, .f32⟩
  | 55 => ⟨S1024x128, .f32⟩
  | 56 => ⟨S1024x128, .f32⟩
  | 57 => ⟨S1x128, .f32⟩
  | 58 => ⟨S1024x128, .f32⟩
  | 59 => ⟨S1024x128, .f32⟩
  | 60 => ⟨S1024x128, .f32⟩
  | 61 => ⟨S512x256, .f32⟩
  | 62 => ⟨S512, .i32⟩
  | 63 => ⟨S_, .i32⟩
  | 64 => ⟨S512, .i32⟩
  | 65 => ⟨S512, .i1⟩
  | 66 => ⟨S_, .i32⟩
  | 67 => ⟨S512, .i32⟩
  | 68 => ⟨S512, .i32⟩
  | 69 => ⟨S512, .i32⟩
  | 70 => ⟨S512x1, .i32⟩
  | 71 => ⟨S512x128, .f32⟩
  | 72 => ⟨S256x128, .f32⟩
  | 73 => ⟨S512x128, .f32⟩
  | 74 => ⟨S512x128, .f32⟩
  | 75 => ⟨S1x128, .f32⟩
  | 76 => ⟨S512x128, .f32⟩
  | 77 => ⟨S512x128, .f32⟩
  | 78 => ⟨S512x128, .f32⟩
  | 79 => ⟨S256x256, .f32⟩
  | 80 => ⟨S256, .i32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S256x1, .i32⟩
  | 89 => ⟨S256x128, .f32⟩
  | 90 => ⟨S256x128, .f32⟩
  | 91 => ⟨S256x128, .f32⟩
  | 92 => ⟨S256x128, .f32⟩
  | 93 => ⟨S1x128, .f32⟩
  | 94 => ⟨S256x128, .f32⟩
  | 95 => ⟨S256x128, .f32⟩
  | 96 => ⟨S256x128, .f32⟩
  | 97 => ⟨S128x256, .f32⟩
  | 98 => ⟨S128, .i32⟩
  | 99 => ⟨S_, .i32⟩
  | 100 => ⟨S128, .i32⟩
  | 101 => ⟨S128, .i1⟩
  | 102 => ⟨S_, .i32⟩
  | 103 => ⟨S128, .i32⟩
  | 104 => ⟨S128, .i32⟩
  | 105 => ⟨S128, .i32⟩
  | 106 => ⟨S128x1, .i32⟩
  | 107 => ⟨S128x128, .f32⟩
  | 108 => ⟨S256x128, .f32⟩
  | 109 => ⟨S128x128, .f32⟩
  | 110 => ⟨S128x128, .f32⟩
  | 111 => ⟨S1x128, .f32⟩
  | 112 => ⟨S128x128, .f32⟩
  | 113 => ⟨S128x128, .f32⟩
  | 114 => ⟨S128x128, .f32⟩
  | 115 => ⟨S64x256, .f32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x128, .f32⟩
  | 126 => ⟨S256x128, .f32⟩
  | 127 => ⟨S64x128, .f32⟩
  | _ => ⟨S524288, .i32⟩

abbrev hbmTy0_2 (i : Nat) : BufTy := match i % 128 with
  | 0 => ⟨S64x128, .f32⟩
  | 1 => ⟨S1x128, .f32⟩
  | 2 => ⟨S64x128, .f32⟩
  | 3 => ⟨S64x128, .f32⟩
  | 4 => ⟨S64x128, .f32⟩
  | 5 => ⟨S32x256, .f32⟩
  | 6 => ⟨S32, .i32⟩
  | 7 => ⟨S_, .i32⟩
  | 8 => ⟨S32, .i32⟩
  | 9 => ⟨S32, .i1⟩
  | 10 => ⟨S_, .i32⟩
  | 11 => ⟨S32, .i32⟩
  | 12 => ⟨S32, .i32⟩
  | 13 => ⟨S32, .i32⟩
  | 14 => ⟨S32x1, .i32⟩
  | 15 => ⟨S32x128, .f32⟩
  | 16 => ⟨S256x128, .f32⟩
  | 17 => ⟨S32x128, .f32⟩
  | 18 => ⟨S32x128, .f32⟩
  | 19 => ⟨S1x128, .f32⟩
  | 20 => ⟨S32x128, .f32⟩
  | 21 => ⟨S32x128, .f32⟩
  | 22 => ⟨S32x128, .f32⟩
  | 23 => ⟨S16x256, .f32⟩
  | 24 => ⟨S16, .i32⟩
  | 25 => ⟨S_, .i32⟩
  | 26 => ⟨S16, .i32⟩
  | 27 => ⟨S16, .i1⟩
  | 28 => ⟨S_, .i32⟩
  | 29 => ⟨S16, .i32⟩
  | 30 => ⟨S16, .i32⟩
  | 31 => ⟨S16, .i32⟩
  | 32 => ⟨S16x1, .i32⟩
  | 33 => ⟨S16x128, .f32⟩
  | 34 => ⟨S256x128, .f32⟩
  | 35 => ⟨S16x128, .f32⟩
  | 36 => ⟨S16x128, .f32⟩
  | 37 => ⟨S1x128, .f32⟩
  | 38 => ⟨S16x128, .f32⟩
  | 39 => ⟨S16x128, .f32⟩
  | 40 => ⟨S16x128, .f32⟩
  | 41 => ⟨S8x256, .f32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i32⟩
  | 49 => ⟨S8, .i32⟩
  | 50 => ⟨S8x1, .i32⟩
  | 51 => ⟨S8x128, .f32⟩
  | 52 => ⟨S256x128, .f32⟩
  | 53 => ⟨S8x128, .f32⟩
  | 54 => ⟨S8x128, .f32⟩
  | 55 => ⟨S1x128, .f32⟩
  | 56 => ⟨S8x128, .f32⟩
  | 57 => ⟨S8x128, .f32⟩
  | 58 => ⟨S8x128, .f32⟩
  | 59 => ⟨S4x256, .f32⟩
  | 60 => ⟨S4, .i32⟩
  | 61 => ⟨S_, .i32⟩
  | 62 => ⟨S4, .i32⟩
  | 63 => ⟨S4, .i1⟩
  | 64 => ⟨S_, .i32⟩
  | 65 => ⟨S4, .i32⟩
  | 66 => ⟨S4, .i32⟩
  | 67 => ⟨S4, .i32⟩
  | 68 => ⟨S4x1, .i32⟩
  | 69 => ⟨S4x128, .f32⟩
  | 70 => ⟨S256x128, .f32⟩
  | 71 => ⟨S4x128, .f32⟩
  | 72 => ⟨S4x128, .f32⟩
  | 73 => ⟨S1x128, .f32⟩
  | 74 => ⟨S4x128, .f32⟩
  | 75 => ⟨S4x128, .f32⟩
  | 76 => ⟨S4x128, .f32⟩
  | 77 => ⟨S2x256, .f32⟩
  | 78 => ⟨S2, .i32⟩
  | 79 => ⟨S_, .i32⟩
  | 80 => ⟨S2, .i32⟩
  | 81 => ⟨S2, .i1⟩
  | 82 => ⟨S_, .i32⟩
  | 83 => ⟨S2, .i32⟩
  | 84 => ⟨S2, .i32⟩
  | 85 => ⟨S2, .i32⟩
  | 86 => ⟨S2x1, .i32⟩
  | 87 => ⟨S2x128, .f32⟩
  | 88 => ⟨S256x128, .f32⟩
  | 89 => ⟨S2x128, .f32⟩
  | 90 => ⟨S2x128, .f32⟩
  | 91 => ⟨S1x128, .f32⟩
  | 92 => ⟨S2x128, .f32⟩
  | 93 => ⟨S2x128, .f32⟩
  | 94 => ⟨S2x128, .f32⟩
  | 95 => ⟨S1x256, .f32⟩
  | 96 => ⟨S1, .i32⟩
  | 97 => ⟨S_, .i32⟩
  | 98 => ⟨S1, .i32⟩
  | 99 => ⟨S1, .i1⟩
  | 100 => ⟨S_, .i32⟩
  | 101 => ⟨S1, .i32⟩
  | 102 => ⟨S1, .i32⟩
  | 103 => ⟨S1, .i32⟩
  | 104 => ⟨S1x1, .i32⟩
  | 105 => ⟨S1x128, .f32⟩
  | 106 => ⟨S256x128, .f32⟩
  | 107 => ⟨S1x128, .f32⟩
  | 108 => ⟨S1x128, .f32⟩
  | 109 => ⟨S1x128, .f32⟩
  | 110 => ⟨S1x128, .f32⟩
  | 111 => ⟨S1x128, .f32⟩
  | _ => ⟨S524288, .i32⟩

abbrev hbmTy (i : Nat) : BufTy := match i / 128 with
  | 0 => hbmTy0_0 i
  | 1 => hbmTy0_1 i
  | 2 => hbmTy0_2 i
  | _ => ⟨S524288, .i32⟩

abbrev bufTy : (tb : Table) → Fin (tcTables nBuf tb) → BufTy
  | .hbm, ⟨i, _⟩ => hbmTy i
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_9 : Ref sig .tc := ⟨.hbm, 83, rfl⟩
abbrev main_v65 : Ref sig .tc := ⟨.hbm, 84, rfl⟩
abbrev main_v66 : Ref sig .tc := ⟨.hbm, 85, rfl⟩
abbrev main_c_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_11 : Ref sig .tc := ⟨.hbm, 101, rfl⟩
abbrev main_v81 : Ref sig .tc := ⟨.hbm, 102, rfl⟩
abbrev main_v82 : Ref sig .tc := ⟨.hbm, 103, rfl⟩
abbrev main_c_12 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_c_13 : Ref sig .tc := ⟨.hbm, 119, rfl⟩
abbrev main_v97 : Ref sig .tc := ⟨.hbm, 120, rfl⟩
abbrev main_v98 : Ref sig .tc := ⟨.hbm, 121, rfl⟩
abbrev main_c_14 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_c_15 : Ref sig .tc := ⟨.hbm, 137, rfl⟩
abbrev main_v113 : Ref sig .tc := ⟨.hbm, 138, rfl⟩
abbrev main_v114 : Ref sig .tc := ⟨.hbm, 139, rfl⟩
abbrev main_c_16 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_c_17 : Ref sig .tc := ⟨.hbm, 155, rfl⟩
abbrev main_v129 : Ref sig .tc := ⟨.hbm, 156, rfl⟩
abbrev main_v130 : Ref sig .tc := ⟨.hbm, 157, rfl⟩
abbrev main_c_18 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_c_19 : Ref sig .tc := ⟨.hbm, 173, rfl⟩
abbrev main_v145 : Ref sig .tc := ⟨.hbm, 174, rfl⟩
abbrev main_v146 : Ref sig .tc := ⟨.hbm, 175, rfl⟩
abbrev main_c_20 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_c_21 : Ref sig .tc := ⟨.hbm, 191, rfl⟩
abbrev main_v161 : Ref sig .tc := ⟨.hbm, 192, rfl⟩
abbrev main_v162 : Ref sig .tc := ⟨.hbm, 193, rfl⟩
abbrev main_c_22 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_c_23 : Ref sig .tc := ⟨.hbm, 209, rfl⟩
abbrev main_v177 : Ref sig .tc := ⟨.hbm, 210, rfl⟩
abbrev main_v178 : Ref sig .tc := ⟨.hbm, 211, rfl⟩
abbrev main_c_24 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_c_25 : Ref sig .tc := ⟨.hbm, 227, rfl⟩
abbrev main_v193 : Ref sig .tc := ⟨.hbm, 228, rfl⟩
abbrev main_v194 : Ref sig .tc := ⟨.hbm, 229, rfl⟩
abbrev main_c_26 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_c_27 : Ref sig .tc := ⟨.hbm, 245, rfl⟩
abbrev main_v209 : Ref sig .tc := ⟨.hbm, 246, rfl⟩
abbrev main_v210 : Ref sig .tc := ⟨.hbm, 247, rfl⟩
abbrev main_c_28 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_c_29 : Ref sig .tc := ⟨.hbm, 263, rfl⟩
abbrev main_v225 : Ref sig .tc := ⟨.hbm, 264, rfl⟩
abbrev main_v226 : Ref sig .tc := ⟨.hbm, 265, rfl⟩
abbrev main_c_30 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_c_31 : Ref sig .tc := ⟨.hbm, 281, rfl⟩
abbrev main_v241 : Ref sig .tc := ⟨.hbm, 282, rfl⟩
abbrev main_v242 : Ref sig .tc := ⟨.hbm, 283, rfl⟩
abbrev main_c_32 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_c_33 : Ref sig .tc := ⟨.hbm, 299, rfl⟩
abbrev main_v257 : Ref sig .tc := ⟨.hbm, 300, rfl⟩
abbrev main_v258 : Ref sig .tc := ⟨.hbm, 301, rfl⟩
abbrev main_c_34 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_c_35 : Ref sig .tc := ⟨.hbm, 317, rfl⟩
abbrev main_v273 : Ref sig .tc := ⟨.hbm, 318, rfl⟩
abbrev main_v274 : Ref sig .tc := ⟨.hbm, 319, rfl⟩
abbrev main_c_36 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_c_37 : Ref sig .tc := ⟨.hbm, 335, rfl⟩
abbrev main_v289 : Ref sig .tc := ⟨.hbm, 336, rfl⟩
abbrev main_v290 : Ref sig .tc := ⟨.hbm, 337, rfl⟩
abbrev main_c_38 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_c_39 : Ref sig .tc := ⟨.hbm, 353, rfl⟩
abbrev main_v305 : Ref sig .tc := ⟨.hbm, 354, rfl⟩
abbrev main_v306 : Ref sig .tc := ⟨.hbm, 355, rfl⟩
abbrev main_c_40 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  shapeCasts_S524288x128_S262144x256 : S524288x128.ShapeCasts S262144x256
  slices_S524287_S262144_0 : S524287.Slices ![0] S262144
  bcast_S_S262144 : S_.BroadcastsInDim S262144 (![] : Fin 0 → Fin S262144.rank)
  bcast_S262144_S262144x1_0 : S262144.BroadcastsInDim S262144x1 (![0] : Fin 1 → Fin S262144x1.rank)
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S131072x256 : S262144x128.ShapeCasts S131072x256
  slices_S524287_S131072_262144 : S524287.Slices ![262144] S131072
  bcast_S_S131072 : S_.BroadcastsInDim S131072 (![] : Fin 0 → Fin S131072.rank)
  bcast_S131072_S131072x1_0 : S131072.BroadcastsInDim S131072x1 (![0] : Fin 1 → Fin S131072x1.rank)
  bcast_S1x128_S131072x128_0_1 : S1x128.BroadcastsInDim S131072x128 (![0, 1] : Fin 2 → Fin S131072x128.rank)
  shapeCasts_S131072x128_S65536x256 : S131072x128.ShapeCasts S65536x256
  slices_S524287_S65536_393216 : S524287.Slices ![393216] S65536
  bcast_S_S65536 : S_.BroadcastsInDim S65536 (![] : Fin 0 → Fin S65536.rank)
  bcast_S65536_S65536x1_0 : S65536.BroadcastsInDim S65536x1 (![0] : Fin 1 → Fin S65536x1.rank)
  bcast_S1x128_S65536x128_0_1 : S1x128.BroadcastsInDim S65536x128 (![0, 1] : Fin 2 → Fin S65536x128.rank)
  shapeCasts_S65536x128_S32768x256 : S65536x128.ShapeCasts S32768x256
  slices_S524287_S32768_458752 : S524287.Slices ![458752] S32768
  bcast_S_S32768 : S_.BroadcastsInDim S32768 (![] : Fin 0 → Fin S32768.rank)
  bcast_S32768_S32768x1_0 : S32768.BroadcastsInDim S32768x1 (![0] : Fin 1 → Fin S32768x1.rank)
  bcast_S1x128_S32768x128_0_1 : S1x128.BroadcastsInDim S32768x128 (![0, 1] : Fin 2 → Fin S32768x128.rank)
  shapeCasts_S32768x128_S16384x256 : S32768x128.ShapeCasts S16384x256
  slices_S524287_S16384_491520 : S524287.Slices ![491520] S16384
  bcast_S_S16384 : S_.BroadcastsInDim S16384 (![] : Fin 0 → Fin S16384.rank)
  bcast_S16384_S16384x1_0 : S16384.BroadcastsInDim S16384x1 (![0] : Fin 1 → Fin S16384x1.rank)
  bcast_S1x128_S16384x128_0_1 : S1x128.BroadcastsInDim S16384x128 (![0, 1] : Fin 2 → Fin S16384x128.rank)
  shapeCasts_S16384x128_S8192x256 : S16384x128.ShapeCasts S8192x256
  slices_S524287_S8192_507904 : S524287.Slices ![507904] S8192
  bcast_S_S8192 : S_.BroadcastsInDim S8192 (![] : Fin 0 → Fin S8192.rank)
  bcast_S8192_S8192x1_0 : S8192.BroadcastsInDim S8192x1 (![0] : Fin 1 → Fin S8192x1.rank)
  bcast_S1x128_S8192x128_0_1 : S1x128.BroadcastsInDim S8192x128 (![0, 1] : Fin 2 → Fin S8192x128.rank)
  shapeCasts_S8192x128_S4096x256 : S8192x128.ShapeCasts S4096x256
  slices_S524287_S4096_516096 : S524287.Slices ![516096] S4096
  bcast_S_S4096 : S_.BroadcastsInDim S4096 (![] : Fin 0 → Fin S4096.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  shapeCasts_S4096x128_S2048x256 : S4096x128.ShapeCasts S2048x256
  slices_S524287_S2048_520192 : S524287.Slices ![520192] S2048
  bcast_S_S2048 : S_.BroadcastsInDim S2048 (![] : Fin 0 → Fin S2048.rank)
  bcast_S2048_S2048x1_0 : S2048.BroadcastsInDim S2048x1 (![0] : Fin 1 → Fin S2048x1.rank)
  bcast_S1x128_S2048x128_0_1 : S1x128.BroadcastsInDim S2048x128 (![0, 1] : Fin 2 → Fin S2048x128.rank)
  shapeCasts_S2048x128_S1024x256 : S2048x128.ShapeCasts S1024x256
  slices_S524287_S1024_522240 : S524287.Slices ![522240] S1024
  bcast_S_S1024 : S_.BroadcastsInDim S1024 (![] : Fin 0 → Fin S1024.rank)
  bcast_S1024_S1024x1_0 : S1024.BroadcastsInDim S1024x1 (![0] : Fin 1 → Fin S1024x1.rank)
  bcast_S1x128_S1024x128_0_1 : S1x128.BroadcastsInDim S1024x128 (![0, 1] : Fin 2 → Fin S1024x128.rank)
  shapeCasts_S1024x128_S512x256 : S1024x128.ShapeCasts S512x256
  slices_S524287_S512_523264 : S524287.Slices ![523264] S512
  bcast_S_S512 : S_.BroadcastsInDim S512 (![] : Fin 0 → Fin S512.rank)
  bcast_S512_S512x1_0 : S512.BroadcastsInDim S512x1 (![0] : Fin 1 → Fin S512x1.rank)
  bcast_S1x128_S512x128_0_1 : S1x128.BroadcastsInDim S512x128 (![0, 1] : Fin 2 → Fin S512x128.rank)
  shapeCasts_S512x128_S256x256 : S512x128.ShapeCasts S256x256
  slices_S524287_S256_523776 : S524287.Slices ![523776] S256
  bcast_S_S256 : S_.BroadcastsInDim S256 (![] : Fin 0 → Fin S256.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  shapeCasts_S256x128_S128x256 : S256x128.ShapeCasts S128x256
  slices_S524287_S128_524032 : S524287.Slices ![524032] S128
  bcast_S_S128 : S_.BroadcastsInDim S128 (![] : Fin 0 → Fin S128.rank)
  bcast_S128_S128x1_0 : S128.BroadcastsInDim S128x1 (![0] : Fin 1 → Fin S128x1.rank)
  bcast_S1x128_S128x128_0_1 : S1x128.BroadcastsInDim S128x128 (![0, 1] : Fin 2 → Fin S128x128.rank)
  shapeCasts_S128x128_S64x256 : S128x128.ShapeCasts S64x256
  slices_S524287_S64_524160 : S524287.Slices ![524160] S64
  bcast_S_S64 : S_.BroadcastsInDim S64 (![] : Fin 0 → Fin S64.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  shapeCasts_S64x128_S32x256 : S64x128.ShapeCasts S32x256
  slices_S524287_S32_524224 : S524287.Slices ![524224] S32
  bcast_S_S32 : S_.BroadcastsInDim S32 (![] : Fin 0 → Fin S32.rank)
  bcast_S32_S32x1_0 : S32.BroadcastsInDim S32x1 (![0] : Fin 1 → Fin S32x1.rank)
  bcast_S1x128_S32x128_0_1 : S1x128.BroadcastsInDim S32x128 (![0, 1] : Fin 2 → Fin S32x128.rank)
  shapeCasts_S32x128_S16x256 : S32x128.ShapeCasts S16x256
  slices_S524287_S16_524256 : S524287.Slices ![524256] S16
  bcast_S_S16 : S_.BroadcastsInDim S16 (![] : Fin 0 → Fin S16.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  shapeCasts_S16x128_S8x256 : S16x128.ShapeCasts S8x256
  slices_S524287_S8_524272 : S524287.Slices ![524272] S8
  bcast_S_S8 : S_.BroadcastsInDim S8 (![] : Fin 0 → Fin S8.rank)
  bcast_S8_S8x1_0 : S8.BroadcastsInDim S8x1 (![0] : Fin 1 → Fin S8x1.rank)
  bcast_S1x128_S8x128_0_1 : S1x128.BroadcastsInDim S8x128 (![0, 1] : Fin 2 → Fin S8x128.rank)
  shapeCasts_S8x128_S4x256 : S8x128.ShapeCasts S4x256
  slices_S524287_S4_524280 : S524287.Slices ![524280] S4
  bcast_S_S4 : S_.BroadcastsInDim S4 (![] : Fin 0 → Fin S4.rank)
  bcast_S4_S4x1_0 : S4.BroadcastsInDim S4x1 (![0] : Fin 1 → Fin S4x1.rank)
  bcast_S1x128_S4x128_0_1 : S1x128.BroadcastsInDim S4x128 (![0, 1] : Fin 2 → Fin S4x128.rank)
  shapeCasts_S4x128_S2x256 : S4x128.ShapeCasts S2x256
  slices_S524287_S2_524284 : S524287.Slices ![524284] S2
  bcast_S_S2 : S_.BroadcastsInDim S2 (![] : Fin 0 → Fin S2.rank)
  bcast_S2_S2x1_0 : S2.BroadcastsInDim S2x1 (![0] : Fin 1 → Fin S2x1.rank)
  bcast_S1x128_S2x128_0_1 : S1x128.BroadcastsInDim S2x128 (![0, 1] : Fin 2 → Fin S2x128.rank)
  shapeCasts_S2x128_S1x256 : S2x128.ShapeCasts S1x256
  slices_S524287_S1_524286 : S524287.Slices ![524286] S1
  bcast_S_S1 : S_.BroadcastsInDim S1 (![] : Fin 0 → Fin S1.rank)
  bcast_S1_S1x1_0 : S1.BroadcastsInDim S1x1 (![0] : Fin 1 → Fin S1x1.rank)
  gather_S64x64_S524288x1_S524288x64_1_0_n_n_0_1_164_wf : GatherDims.WF S64x64 S524288x1 S524288x64 [1] [0] [] [0] [] 1 ![1, 64]
  gather_S100000x64_S524288x1_S524288x64_1_0_n_n_0_1_164_wf : GatherDims.WF S100000x64 S524288x1 S524288x64 [1] [0] [] [0] [] 1 ![1, 64]
  gather_S64x128_S262144x1_S262144x128_1_0_n_n_0_1_1128_wf : GatherDims.WF S64x128 S262144x1 S262144x128 [1] [0] [] [0] [] 1 ![1, 128]
  dot_S262144x256_S256x128_S262144x128_1_0_0_1_n_n_wf : DotDims.WF S262144x256 S256x128 S262144x128 [1] [0] [0] [1] [] []
  gather_S64x128_S131072x1_S131072x128_1_0_n_n_0_1_1128_wf : GatherDims.WF S64x128 S131072x1 S131072x128 [1] [0] [] [0] [] 1 ![1, 128]
  dot_S131072x256_S256x128_S131072x128_1_0_0_1_n_n_wf : DotDims.WF S131072x256 S256x128 S131072x128 [1] [0] [0] [1] [] []
  gather_S64x128_S65536x1_S65536x128_1_0_n_n_0_1_1128_wf : GatherDims.WF S64x128 S65536x1 S65536x128 [1] [0] [] [0] [] 1 ![1, 128]
  dot_S65536x256_S256x128_S65536x128_1_0_0_1_n_n_wf : DotDims.WF S65536x256 S256x128 S65536x128 [1] [0] [0] [1] [] []
  gather_S64x128_S32768x1_S32768x128_1_0_n_n_0_1_1128_wf : GatherDims.WF S64x128 S32768x1 S32768x128 [1] [0] [] [0] [] 1 ![1, 128]
  dot_S32768x256_S256x128_S32768x128_1_0_0_1_n_n_wf : DotDims.WF S32768x256 S256x128 S32768x128 [1] [0] [0] [1] [] []
  gather_S64x128_S16384x1_S16384x128_1_0_n_n_0_1_1128_wf : GatherDims.WF S64x128 S16384x1 S16384x128 [1] [0] [] [0] [] 1 ![1, 128]
  dot_S16384x256_S256x128_S16384x128_1_0_0_1_n_n_wf : DotDims.WF S16384x256 S256x128 S16384x128 [1] [0] [0] [1] [] []
  gather_S64x128_S8192x1_S8192x128_1_0_n_n_0_1_1128_wf : GatherDims.WF S64x128 S8192x1 S8192x128 [1] [0] [] [0] [] 1 ![1, 128]
  dot_S8192x256_S256x128_S8192x128_1_0_0_1_n_n_wf : DotDims.WF S8192x256 S256x128 S8192x128 [1] [0] [0] [1] [] []
  gather_S64x128_S4096x1_S4096x128_1_0_n_n_0_1_1128_wf : GatherDims.WF S64x128 S4096x1 S4096x128 [1] [0] [] [0] [] 1 ![1, 128]
  dot_S4096x256_S256x128_S4096x128_1_0_0_1_n_n_wf : DotDims.WF S4096x256 S256x128 S4096x128 [1] [0] [0] [1] [] []
  gather_S64x128_S2048x1_S2048x128_1_0_n_n_0_1_1128_wf : GatherDims.WF S64x128 S2048x1 S2048x128 [1] [0] [] [0] [] 1 ![1, 128]
  dot_S2048x256_S256x128_S2048x128_1_0_0_1_n_n_wf : DotDims.WF S2048x256 S256x128 S2048x128 [1] [0] [0] [1] [] []
  gather_S64x128_S1024x1_S1024x128_1_0_n_n_0_1_1128_wf : GatherDims.WF S64x128 S1024x1 S1024x128 [1] [0] [] [0] [] 1 ![1, 128]
  dot_S1024x256_S256x128_S1024x128_1_0_0_1_n_n_wf : DotDims.WF S1024x256 S256x128 S1024x128 [1] [0] [0] [1] [] []
  gather_S64x128_S512x1_S512x128_1_0_n_n_0_1_1128_wf : GatherDims.WF S64x128 S512x1 S512x128 [1] [0] [] [0] [] 1 ![1, 128]
  dot_S512x256_S256x128_S512x128_1_0_0_1_n_n_wf : DotDims.WF S512x256 S256x128 S512x128 [1] [0] [0] [1] [] []
  gather_S64x128_S256x1_S256x128_1_0_n_n_0_1_1128_wf : GatherDims.WF S64x128 S256x1 S256x128 [1] [0] [] [0] [] 1 ![1, 128]
  dot_S256x256_S256x128_S256x128_1_0_0_1_n_n_wf : DotDims.WF S256x256 S256x128 S256x128 [1] [0] [0] [1] [] []
  gather_S64x128_S128x1_S128x128_1_0_n_n_0_1_1128_wf : GatherDims.WF S64x128 S128x1 S128x128 [1] [0] [] [0] [] 1 ![1, 128]
  dot_S128x256_S256x128_S128x128_1_0_0_1_n_n_wf : DotDims.WF S128x256 S256x128 S128x128 [1] [0] [0] [1] [] []
  gather_S64x128_S64x1_S64x128_1_0_n_n_0_1_1128_wf : GatherDims.WF S64x128 S64x1 S64x128 [1] [0] [] [0] [] 1 ![1, 128]
  dot_S64x256_S256x128_S64x128_1_0_0_1_n_n_wf : DotDims.WF S64x256 S256x128 S64x128 [1] [0] [0] [1] [] []
  gather_S64x128_S32x1_S32x128_1_0_n_n_0_1_1128_wf : GatherDims.WF S64x128 S32x1 S32x128 [1] [0] [] [0] [] 1 ![1, 128]
  dot_S32x256_S256x128_S32x128_1_0_0_1_n_n_wf : DotDims.WF S32x256 S256x128 S32x128 [1] [0] [0] [1] [] []
  gather_S64x128_S16x1_S16x128_1_0_n_n_0_1_1128_wf : GatherDims.WF S64x128 S16x1 S16x128 [1] [0] [] [0] [] 1 ![1, 128]
  dot_S16x256_S256x128_S16x128_1_0_0_1_n_n_wf : DotDims.WF S16x256 S256x128 S16x128 [1] [0] [0] [1] [] []
  gather_S64x128_S8x1_S8x128_1_0_n_n_0_1_1128_wf : GatherDims.WF S64x128 S8x1 S8x128 [1] [0] [] [0] [] 1 ![1, 128]
  dot_S8x256_S256x128_S8x128_1_0_0_1_n_n_wf : DotDims.WF S8x256 S256x128 S8x128 [1] [0] [0] [1] [] []
  gather_S64x128_S4x1_S4x128_1_0_n_n_0_1_1128_wf : GatherDims.WF S64x128 S4x1 S4x128 [1] [0] [] [0] [] 1 ![1, 128]
  dot_S4x256_S256x128_S4x128_1_0_0_1_n_n_wf : DotDims.WF S4x256 S256x128 S4x128 [1] [0] [0] [1] [] []
  gather_S64x128_S2x1_S2x128_1_0_n_n_0_1_1128_wf : GatherDims.WF S64x128 S2x1 S2x128 [1] [0] [] [0] [] 1 ![1, 128]
  dot_S2x256_S256x128_S2x128_1_0_0_1_n_n_wf : DotDims.WF S2x256 S256x128 S2x128 [1] [0] [0] [1] [] []
  gather_S64x128_S1x1_S1x128_1_0_n_n_0_1_1128_wf : GatherDims.WF S64x128 S1x1 S1x128 [1] [0] [] [0] [] 1 ![1, 128]
  dot_S1x256_S256x128_S1x128_1_0_0_1_n_n_wf : DotDims.WF S1x256 S256x128 S1x128 [1] [0] [0] [1] [] []

variable [Facts₀]

def gather_S64x64_S524288x1_S524288x64_1_0_n_n_0_1_164 : GatherDims S64x64 S524288x1 S524288x64 where
  offsetDims := [1]
  collapsedSliceDims := [0]
  operandBatchingDims := []
  startIndicesBatchingDims := []
  startIndexMap := [0]
  indexVectorDim := 1
  sliceSizes := ![1, 64]
  wf := gather_S64x64_S524288x1_S524288x64_1_0_n_n_0_1_164_wf
def gather_S100000x64_S524288x1_S524288x64_1_0_n_n_0_1_164 : GatherDims S100000x64 S524288x1 S524288x64 where
  offsetDims := [1]
  collapsedSliceDims := [0]
  operandBatchingDims := []
  startIndicesBatchingDims := []
  startIndexMap := [0]
  indexVectorDim := 1
  sliceSizes := ![1, 64]
  wf := gather_S100000x64_S524288x1_S524288x64_1_0_n_n_0_1_164_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def gather_S64x128_S131072x1_S131072x128_1_0_n_n_0_1_1128 : GatherDims S64x128 S131072x1 S131072x128 where
  offsetDims := [1]
  collapsedSliceDims := [0]
  operandBatchingDims := []
  startIndicesBatchingDims := []
  startIndexMap := [0]
  indexVectorDim := 1
  sliceSizes := ![1, 128]
  wf := gather_S64x128_S131072x1_S131072x128_1_0_n_n_0_1_1128_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def gather_S64x128_S65536x1_S65536x128_1_0_n_n_0_1_1128 : GatherDims S64x128 S65536x1 S65536x128 where
  offsetDims := [1]
  collapsedSliceDims := [0]
  operandBatchingDims := []
  startIndicesBatchingDims := []
  startIndexMap := [0]
  indexVectorDim := 1
  sliceSizes := ![1, 128]
  wf := gather_S64x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def gather_S64x128_S32768x1_S32768x128_1_0_n_n_0_1_1128 : GatherDims S64x128 S32768x1 S32768x128 where
  offsetDims := [1]
  collapsedSliceDims := [0]
  operandBatchingDims := []
  startIndicesBatchingDims := []
  startIndexMap := [0]
  indexVectorDim := 1
  sliceSizes := ![1, 128]
  wf := gather_S64x128_S32768x1_S32768x128_1_0_n_n_0_1_1128_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S64x128_S4096x1_S4096x128_1_0_n_n_0_1_1128 : GatherDims S64x128 S4096x1 S4096x128 where
  offsetDims := [1]
  collapsedSliceDims := [0]
  operandBatchingDims := []
  startIndicesBatchingDims := []
  startIndexMap := [0]
  indexVectorDim := 1
  sliceSizes := ![1, 128]
  wf := gather_S64x128_S4096x1_S4096x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S64x128_S2048x1_S2048x128_1_0_n_n_0_1_1128 : GatherDims S64x128 S2048x1 S2048x128 where
  offsetDims := [1]
  collapsedSliceDims := [0]
  operandBatchingDims := []
  startIndicesBatchingDims := []
  startIndexMap := [0]
  indexVectorDim := 1
  sliceSizes := ![1, 128]
  wf := gather_S64x128_S2048x1_S2048x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S64x128_S1024x1_S1024x128_1_0_n_n_0_1_1128 : GatherDims S64x128 S1024x1 S1024x128 where
  offsetDims := [1]
  collapsedSliceDims := [0]
  operandBatchingDims := []
  startIndicesBatchingDims := []
  startIndexMap := [0]
  indexVectorDim := 1
  sliceSizes := ![1, 128]
  wf := gather_S64x128_S1024x1_S1024x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S64x128_S512x1_S512x128_1_0_n_n_0_1_1128 : GatherDims S64x128 S512x1 S512x128 where
  offsetDims := [1]
  collapsedSliceDims := [0]
  operandBatchingDims := []
  startIndicesBatchingDims := []
  startIndexMap := [0]
  indexVectorDim := 1
  sliceSizes := ![1, 128]
  wf := gather_S64x128_S512x1_S512x128_1_0_n_n_0_1_1128_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def gather_S64x128_S256x1_S256x128_1_0_n_n_0_1_1128 : GatherDims S64x128 S256x1 S256x128 where
  offsetDims := [1]
  collapsedSliceDims := [0]
  operandBatchingDims := []
  startIndicesBatchingDims := []
  startIndexMap := [0]
  indexVectorDim := 1
  sliceSizes := ![1, 128]
  wf := gather_S64x128_S256x1_S256x128_1_0_n_n_0_1_1128_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def gather_S64x128_S128x1_S128x128_1_0_n_n_0_1_1128 : GatherDims S64x128 S128x1 S128x128 where
  offsetDims := [1]
  collapsedSliceDims := [0]
  operandBatchingDims := []
  startIndicesBatchingDims := []
  startIndexMap := [0]
  indexVectorDim := 1
  sliceSizes := ![1, 128]
  wf := gather_S64x128_S128x1_S128x128_1_0_n_n_0_1_1128_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def gather_S64x128_S64x1_S64x128_1_0_n_n_0_1_1128 : GatherDims S64x128 S64x1 S64x128 where
  offsetDims := [1]
  collapsedSliceDims := [0]
  operandBatchingDims := []
  startIndicesBatchingDims := []
  startIndexMap := [0]
  indexVectorDim := 1
  sliceSizes := ![1, 128]
  wf := gather_S64x128_S64x1_S64x128_1_0_n_n_0_1_1128_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def gather_S64x128_S32x1_S32x128_1_0_n_n_0_1_1128 : GatherDims S64x128 S32x1 S32x128 where
  offsetDims := [1]
  collapsedSliceDims := [0]
  operandBatchingDims := []
  startIndicesBatchingDims := []
  startIndexMap := [0]
  indexVectorDim := 1
  sliceSizes := ![1, 128]
  wf := gather_S64x128_S32x1_S32x128_1_0_n_n_0_1_1128_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def gather_S64x128_S16x1_S16x128_1_0_n_n_0_1_1128 : GatherDims S64x128 S16x1 S16x128 where
  offsetDims := [1]
  collapsedSliceDims := [0]
  operandBatchingDims := []
  startIndicesBatchingDims := []
  startIndexMap := [0]
  indexVectorDim := 1
  sliceSizes := ![1, 128]
  wf := gather_S64x128_S16x1_S16x128_1_0_n_n_0_1_1128_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def gather_S64x128_S8x1_S8x128_1_0_n_n_0_1_1128 : GatherDims S64x128 S8x1 S8x128 where
  offsetDims := [1]
  collapsedSliceDims := [0]
  operandBatchingDims := []
  startIndicesBatchingDims := []
  startIndexMap := [0]
  indexVectorDim := 1
  sliceSizes := ![1, 128]
  wf := gather_S64x128_S8x1_S8x128_1_0_n_n_0_1_1128_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def gather_S64x128_S4x1_S4x128_1_0_n_n_0_1_1128 : GatherDims S64x128 S4x1 S4x128 where
  offsetDims := [1]
  collapsedSliceDims := [0]
  operandBatchingDims := []
  startIndicesBatchingDims := []
  startIndexMap := [0]
  indexVectorDim := 1
  sliceSizes := ![1, 128]
  wf := gather_S64x128_S4x1_S4x128_1_0_n_n_0_1_1128_wf
def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf
def gather_S64x128_S2x1_S2x128_1_0_n_n_0_1_1128 : GatherDims S64x128 S2x1 S2x128 where
  offsetDims := [1]
  collapsedSliceDims := [0]
  operandBatchingDims := []
  startIndicesBatchingDims := []
  startIndexMap := [0]
  indexVectorDim := 1
  sliceSizes := ![1, 128]
  wf := gather_S64x128_S2x1_S2x128_1_0_n_n_0_1_1128_wf
def dot_S2x256_S256x128_S2x128_1_0_0_1_n_n : DotDims S2x256 S256x128 S2x128 where
  lhsContracting := [1]
  rhsContracting := [0]
  lhsNonContracting := [0]
  rhsNonContracting := [1]
  lhsBatch := []
  rhsBatch := []
  wf := dot_S2x256_S256x128_S2x128_1_0_0_1_n_n_wf
def gather_S64x128_S1x1_S1x128_1_0_n_n_0_1_1128 : GatherDims S64x128 S1x1 S1x128 where
  offsetDims := [1]
  collapsedSliceDims := [0]
  operandBatchingDims := []
  startIndicesBatchingDims := []
  startIndexMap := [0]
  indexVectorDim := 1
  sliceSizes := ![1, 128]
  wf := gather_S64x128_S1x1_S1x128_1_0_n_n_0_1_1128_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

class Facts : Prop extends Facts₀ where

variable [Facts]
-- ==== Proof.KernelRun.lean ====
/-
  The idealized kernel's run with its result named.

  @main is nineteen kernel regions among stretches of host operations. Every weakly fair execution terminates, nothing
  faults, and in the final state every buffer that lives for the whole program holds what the last boundary of that
  chain of stretches and regions leaves in it; read at the result buffer this names the result, and read at the
  argument buffers it gives them back as launched.
-/
import proofs.«112655_j85761906966779_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the last
    region's exit boundary gives it, and the argument arrays end as launched. -/
theorem run_result : θ_run defs (onTc (τ := τ) (main (F := F))) ⟨m, fun _ => 0, ρ⟩ (fun r => ∀ c : Dev nD,
      r.2.mem ((c.tc : Thread nD τ).loc main_v206) = W38 m ρ c (Proc.devRef .tc main_v206)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h c =>
      ⟨h c _ (mem_uc main_v206 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c),
       (h c _ (mem_uc main_arg4 (by decide))).trans (W38_main_arg4 m ρ c),
       (h c _ (mem_uc main_arg5 (by decide))).trans (W38_main_arg5 m ρ c),
       (h c _ (mem_uc main_arg6 (by decide))).trans (W38_main_arg6 m ρ c),
       (h c _ (mem_uc main_arg7 (by decide))).trans (W38_main_arg7 m ρ c)⟩)

end Cert.KernelIdeal.RunValue

end
-- ==== Proof.LevelSpec.lean ====
/-
  One level of the tree, as a function of whole arrays.

  A level takes the `n` pair rows `lr` (row `p` holds a left and a right child state side by side, 256 entries), the
  `n` label rows `non` (128 entries each), the 256 x 128 matrix `wt` and the bias row `b`, and gives the `n` parent
  states: row `p` is `tanh (lr p · wt + non p + b)`, entry by entry on the extended reals.
-/
import Idealize.ShloMosaic.Lib.ValueIdx
import Idealize.ShloMosaic.PureOps.Ideal

noncomputable section

namespace Cert.TreeLevel

open Idealize.ShloMosaic Idealize.ShloMosaic.ValueIdx

/-- One entry of a level at the ideal values: entry `(p, q)` is the hyperbolic tangent of the sum over `k` of
    `lr (p, k) * wt (k, q)`, plus the label entry `non (p, q)`, plus the bias entry `b (0, q)`. -/
def levelAt {n : ℕ} (lr : (⟨2, ![n, 256]⟩ : Shape).Idx → EReal) (non : (⟨2, ![n, 128]⟩ : Shape).Idx → EReal)
    (wt : (⟨2, ![256, 128]⟩ : Shape).Idx → EReal) (b : (⟨2, ![1, 128]⟩ : Shape).Idx → EReal) (p : Fin n) (q : Fin 128) : EReal :=
  Ideal.tanh ((∑ k : Fin 256, lr (ix2 p k) * wt (ix2 k q) + non (ix2 p q)) + b (ix2 (0 : Fin 1) q))

/-- One level of the tree at the ideal values, as a whole array: its entry at an index is `levelAt` at the index's two
    coordinates. -/
def levelG {n : ℕ} (lr : (⟨2, ![n, 256]⟩ : Shape).Idx → EReal) (non : (⟨2, ![n, 128]⟩ : Shape).Idx → EReal)
    (wt : (⟨2, ![256, 128]⟩ : Shape).Idx → EReal) (b : (⟨2, ![1, 128]⟩ : Shape).Idx → EReal) :
    (⟨2, ![n, 128]⟩ : Shape).Idx → EReal :=
  fun j => levelAt lr non wt b (j 0) (j 1)

/-- The level read at the index `(p, q)`. -/
theorem levelG_apply {n : ℕ} (lr : (⟨2, ![n, 256]⟩ : Shape).Idx → EReal) (non : (⟨2, ![n, 128]⟩ : Shape).Idx → EReal)
    (wt : (⟨2, ![256, 128]⟩ : Shape).Idx → EReal) (b : (⟨2, ![1, 128]⟩ : Shape).Idx → EReal) (p : Fin n) (q : Fin 128) :
    levelG lr non wt b (ix2 p q) = levelAt lr non wt b p q := rfl

end Cert.TreeLevel

end
-- ==== Proof.TreeSpec.lean ====
/-
  The tree's host side, as functions of whole arrays, generic in the level.

  The leaves are the part-of-speech embedding and the word embedding of each leaf laid side by side. A level with `n`
  parents reads the `2n` child states as `n` pair rows, looks up each parent's label row in the label table (a
  negative label counts from the table's end), and applies the affine map and the hyperbolic tangent. Here each is
  written with the host's own operations, every dimension record and side condition an argument, so that a program's
  printed term for a level is an instance of `refLevel`.
-/
import Idealize.ShloMosaic.Lib.ValueIdx
import Idealize.ShloMosaic.PureOps.Ideal
import proofs.«112655_j85761906966779_1_alg».proof.Proof.LevelSpec

noncomputable section

namespace Cert.TreeLevel

open Idealize.ShloMosaic Idealize.ShloMosaic.ValueIdx

/-- Rows of a table picked by a vector of signed indices, a negative index counting from the table's end (`len`
    added to it): the host's lookup `table[idx]`. -/
def rowsAt {n len cols : ℕ} (wrap : BitVec 32) (G : GatherDims ⟨2, ![len, cols]⟩ ⟨2, ![n, 1]⟩ ⟨2, ![n, cols]⟩)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (tbl : (⟨2, ![len, cols]⟩ : Shape).Idx → EReal) (idx : IVec ⟨1, ![n]⟩ 32) : (⟨2, ![n, cols]⟩ : Shape).Idx → EReal :=
  Host.gather G tbl (broadcastInDim ⟨2, ![n, 1]⟩ ![0] hb1
    (select (cmpi .slt idx (broadcastInDim ⟨1, ![n]⟩ ![] hb0 (constantI ⟨0, ![]⟩ 32 0#32)))
      (addi idx (broadcastInDim ⟨1, ![n]⟩ ![] hb0 (constantI ⟨0, ![]⟩ 32 wrap))) idx))

/-- The label rows of a level: the label table's rows at the level's stretch of the label indices, `n` of them from
    position `off`. -/
def labelRows {n : ℕ} (G : GatherDims ⟨2, ![64, 128]⟩ ⟨2, ![n, 1]⟩ ⟨2, ![n, 128]⟩) (off : ℕ)
    (hsl : (⟨1, ![524287]⟩ : Shape).Slices (![off] : Fin 1 → ℕ) ⟨1, ![n]⟩)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (tbl : (⟨2, ![64, 128]⟩ : Shape).Idx → EReal) (labels : IVec ⟨1, ![524287]⟩ 32) : (⟨2, ![n, 128]⟩ : Shape).Idx → EReal :=
  rowsAt 64#32 G hb0 hb1 tbl (extractStridedSlice ⟨1, ![n]⟩ ![off] labels hsl)

/-- One level in the host's operations: the label rows, plus the pair rows (the `n2 = 2n` child states read as `n`
    rows of 256) times the transposed weight matrix, plus the bias vector as a row repeated down the rows, under the
    hyperbolic tangent. -/
def refLevel {n n2 : ℕ} (G : GatherDims ⟨2, ![64, 128]⟩ ⟨2, ![n, 1]⟩ ⟨2, ![n, 128]⟩)
    (D : DotDims ⟨2, ![n, 256]⟩ ⟨2, ![256, 128]⟩ ⟨2, ![n, 128]⟩) (off : ℕ)
    (hsl : (⟨1, ![524287]⟩ : Shape).Slices (![off] : Fin 1 → ℕ) ⟨1, ![n]⟩)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hc : (⟨2, ![n2, 128]⟩ : Shape).ShapeCasts ⟨2, ![n, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (hb3 : (⟨2, ![1, 128]⟩ : Shape).BroadcastsInDim ⟨2, ![n, 128]⟩ (![0, 1] : Fin 2 → Fin 2))
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal) : (⟨2, ![n, 128]⟩ : Shape).Idx → EReal :=
  Host.tanh (F := Ideal) (φ := .f32) (addf (F := Ideal) (φ := .f32)
    (addf (F := Ideal) (φ := .f32) (labelRows G off hsl hb0 hb1 tbl labels)
      (Host.dotGeneral (F := Ideal) (φ₁ := .f32) (φ₂ := .f32) D none (shapeCast ⟨2, ![n, 256]⟩ prev hc)
        (transpose ⟨2, ![256, 128]⟩ [1, 0] w htr)))
    (broadcastInDim ⟨2, ![n, 128]⟩ ![0, 1] hb3 (broadcastInDim ⟨2, ![1, 128]⟩ ![1] hb2 bias)))

/-- The root level in the host's operations: one parent, so the bias vector is added as a row with nothing to repeat
    it over. -/
def refRoot {n2 : ℕ} (G : GatherDims ⟨2, ![64, 128]⟩ ⟨2, ![1, 1]⟩ ⟨2, ![1, 128]⟩)
    (D : DotDims ⟨2, ![1, 256]⟩ ⟨2, ![256, 128]⟩ ⟨2, ![1, 128]⟩) (off : ℕ)
    (hsl : (⟨1, ![524287]⟩ : Shape).Slices (![off] : Fin 1 → ℕ) ⟨1, ![1]⟩)
    (hb0 : (⟨0, ![]⟩ : Shape).BroadcastsInDim ⟨1, ![1]⟩ (![] : Fin 0 → Fin 1))
    (hb1 : (⟨1, ![1]⟩ : Shape).BroadcastsInDim ⟨2, ![1, 1]⟩ (![0] : Fin 1 → Fin 2))
    (hc : (⟨2, ![n2, 128]⟩ : Shape).ShapeCasts ⟨2, ![1, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal) : (⟨2, ![1, 128]⟩ : Shape).Idx → EReal :=
  Host.tanh (F := Ideal) (φ := .f32) (addf (F := Ideal) (φ := .f32)
    (addf (F := Ideal) (φ := .f32) (labelRows G off hsl hb0 hb1 tbl labels)
      (Host.dotGeneral (F := Ideal) (φ₁ := .f32) (φ₂ := .f32) D none (shapeCast ⟨2, ![1, 256]⟩ prev hc)
        (transpose ⟨2, ![256, 128]⟩ [1, 0] w htr)))
    (broadcastInDim ⟨2, ![1, 128]⟩ ![1] hb2 bias))

/-- The leaves: each leaf's part-of-speech row (64 entries) and word row (64 entries) side by side. -/
def leaves (Gp : GatherDims ⟨2, ![64, 64]⟩ ⟨2, ![524288, 1]⟩ ⟨2, ![524288, 64]⟩)
    (Gw : GatherDims ⟨2, ![100000, 64]⟩ ⟨2, ![524288, 1]⟩ ⟨2, ![524288, 64]⟩)
    (hb0 : (⟨0, ![]⟩ : Shape).BroadcastsInDim ⟨1, ![524288]⟩ (![] : Fin 0 → Fin 1))
    (hb1 : (⟨1, ![524288]⟩ : Shape).BroadcastsInDim ⟨2, ![524288, 1]⟩ (![0] : Fin 1 → Fin 2))
    (hcat : Shape.Concatenates [⟨2, ![524288, 64]⟩, ⟨2, ![524288, 64]⟩] ⟨2, ![524288, 128]⟩ 1)
    (pos wrd : IVec ⟨1, ![524288]⟩ 32) (Wwrd : (⟨2, ![100000, 64]⟩ : Shape).Idx → EReal)
    (Wpos : (⟨2, ![64, 64]⟩ : Shape).Idx → EReal) : (⟨2, ![524288, 128]⟩ : Shape).Idx → EReal :=
  concatenate ⟨2, ![524288, 128]⟩ 1 [⟨⟨2, ![524288, 64]⟩, rowsAt 64#32 Gp hb0 hb1 Wpos pos⟩,
    ⟨⟨2, ![524288, 64]⟩, rowsAt 100000#32 Gw hb0 hb1 Wwrd wrd⟩] hcat

end Cert.TreeLevel

end
-- ==== Proof.TreeStates.lean ====
/-
  The states of the tree, level by level, as functions of the eight argument arrays.

  `st0` is the leaves; `st(k+1)` is one level applied to `st k` — the `262144 / 2^k` parents of its `524288 / 2^k` rows,
  their labels taken from position `524288 - 524288 / 2^k` of the label indices — and `st19` is the root.
-/
import proofs.«112655_j85761906966779_1_alg».proof.ReferenceIdeal
import proofs.«112655_j85761906966779_1_alg».proof.Proof.Gen.ReferenceIdeal
import proofs.«112655_j85761906966779_1_alg».proof.Proof.TreeSpec

noncomputable section

namespace Cert.TreeStates

open Idealize.ShloMosaic Cert.ReferenceIdeal Cert.ReferenceIdeal.Facts₀ Cert.ReferenceIdeal.Facts Cert.TreeLevel

variable (a0 a1 : IVec S524288 32) (a2 : IVec S524287 32) (a3 : S100000x64.Idx → EReal) (a4 : S64x64.Idx → EReal)
  (a5 : S64x128.Idx → EReal) (a6 : S128x256.Idx → EReal) (a7 : S128.Idx → EReal)

/-- The leaves. -/
def st0 : S524288x128.Idx → EReal :=
  leaves gather_S64x64_S524288x1_S524288x64_1_0_n_n_0_1_164 gather_S100000x64_S524288x1_S524288x64_1_0_n_n_0_1_164
    bcast_S_S524288 bcast_S524288_S524288x1_0 concatenates_S524288x64_S524288x64_S524288x128_d1 a0 a1 a3 a4

/-- The 262144 parents of the leaves. -/
def st1 : S262144x128.Idx → EReal :=
  refLevel gather_S64x128_S262144x1_S262144x128_1_0_n_n_0_1_1128 dot_S262144x256_S256x128_S262144x128_1_0_0_1_n_n 0
    slices_S524287_S262144_0 bcast_S_S262144 bcast_S262144_S262144x1_0 shapeCasts_S524288x128_S262144x256
    transposes_S128x256_S256x128_1_0 bcast_S128_S1x128_1 bcast_S1x128_S262144x128_0_1 (st0 a0 a1 a3 a4) a2 a5 a6 a7
def st2 : S131072x128.Idx → EReal :=
  refLevel gather_S64x128_S131072x1_S131072x128_1_0_n_n_0_1_1128 dot_S131072x256_S256x128_S131072x128_1_0_0_1_n_n 262144
    slices_S524287_S131072_262144 bcast_S_S131072 bcast_S131072_S131072x1_0 shapeCasts_S262144x128_S131072x256
    transposes_S128x256_S256x128_1_0 bcast_S128_S1x128_1 bcast_S1x128_S131072x128_0_1 (st1 a0 a1 a2 a3 a4 a5 a6 a7) a2 a5 a6 a7
def st3 : S65536x128.Idx → EReal :=
  refLevel gather_S64x128_S65536x1_S65536x128_1_0_n_n_0_1_1128 dot_S65536x256_S256x128_S65536x128_1_0_0_1_n_n 393216
    slices_S524287_S65536_393216 bcast_S_S65536 bcast_S65536_S65536x1_0 shapeCasts_S131072x128_S65536x256
    transposes_S128x256_S256x128_1_0 bcast_S128_S1x128_1 bcast_S1x128_S65536x128_0_1 (st2 a0 a1 a2 a3 a4 a5 a6 a7) a2 a5 a6 a7
def st4 : S32768x128.Idx → EReal :=
  refLevel gather_S64x128_S32768x1_S32768x128_1_0_n_n_0_1_1128 dot_S32768x256_S256x128_S32768x128_1_0_0_1_n_n 458752
    slices_S524287_S32768_458752 bcast_S_S32768 bcast_S32768_S32768x1_0 shapeCasts_S65536x128_S32768x256
    transposes_S128x256_S256x128_1_0 bcast_S128_S1x128_1 bcast_S1x128_S32768x128_0_1 (st3 a0 a1 a2 a3 a4 a5 a6 a7) a2 a5 a6 a7
def st5 : S16384x128.Idx → EReal :=
  refLevel gather_S64x128_S16384x1_S16384x128_1_0_n_n_0_1_1128 dot_S16384x256_S256x128_S16384x128_1_0_0_1_n_n 491520
    slices_S524287_S16384_491520 bcast_S_S16384 bcast_S16384_S16384x1_0 shapeCasts_S32768x128_S16384x256
    transposes_S128x256_S256x128_1_0 bcast_S128_S1x128_1 bcast_S1x128_S16384x128_0_1 (st4 a0 a1 a2 a3 a4 a5 a6 a7) a2 a5 a6 a7
def st6 : S8192x128.Idx → EReal :=
  refLevel gather_S64x128_S8192x1_S8192x128_1_0_n_n_0_1_1128 dot_S8192x256_S256x128_S8192x128_1_0_0_1_n_n 507904
    slices_S524287_S8192_507904 bcast_S_S8192 bcast_S8192_S8192x1_0 shapeCasts_S16384x128_S8192x256
    transposes_S128x256_S256x128_1_0 bcast_S128_S1x128_1 bcast_S1x128_S8192x128_0_1 (st5 a0 a1 a2 a3 a4 a5 a6 a7) a2 a5 a6 a7
def st7 : S4096x128.Idx → EReal :=
  refLevel gather_S64x128_S4096x1_S4096x128_1_0_n_n_0_1_1128 dot_S4096x256_S256x128_S4096x128_1_0_0_1_n_n 516096
    slices_S524287_S4096_516096 bcast_S_S4096 bcast_S4096_S4096x1_0 shapeCasts_S8192x128_S4096x256
    transposes_S128x256_S256x128_1_0 bcast_S128_S1x128_1 bcast_S1x128_S4096x128_0_1 (st6 a0 a1 a2 a3 a4 a5 a6 a7) a2 a5 a6 a7
def st8 : S2048x128.Idx → EReal :=
  refLevel gather_S64x128_S2048x1_S2048x128_1_0_n_n_0_1_1128 dot_S2048x256_S256x128_S2048x128_1_0_0_1_n_n 520192
    slices_S524287_S2048_520192 bcast_S_S2048 bcast_S2048_S2048x1_0 shapeCasts_S4096x128_S2048x256
    transposes_S128x256_S256x128_1_0 bcast_S128_S1x128_1 bcast_S1x128_S2048x128_0_1 (st7 a0 a1 a2 a3 a4 a5 a6 a7) a2 a5 a6 a7
def st9 : S1024x128.Idx → EReal :=
  refLevel gather_S64x128_S1024x1_S1024x128_1_0_n_n_0_1_1128 dot_S1024x256_S256x128_S1024x128_1_0_0_1_n_n 522240
    slices_S524287_S1024_522240 bcast_S_S1024 bcast_S1024_S1024x1_0 shapeCasts_S2048x128_S1024x256
    transposes_S128x256_S256x128_1_0 bcast_S128_S1x128_1 bcast_S1x128_S1024x128_0_1 (st8 a0 a1 a2 a3 a4 a5 a6 a7) a2 a5 a6 a7
def st10 : S512x128.Idx → EReal :=
  refLevel gather_S64x128_S512x1_S512x128_1_0_n_n_0_1_1128 dot_S512x256_S256x128_S512x128_1_0_0_1_n_n 523264
    slices_S524287_S512_523264 bcast_S_S512 bcast_S512_S512x1_0 shapeCasts_S1024x128_S512x256
    transposes_S128x256_S256x128_1_0 bcast_S128_S1x128_1 bcast_S1x128_S512x128_0_1 (st9 a0 a1 a2 a3 a4 a5 a6 a7) a2 a5 a6 a7
def st11 : S256x128.Idx → EReal :=
  refLevel gather_S64x128_S256x1_S256x128_1_0_n_n_0_1_1128 dot_S256x256_S256x128_S256x128_1_0_0_1_n_n 523776
    slices_S524287_S256_523776 bcast_S_S256 bcast_S256_S256x1_0 shapeCasts_S512x128_S256x256
    transposes_S128x256_S256x128_1_0 bcast_S128_S1x128_1 bcast_S1x128_S256x128_0_1 (st10 a0 a1 a2 a3 a4 a5 a6 a7) a2 a5 a6 a7
def st12 : S128x128.Idx → EReal :=
  refLevel gather_S64x128_S128x1_S128x128_1_0_n_n_0_1_1128 dot_S128x256_S256x128_S128x128_1_0_0_1_n_n 524032
    slices_S524287_S128_524032 bcast_S_S128 bcast_S128_S128x1_0 shapeCasts_S256x128_S128x256
    transposes_S128x256_S256x128_1_0 bcast_S128_S1x128_1 bcast_S1x128_S128x128_0_1 (st11 a0 a1 a2 a3 a4 a5 a6 a7) a2 a5 a6 a7
def st13 : S64x128.Idx → EReal :=
  refLevel gather_S64x128_S64x1_S64x128_1_0_n_n_0_1_1128 dot_S64x256_S256x128_S64x128_1_0_0_1_n_n 524160
    slices_S524287_S64_524160 bcast_S_S64 bcast_S64_S64x1_0 shapeCasts_S128x128_S64x256
    transposes_S128x256_S256x128_1_0 bcast_S128_S1x128_1 bcast_S1x128_S64x128_0_1 (st12 a0 a1 a2 a3 a4 a5 a6 a7) a2 a5 a6 a7
def st14 : S32x128.Idx → EReal :=
  refLevel gather_S64x128_S32x1_S32x128_1_0_n_n_0_1_1128 dot_S32x256_S256x128_S32x128_1_0_0_1_n_n 524224
    slices_S524287_S32_524224 bcast_S_S32 bcast_S32_S32x1_0 shapeCasts_S64x128_S32x256
    transposes_S128x256_S256x128_1_0 bcast_S128_S1x128_1 bcast_S1x128_S32x128_0_1 (st13 a0 a1 a2 a3 a4 a5 a6 a7) a2 a5 a6 a7
def st15 : S16x128.Idx → EReal :=
  refLevel gather_S64x128_S16x1_S16x128_1_0_n_n_0_1_1128 dot_S16x256_S256x128_S16x128_1_0_0_1_n_n 524256
    slices_S524287_S16_524256 bcast_S_S16 bcast_S16_S16x1_0 shapeCasts_S32x128_S16x256
    transposes_S128x256_S256x128_1_0 bcast_S128_S1x128_1 bcast_S1x128_S16x128_0_1 (st14 a0 a1 a2 a3 a4 a5 a6 a7) a2 a5 a6 a7
def st16 : S8x128.Idx → EReal :=
  refLevel gather_S64x128_S8x1_S8x128_1_0_n_n_0_1_1128 dot_S8x256_S256x128_S8x128_1_0_0_1_n_n 524272
    slices_S524287_S8_524272 bcast_S_S8 bcast_S8_S8x1_0 shapeCasts_S16x128_S8x256
    transposes_S128x256_S256x128_1_0 bcast_S128_S1x128_1 bcast_S1x128_S8x128_0_1 (st15 a0 a1 a2 a3 a4 a5 a6 a7) a2 a5 a6 a7
def st17 : S4x128.Idx → EReal :=
  refLevel gather_S64x128_S4x1_S4x128_1_0_n_n_0_1_1128 dot_S4x256_S256x128_S4x128_1_0_0_1_n_n 524280
    slices_S524287_S4_524280 bcast_S_S4 bcast_S4_S4x1_0 shapeCasts_S8x128_S4x256
    transposes_S128x256_S256x128_1_0 bcast_S128_S1x128_1 bcast_S1x128_S4x128_0_1 (st16 a0 a1 a2 a3 a4 a5 a6 a7) a2 a5 a6 a7
def st18 : S2x128.Idx → EReal :=
  refLevel gather_S64x128_S2x1_S2x128_1_0_n_n_0_1_1128 dot_S2x256_S256x128_S2x128_1_0_0_1_n_n 524284
    slices_S524287_S2_524284 bcast_S_S2 bcast_S2_S2x1_0 shapeCasts_S4x128_S2x256
    transposes_S128x256_S256x128_1_0 bcast_S128_S1x128_1 bcast_S1x128_S2x128_0_1 (st17 a0 a1 a2 a3 a4 a5 a6 a7) a2 a5 a6 a7
/-- The root. -/
def st19 : S1x128.Idx → EReal :=
  refRoot gather_S64x128_S1x1_S1x128_1_0_n_n_0_1_1128 dot_S1x256_S256x128_S1x128_1_0_0_1_n_n 524286
    slices_S524287_S1_524286 bcast_S_S1 bcast_S1_S1x1_0 shapeCasts_S2x128_S1x256
    transposes_S128x256_S256x128_1_0 bcast_S128_S1x128_1 (st18 a0 a1 a2 a3 a4 a5 a6 a7) a2 a5 a6 a7

end Cert.TreeStates

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«112655_j85761906966779_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LevelMath.lean ====
/-
  One level of the tree read entry by entry, on both sides.

  The kernel's body on a block of rows — the pair block times the weight matrix into a zero accumulator, plus the label
  block, plus the bias row, under the hyperbolic tangent — and the reference's level on whole arrays — the label rows
  plus the product, plus the bias vector laid out as a row — are both the level function: entry `(p, q)` is
  `tanh (Σ_k lr (p, k) · wt (k, q) + non (p, q) + b q)`. They differ only in the order of the first sum, and addition of
  extended reals is commutative, so no finiteness of the inputs is used.
-/
import Idealize.ShloMosaic.Lib.ValueIdx
import Idealize.ShloMosaic.Lib.ValueLayout
import Idealize.ShloMosaic.Lib.Pipeline.Value
import Idealize.ShloMosaic.PureOps.Ideal.Laws
import proofs.«112655_j85761906966779_1_alg».proof.Proof.LevelSpec
import proofs.«112655_j85761906966779_1_alg».proof.Proof.TreeSpec
import proofs.«112655_j85761906966779_1_alg».proof.Proof.LibMatmulRows
import proofs.«112655_j85761906966779_1_alg».proof.Proof.LibRowOps

noncomputable section

namespace Cert.TreeLevel

open Idealize.ShloMosaic Idealize.ShloMosaic.ValueIdx

/-- The kernel's body at one entry of a block of `r` rows. The body multiplies the pair block by the matrix (both first
    cut to the narrow format, which changes nothing at the ideal values) into a zero accumulator, adds the label block,
    adds the bias row to every row, and takes the hyperbolic tangent: at `(p, q)` that is the level function of the four
    blocks. -/
theorem payload_apply {r : ℕ} (D : DotDims ⟨2, ![r, 256]⟩ ⟨2, ![256, 128]⟩ ⟨2, ![r, 128]⟩)
    (hlc : D.lhsContracting = [1]) (hrc : D.rhsContracting = [0]) (hln : D.lhsNonContracting = [0])
    (hrn : D.rhsNonContracting = [1]) (hlb : D.lhsBatch = []) (hrb : D.rhsBatch = [])
    (c0 : (⟨2, ![r, 256]⟩ : Shape).ShapeCasts ⟨2, ![r, 256]⟩) (c1 : (⟨2, ![256, 128]⟩ : Shape).ShapeCasts ⟨2, ![256, 128]⟩)
    (c2 : (⟨2, ![r, 128]⟩ : Shape).ShapeCasts ⟨2, ![r, 128]⟩) (c3 : (⟨2, ![1, 128]⟩ : Shape).ShapeCasts ⟨2, ![1, 128]⟩)
    (hb : (⟨2, ![1, 128]⟩ : Shape).Broadcasts ⟨2, ![r, 128]⟩) (ht : FTy.bf16.bits < FTy.f32.bits)
    (x0 : Vec Ideal ⟨2, ![r, 256]⟩ .f32) (x3 : Vec Ideal ⟨2, ![256, 128]⟩ .f32) (x7 : Vec Ideal ⟨2, ![r, 128]⟩ .f32)
    (x10 : Vec Ideal ⟨2, ![1, 128]⟩ .f32) (p : Fin r) (q : Fin 128) :
    (tanh (addf (addf (matmul D none (truncf .bf16 (shapeCast ⟨2, ![r, 256]⟩ x0 c0) ht) (truncf .bf16 (shapeCast ⟨2, ![256, 128]⟩ x3 c1) ht)
        (constant ⟨2, ![r, 128]⟩ .f32 0x00000000#32)) (shapeCast ⟨2, ![r, 128]⟩ x7 c2))
      (broadcastTo ⟨2, ![r, 128]⟩ (shapeCast ⟨2, ![1, 128]⟩ x10 c3) hb)) : FVec Ideal ⟨2, ![r, 128]⟩ .f32) (ix2 p q)
      = levelG x0 x7 x3 x10 (ix2 p q) := by
  have hmm := Cert.LibMatmulRows.matmul_rows_apply D hlc hrc hln hrn hlb hrb
    (truncf .bf16 (shapeCast ⟨2, ![r, 256]⟩ x0 c0) ht) (truncf .bf16 (shapeCast ⟨2, ![256, 128]⟩ x3 c1) ht) p q
  have hsum : (∑ k : Fin 256, (truncf .bf16 (shapeCast ⟨2, ![r, 256]⟩ x0 c0) ht : FVec Ideal _ .bf16) (ix2 p k)
        * (truncf .bf16 (shapeCast ⟨2, ![256, 128]⟩ x3 c1) ht : FVec Ideal _ .bf16) (ix2 k q))
      = ∑ k : Fin 256, x0 (ix2 p k) * x3 (ix2 k q) := by
    refine Finset.sum_congr rfl fun k _ => ?_
    show shapeCast ⟨2, ![r, 256]⟩ x0 c0 (ix2 p k) * shapeCast ⟨2, ![256, 128]⟩ x3 c1 (ix2 k q) = _
    rw [shapeCast_self, shapeCast_self]
  have h7 : shapeCast ⟨2, ![r, 128]⟩ x7 c2 (ix2 p q) = x7 (ix2 p q) := by rw [shapeCast_self]
  have h10 : broadcastTo ⟨2, ![r, 128]⟩ (shapeCast ⟨2, ![1, 128]⟩ x10 c3) hb (ix2 p q) = x10 (ix2 (0 : Fin 1) q) := by
    rw [broadcastTo_1b_ab_apply, shapeCast_self]
  rw [levelG_apply]
  unfold levelAt
  simp only [tanh, addf, matmul, Ideal.tanh_def, Ideal.addf_def]
  rw [hmm, hsum, h7, h10]

/-- The same for a block of ONE row, where the body adds the bias row as it is (there is nothing to repeat it over):
    the block's only row is row `0`. -/
theorem payload_apply_one (D : DotDims ⟨2, ![1, 256]⟩ ⟨2, ![256, 128]⟩ ⟨2, ![1, 128]⟩)
    (hlc : D.lhsContracting = [1]) (hrc : D.rhsContracting = [0]) (hln : D.lhsNonContracting = [0])
    (hrn : D.rhsNonContracting = [1]) (hlb : D.lhsBatch = []) (hrb : D.rhsBatch = [])
    (c0 : (⟨2, ![1, 256]⟩ : Shape).ShapeCasts ⟨2, ![1, 256]⟩) (c1 : (⟨2, ![256, 128]⟩ : Shape).ShapeCasts ⟨2, ![256, 128]⟩)
    (c2 : (⟨2, ![1, 128]⟩ : Shape).ShapeCasts ⟨2, ![1, 128]⟩) (c3 : (⟨2, ![1, 128]⟩ : Shape).ShapeCasts ⟨2, ![1, 128]⟩)
    (ht : FTy.bf16.bits < FTy.f32.bits)
    (x0 : Vec Ideal ⟨2, ![1, 256]⟩ .f32) (x3 : Vec Ideal ⟨2, ![256, 128]⟩ .f32) (x7 : Vec Ideal ⟨2, ![1, 128]⟩ .f32)
    (x10 : Vec Ideal ⟨2, ![1, 128]⟩ .f32) (p : Fin 1) (q : Fin 128) :
    (tanh (addf (addf (matmul D none (truncf .bf16 (shapeCast ⟨2, ![1, 256]⟩ x0 c0) ht) (truncf .bf16 (shapeCast ⟨2, ![256, 128]⟩ x3 c1) ht)
        (constant ⟨2, ![1, 128]⟩ .f32 0x00000000#32)) (shapeCast ⟨2, ![1, 128]⟩ x7 c2))
      (shapeCast ⟨2, ![1, 128]⟩ x10 c3)) : FVec Ideal ⟨2, ![1, 128]⟩ .f32) (ix2 p q)
      = levelG x0 x7 x3 x10 (ix2 p q) := by
  have hmm := Cert.LibMatmulRows.matmul_rows_apply D hlc hrc hln hrn hlb hrb
    (truncf .bf16 (shapeCast ⟨2, ![1, 256]⟩ x0 c0) ht) (truncf .bf16 (shapeCast ⟨2, ![256, 128]⟩ x3 c1) ht) p q
  have hsum : (∑ k : Fin 256, (truncf .bf16 (shapeCast ⟨2, ![1, 256]⟩ x0 c0) ht : FVec Ideal _ .bf16) (ix2 p k)
        * (truncf .bf16 (shapeCast ⟨2, ![256, 128]⟩ x3 c1) ht : FVec Ideal _ .bf16) (ix2 k q))
      = ∑ k : Fin 256, x0 (ix2 p k) * x3 (ix2 k q) := by
    refine Finset.sum_congr rfl fun k _ => ?_
    show shapeCast ⟨2, ![1, 256]⟩ x0 c0 (ix2 p k) * shapeCast ⟨2, ![256, 128]⟩ x3 c1 (ix2 k q) = _
    rw [shapeCast_self, shapeCast_self]
  have h7 : shapeCast ⟨2, ![1, 128]⟩ x7 c2 (ix2 p q) = x7 (ix2 p q) := by rw [shapeCast_self]
  have h10 : shapeCast ⟨2, ![1, 128]⟩ x10 c3 (ix2 p q) = x10 (ix2 (0 : Fin 1) q) := by
    rw [shapeCast_self, Subsingleton.elim p (0 : Fin 1)]
  rw [levelG_apply]
  unfold levelAt
  simp only [tanh, addf, matmul, Ideal.tanh_def, Ideal.addf_def]
  rw [hmm, hsum, h7, h10]

/-- The reference's level as whole-array operations — the label rows plus the product of the pair rows with the
    matrix, plus the bias vector laid out as a row and repeated down the rows, under the hyperbolic tangent — is the
    level function, the bias vector read as a one-row array. The two differ only in the order of the first sum. -/
theorem ref_level_eq {n : ℕ} (D : DotDims ⟨2, ![n, 256]⟩ ⟨2, ![256, 128]⟩ ⟨2, ![n, 128]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![128]⟩ : Shape).BroadcastsInDim ⟨2, ![1, 128]⟩ (![1] : Fin 1 → Fin 2))
    (h2 : (⟨2, ![1, 128]⟩ : Shape).BroadcastsInDim ⟨2, ![n, 128]⟩ (![0, 1] : Fin 2 → Fin 2))
    (hc : (⟨1, ![128]⟩ : Shape).ShapeCasts ⟨2, ![1, 128]⟩)
    (non : (⟨2, ![n, 128]⟩ : Shape).Idx → EReal) (lr : (⟨2, ![n, 256]⟩ : Shape).Idx → EReal)
    (wt : (⟨2, ![256, 128]⟩ : Shape).Idx → EReal) (b : (⟨1, ![128]⟩ : Shape).Idx → EReal) :
    (Host.tanh (F := Ideal) (φ := .f32) (addf (F := Ideal) (φ := .f32) (addf (F := Ideal) (φ := .f32) non (Host.dotGeneral (F := Ideal) (φ₁ := .f32) (φ₂ := .f32) D none lr wt))
      (broadcastInDim ⟨2, ![n, 128]⟩ ![0, 1] h2 (broadcastInDim ⟨2, ![1, 128]⟩ ![1] h1 b))) : (⟨2, ![n, 128]⟩ : Shape).Idx → EReal)
      = levelG lr non wt (shapeCast ⟨2, ![1, 128]⟩ b hc) := by
  funext j
  obtain ⟨p, q, rfl⟩ : ∃ (p : Fin n) (q : Fin 128), j = ix2 p q := ⟨j 0, j 1, eq_ix2 j⟩
  have hdot : FloatOps.dotGeneral (F := Ideal) (φ₁ := .f32) (φ₂ := .f32) D none .single lr wt (ix2 p q)
      = ∑ k : Fin 256, lr (ix2 p k) * wt (ix2 k q) :=
    (Ideal.dotGeneral_apply D none .single lr wt (ix2 p q)).trans
      ((Ideal.matmul_constant_zero_apply D none lr wt (ix2 p q)).symm.trans
        (Cert.LibMatmulRows.matmul_rows_apply (φ₁ := .f32) (φ₂ := .f32) D hlc hrc hln hrn hlb hrb lr wt p q))
  have hbias : broadcastInDim ⟨2, ![n, 128]⟩ ![0, 1] h2 (broadcastInDim ⟨2, ![1, 128]⟩ ![1] h1 b) (ix2 p q)
      = shapeCast ⟨2, ![1, 128]⟩ b hc (ix2 (0 : Fin 1) q) := by
    rw [Cert.LibRowOps.broadcastInDim_1b_ab_apply, Cert.LibRowOps.broadcastInDim_b_1b_apply, shapeCast_a_1a_apply]
  rw [levelG_apply]
  unfold levelAt
  simp only [Host.tanh, addf, Host.dotGeneral, Ideal.hostUnary_tanh_def, Ideal.addf_def]
  rw [hdot, hbias, add_comm (non (ix2 p q))]

/-- The reference's root level — one parent, the bias vector added as a row — is the level function at one row. -/
theorem ref_root_eq (D : DotDims ⟨2, ![1, 256]⟩ ⟨2, ![256, 128]⟩ ⟨2, ![1, 128]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![128]⟩ : Shape).BroadcastsInDim ⟨2, ![1, 128]⟩ (![1] : Fin 1 → Fin 2))
    (hc : (⟨1, ![128]⟩ : Shape).ShapeCasts ⟨2, ![1, 128]⟩)
    (non : (⟨2, ![1, 128]⟩ : Shape).Idx → EReal) (lr : (⟨2, ![1, 256]⟩ : Shape).Idx → EReal)
    (wt : (⟨2, ![256, 128]⟩ : Shape).Idx → EReal) (b : (⟨1, ![128]⟩ : Shape).Idx → EReal) :
    (Host.tanh (F := Ideal) (φ := .f32) (addf (F := Ideal) (φ := .f32) (addf (F := Ideal) (φ := .f32) non (Host.dotGeneral (F := Ideal) (φ₁ := .f32) (φ₂ := .f32) D none lr wt))
      (broadcastInDim ⟨2, ![1, 128]⟩ ![1] h1 b)) : (⟨2, ![1, 128]⟩ : Shape).Idx → EReal)
      = levelG lr non wt (shapeCast ⟨2, ![1, 128]⟩ b hc) := by
  funext j
  obtain ⟨p, q, rfl⟩ : ∃ (p : Fin 1) (q : Fin 128), j = ix2 p q := ⟨j 0, j 1, eq_ix2 j⟩
  have hdot : FloatOps.dotGeneral (F := Ideal) (φ₁ := .f32) (φ₂ := .f32) D none .single lr wt (ix2 p q)
      = ∑ k : Fin 256, lr (ix2 p k) * wt (ix2 k q) :=
    (Ideal.dotGeneral_apply D none .single lr wt (ix2 p q)).trans
      ((Ideal.matmul_constant_zero_apply D none lr wt (ix2 p q)).symm.trans
        (Cert.LibMatmulRows.matmul_rows_apply (φ₁ := .f32) (φ₂ := .f32) D hlc hrc hln hrn hlb hrb lr wt p q))
  have hbias : broadcastInDim ⟨2, ![1, 128]⟩ ![1] h1 b (ix2 p q) = shapeCast ⟨2, ![1, 128]⟩ b hc (ix2 (0 : Fin 1) q) := by
    rw [Cert.LibRowOps.broadcastInDim_b_1b_apply, shapeCast_a_1a_apply]
  rw [levelG_apply]
  unfold levelAt
  simp only [Host.tanh, addf, Host.dotGeneral, Ideal.hostUnary_tanh_def, Ideal.addf_def]
  rw [hdot, hbias, add_comm (non (ix2 p q))]

/-- A level computed as the level function — of the child states read as pair rows, the label rows, the transposed
    weight matrix and the bias vector read as a row — is the level in the host's operations. -/
theorem levelG_eq_refLevel {n n2 : ℕ} (G : GatherDims ⟨2, ![64, 128]⟩ ⟨2, ![n, 1]⟩ ⟨2, ![n, 128]⟩)
    (D : DotDims ⟨2, ![n, 256]⟩ ⟨2, ![256, 128]⟩ ⟨2, ![n, 128]⟩)
    (hlc : D.lhsContracting = [1]) (hrc : D.rhsContracting = [0]) (hln : D.lhsNonContracting = [0])
    (hrn : D.rhsNonContracting = [1]) (hlb : D.lhsBatch = []) (hrb : D.rhsBatch = []) (off : ℕ)
    (hsl : (⟨1, ![524287]⟩ : Shape).Slices (![off] : Fin 1 → ℕ) ⟨1, ![n]⟩)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hc : (⟨2, ![n2, 128]⟩ : Shape).ShapeCasts ⟨2, ![n, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (hb3 : (⟨2, ![1, 128]⟩ : Shape).BroadcastsInDim ⟨2, ![n, 128]⟩ (![0, 1] : Fin 2 → Fin 2))
    (hcb : (⟨1, ![128]⟩ : Shape).ShapeCasts ⟨2, ![1, 128]⟩)
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal) :
    levelG (shapeCast ⟨2, ![n, 256]⟩ prev hc) (labelRows G off hsl hb0 hb1 tbl labels)
        (transpose ⟨2, ![256, 128]⟩ [1, 0] w htr) (shapeCast ⟨2, ![1, 128]⟩ bias hcb)
      = refLevel G D off hsl hb0 hb1 hc htr hb2 hb3 prev labels tbl w bias := by
  unfold refLevel
  exact (ref_level_eq D hlc hrc hln hrn hlb hrb hb2 hb3 hcb _ _ _ bias).symm

/-- The root computed as the level function is the root in the host's operations. -/
theorem levelG_eq_refRoot {n2 : ℕ} (G : GatherDims ⟨2, ![64, 128]⟩ ⟨2, ![1, 1]⟩ ⟨2, ![1, 128]⟩)
    (D : DotDims ⟨2, ![1, 256]⟩ ⟨2, ![256, 128]⟩ ⟨2, ![1, 128]⟩)
    (hlc : D.lhsContracting = [1]) (hrc : D.rhsContracting = [0]) (hln : D.lhsNonContracting = [0])
    (hrn : D.rhsNonContracting = [1]) (hlb : D.lhsBatch = []) (hrb : D.rhsBatch = []) (off : ℕ)
    (hsl : (⟨1, ![524287]⟩ : Shape).Slices (![off] : Fin 1 → ℕ) ⟨1, ![1]⟩)
    (hb0 : (⟨0, ![]⟩ : Shape).BroadcastsInDim ⟨1, ![1]⟩ (![] : Fin 0 → Fin 1))
    (hb1 : (⟨1, ![1]⟩ : Shape).BroadcastsInDim ⟨2, ![1, 1]⟩ (![0] : Fin 1 → Fin 2))
    (hc : (⟨2, ![n2, 128]⟩ : Shape).ShapeCasts ⟨2, ![1, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (hcb : (⟨1, ![128]⟩ : Shape).ShapeCasts ⟨2, ![1, 128]⟩)
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal) :
    levelG (shapeCast ⟨2, ![1, 256]⟩ prev hc) (labelRows G off hsl hb0 hb1 tbl labels)
        (transpose ⟨2, ![256, 128]⟩ [1, 0] w htr) (shapeCast ⟨2, ![1, 128]⟩ bias hcb)
      = refRoot G D off hsl hb0 hb1 hc htr hb2 prev labels tbl w bias := by
  unfold refRoot
  exact (ref_root_eq D hlc hrc hln hrn hlb hrb hb2 hcb _ _ _ bias).symm

/-- One level put together: a result that is the level function of four arrays, those arrays being the previous states
    read as pair rows, the level's label rows, the transposed weight matrix and the bias vector as a row, is the level
    in the host's operations. -/
theorem level_step {n n2 : ℕ} (G : GatherDims ⟨2, ![64, 128]⟩ ⟨2, ![n, 1]⟩ ⟨2, ![n, 128]⟩)
    (D : DotDims ⟨2, ![n, 256]⟩ ⟨2, ![256, 128]⟩ ⟨2, ![n, 128]⟩)
    (hlc : D.lhsContracting = [1]) (hrc : D.rhsContracting = [0]) (hln : D.lhsNonContracting = [0])
    (hrn : D.rhsNonContracting = [1]) (hlb : D.lhsBatch = []) (hrb : D.rhsBatch = []) (off : ℕ)
    (hsl : (⟨1, ![524287]⟩ : Shape).Slices (![off] : Fin 1 → ℕ) ⟨1, ![n]⟩)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hc : (⟨2, ![n2, 128]⟩ : Shape).ShapeCasts ⟨2, ![n, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (hb3 : (⟨2, ![1, 128]⟩ : Shape).BroadcastsInDim ⟨2, ![n, 128]⟩ (![0, 1] : Fin 2 → Fin 2))
    (hcb : (⟨1, ![128]⟩ : Shape).ShapeCasts ⟨2, ![1, 128]⟩)
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal)
    (out : (⟨2, ![n, 128]⟩ : Shape).Idx → EReal) (lr : (⟨2, ![n, 256]⟩ : Shape).Idx → EReal)
    (non : (⟨2, ![n, 128]⟩ : Shape).Idx → EReal) (wt : (⟨2, ![256, 128]⟩ : Shape).Idx → EReal)
    (bb : (⟨2, ![1, 128]⟩ : Shape).Idx → EReal)
    (hout : out = levelG lr non wt bb) (hlr : lr = shapeCast ⟨2, ![n, 256]⟩ prev hc)
    (hnon : non = labelRows G off hsl hb0 hb1 tbl labels) (hwt : wt = transpose ⟨2, ![256, 128]⟩ [1, 0] w htr)
    (hbb : bb = shapeCast ⟨2, ![1, 128]⟩ bias hcb) :
    out = refLevel G D off hsl hb0 hb1 hc htr hb2 hb3 prev labels tbl w bias := by
  subst hlr hnon hwt hbb
  rw [hout]
  exact levelG_eq_refLevel G D hlc hrc hln hrn hlb hrb off hsl hb0 hb1 hc htr hb2 hb3 hcb prev labels tbl w bias

/-- The root put together in the same way. -/
theorem root_step {n2 : ℕ} (G : GatherDims ⟨2, ![64, 128]⟩ ⟨2, ![1, 1]⟩ ⟨2, ![1, 128]⟩)
    (D : DotDims ⟨2, ![1, 256]⟩ ⟨2, ![256, 128]⟩ ⟨2, ![1, 128]⟩)
    (hlc : D.lhsContracting = [1]) (hrc : D.rhsContracting = [0]) (hln : D.lhsNonContracting = [0])
    (hrn : D.rhsNonContracting = [1]) (hlb : D.lhsBatch = []) (hrb : D.rhsBatch = []) (off : ℕ)
    (hsl : (⟨1, ![524287]⟩ : Shape).Slices (![off] : Fin 1 → ℕ) ⟨1, ![1]⟩)
    (hb0 : (⟨0, ![]⟩ : Shape).BroadcastsInDim ⟨1, ![1]⟩ (![] : Fin 0 → Fin 1))
    (hb1 : (⟨1, ![1]⟩ : Shape).BroadcastsInDim ⟨2, ![1, 1]⟩ (![0] : Fin 1 → Fin 2))
    (hc : (⟨2, ![n2, 128]⟩ : Shape).ShapeCasts ⟨2, ![1, 256]⟩)
    (htr : (⟨2, ![128, 256]⟩ : Shape).Transposes [1, 0] ⟨2, ![256, 128]⟩)
    (hb2 : (⟨1, ![128]⟩ : Shape).BroadcastsInDim ⟨2, ![1, 128]⟩ (![1] : Fin 1 → Fin 2))
    (hcb : (⟨1, ![128]⟩ : Shape).ShapeCasts ⟨2, ![1, 128]⟩)
    (prev : (⟨2, ![n2, 128]⟩ : Shape).Idx → EReal) (labels : IVec ⟨1, ![524287]⟩ 32)
    (tbl : (⟨2, ![64, 128]⟩ : Shape).Idx → EReal) (w : (⟨2, ![128, 256]⟩ : Shape).Idx → EReal)
    (bias : (⟨1, ![128]⟩ : Shape).Idx → EReal)
    (out : (⟨2, ![1, 128]⟩ : Shape).Idx → EReal) (lr : (⟨2, ![1, 256]⟩ : Shape).Idx → EReal)
    (non : (⟨2, ![1, 128]⟩ : Shape).Idx → EReal) (wt : (⟨2, ![256, 128]⟩ : Shape).Idx → EReal)
    (bb : (⟨2, ![1, 128]⟩ : Shape).Idx → EReal)
    (hout : out = levelG lr non wt bb) (hlr : lr = shapeCast ⟨2, ![1, 256]⟩ prev hc)
    (hnon : non = labelRows G off hsl hb0 hb1 tbl labels) (hwt : wt = transpose ⟨2, ![256, 128]⟩ [1, 0] w htr)
    (hbb : bb = shapeCast ⟨2, ![1, 128]⟩ bias hcb) :
    out = refRoot G D off hsl hb0 hb1 hc htr hb2 prev labels tbl w bias := by
  subst hlr hnon hwt hbb
  rw [hout]
  exact levelG_eq_refRoot G D hlc hrc hln hrn hlb hrb off hsl hb0 hb1 hc htr hb2 hcb prev labels tbl w bias

end Cert.TreeLevel

end
-- ==== Proof.Stretches.lean ====
/-
  What each stretch of host operations of the kernel's program leaves in the buffers the next region reads.

  Before region `k` the program reads the previous level's `2n` states as `n` pair rows (a change of shape only), and
  looks up the level's `n` label rows in the label table; it writes neither the label indices, the label table, the
  transposed weight matrix nor the bias row. The first stretch also builds the leaves, the transposed weight matrix
  and the bias row. Each fact is read off the stretch's operations one by one, for any contents `W` of the buffers
  before it.
-/
import Lean
import proofs.«112655_j85761906966779_1_alg».proof.Proof.Gen.KernelIdeal.Launch
import Idealize.ShloMosaic.Lib.StableHlo.Run
import proofs.«112655_j85761906966779_1_alg».proof.Proof.TreeSpec

-- a stretch of thirty-odd operations is read one operation at a time: more steps than the default budget
set_option maxHeartbeats 4000000

noncomputable section

namespace Cert.KernelIdeal.Stretch

open Idealize.ShloMosaic Idealize.ShloMosaic.TcCoe Idealize.SL.Sem Idealize.ShloMosaic.StableHlo
open Cert.KernelIdeal Cert.KernelIdeal.Gen Cert.TreeLevel

/-! ## The first stretch -/

/-- The pair rows of the first level are the leaves, 524288 rows of 128 read as 262144 rows of 256. -/
theorem lr0 (W : Valuation τ sig (Elt Ideal)) :
    after (hostOps0 (F := Ideal)) W (Proc.devRef .tc main_v17)
      = shapeCast S262144x256 (leaves gather_S64x64_S524288x1_S524288x64_1_0_n_n_0_1_164
          gather_S100000x64_S524288x1_S524288x64_1_0_n_n_0_1_164 bcast_S_S524288 bcast_S524288_S524288x1_0
          concatenates_S524288x64_S524288x64_S524288x128_d1 (W (Proc.devRef .tc main_arg0)) (W (Proc.devRef .tc main_arg1))
          (W (Proc.devRef .tc main_arg3)) (W (Proc.devRef .tc main_arg4))) shapeCasts_S524288x128_S262144x256 := by
  after_results
  rfl

/-- The label rows of the first level. -/
theorem non0 (W : Valuation τ sig (Elt Ideal)) :
    after (hostOps0 (F := Ideal)) W (Proc.devRef .tc main_v25)
      = labelRows gather_S64x128_S262144x1_S262144x128_1_0_n_n_0_1_1128 0 slices_S524287_S262144_0
          bcast_S_S262144 bcast_S262144_S262144x1_0 (W (Proc.devRef .tc main_arg5)) (W (Proc.devRef .tc main_arg2)) := by
  after_results
  rfl

/-- The weight matrix every level multiplies by: the argument's transpose. -/
theorem wt0 (W : Valuation τ sig (Elt Ideal)) :
    after (hostOps0 (F := Ideal)) W (Proc.devRef .tc main_v15)
      = transpose S256x128 [1, 0] (W (Proc.devRef .tc main_arg6)) transposes_S128x256_S256x128_1_0 := by
  after_results

/-- The bias row every level adds: the argument vector read as one row. -/
theorem bb0 (W : Valuation τ sig (Elt Ideal)) :
    after (hostOps0 (F := Ideal)) W (Proc.devRef .tc main_v16)
      = shapeCast S1x128 (W (Proc.devRef .tc main_arg7)) shapeCasts_S128_S1x128 := by
  after_results
  rfl

/-- The first stretch writes neither the label indices nor the label table. -/
theorem keep0 (W : Valuation τ sig (Elt Ideal)) :
    after (hostOps0 (F := Ideal)) W (Proc.devRef .tc main_arg2) = W (Proc.devRef .tc main_arg2)
      ∧ after (hostOps0 (F := Ideal)) W (Proc.devRef .tc main_arg5) = W (Proc.devRef .tc main_arg5) := by
  refine ⟨?_, ?_⟩ <;> after_results

/-! ## The stretch before region `k`, `k = 1 … 18` -/

open Lean Elab Command in
/-- `stretch_facts k`: for the stretch before region `k`, whose level has `n = 262144 / 2^k` parents — `lr k`: the pair
    rows are the previous region's result read as `n` rows of 256; `non k`: the label rows are the label table's rows at
    the `n` label indices from position `524288 - 2n`; `keep k`: the label indices, the label table, the transposed
    weight matrix and the bias row are not written. -/
elab "stretch_facts " k:num : command => do
  let k := k.getNat
  let n := 262144 >>> k
  let n2 := 2 * n
  let off := 524288 - n2
  let name (s : String) : Ident := mkIdent (Name.mkSimple s)
  let ops := name s!"hostOps{k}"
  let prev := name s!"main_v{16 + 10 * k}"
  let lr := name s!"main_v{17 + 10 * k}"
  let non := name s!"main_v{25 + 10 * k}"
  let sLr := name s!"S{n}x256"
  let hc := name s!"shapeCasts_S{n2}x128_S{n}x256"
  let G := name s!"gather_S64x128_S{n}x1_S{n}x128_1_0_n_n_0_1_1128"
  let hsl := name s!"slices_S524287_S{n}_{off}"
  let hb0 := name s!"bcast_S_S{n}"
  let hb1 := name s!"bcast_S{n}_S{n}x1_0"
  let offLit := Syntax.mkNumLit (toString off)
  elabCommand (← `(theorem $(name s!"lr{k}") (W : Valuation τ sig (Elt Ideal)) :
      after ($ops (F := Ideal)) W (Proc.devRef .tc $lr) = shapeCast $sLr (W (Proc.devRef .tc $prev)) $hc := by
    after_results
    rfl))
  elabCommand (← `(theorem $(name s!"non{k}") (W : Valuation τ sig (Elt Ideal)) :
      after ($ops (F := Ideal)) W (Proc.devRef .tc $non)
        = labelRows $G $offLit $hsl $hb0 $hb1 (W (Proc.devRef .tc main_arg5)) (W (Proc.devRef .tc main_arg2)) := by
    after_results
    rfl))
  elabCommand (← `(theorem $(name s!"keep{k}") (W : Valuation τ sig (Elt Ideal)) :
      after ($ops (F := Ideal)) W (Proc.devRef .tc main_arg2) = W (Proc.devRef .tc main_arg2)
        ∧ after ($ops (F := Ideal)) W (Proc.devRef .tc main_arg5) = W (Proc.devRef .tc main_arg5)
        ∧ after ($ops (F := Ideal)) W (Proc.devRef .tc main_v15) = W (Proc.devRef .tc main_v15)
        ∧ after ($ops (F := Ideal)) W (Proc.devRef .tc main_v16) = W (Proc.devRef .tc main_v16) := by
    refine ⟨?_, ?_, ?_, ?_⟩ <;> after_results))

stretch_facts 1
stretch_facts 2
stretch_facts 3
stretch_facts 4
stretch_facts 5
stretch_facts 6
stretch_facts 7
stretch_facts 8
stretch_facts 9
stretch_facts 10
stretch_facts 11
stretch_facts 12
stretch_facts 13
stretch_facts 14
stretch_facts 15
stretch_facts 16
stretch_facts 17
stretch_facts 18

end Cert.KernelIdeal.Stretch

end
-- ==== Proof.RegionValueA.lean ====
/-
  What each kernel region leaves in its output array.

  A region of the kernel computes one level of the tree on a grid of row blocks. Its windows are the `n` pair rows in
  blocks of `r` rows, the `n` label rows in the same row blocks, the 256 x 128 matrix and the bias row (both whole at
  every point), and the `n` output rows in the same row blocks. At a grid point the body stores one whole block whose
  entry `(p, q)` is the level of the four input blocks at `(p, q)`; an element of a block sits in its array at block
  index × block size + its own coordinate, so that block is the output window's block of the level of the four whole
  arrays; and the row blocks cover the output array (row `x` lies in block `x / r`). Hence the array the region leaves is
  the level of its four input arrays, whatever the buffers held when the region was entered.

  This module states the argument once — `levelG_block` for the values, and the tactics `region_block` and
  `region_cover` for the windows' arithmetic, which take a region's names and sizes — and instantiates it for regions
  0 to 4; the sibling modules instantiate it for the other regions.
-/
import proofs.«112655_j85761906966779_1_alg».proof.Proof.Gen.KernelIdeal.Frame
import proofs.«112655_j85761906966779_1_alg».proof.Proof.LevelSpec
import proofs.«112655_j85761906966779_1_alg».proof.Proof.LevelMath
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.TreeLevel

/-- The zero offsets of a whole-rectangle access, however spelt. -/
theorem hz2 : (![0, 0] : Fin 2 → Nat) = fun _ => 0 := funext fun a => by fin_cases a <;> rfl

/-- A load through the whole rectangle of a rank-2 buffer reads the contents. -/
theorem ld_whole2 {Val : EltTy → Type} {e : EltTy} (d : Fin 2 → Nat) (inb : ∀ a, (![0, 0] : Fin 2 → Nat) a + (⟨2, d⟩ : Shape).size a ≤ (⟨2, d⟩ : Shape).size a)
    (X : (⟨2, d⟩ : Shape).Idx → Val e) : View.ld X (Rect.unit (s := ⟨2, d⟩) ![0, 0] (⟨2, d⟩ : Shape).size inb) = X :=
  View.ld_unit_zero hz2 inb X

/-- A level computed on a block of rows is the level of the whole arrays read where the block sits. Let the block's
    entry `(p, q)` sit at the index `i` of the arrays: row `p` of the block's pair rows is row `i 0` of the arrays'
    (`h0`), the block's label entry at `(p, q)` is the arrays' at `i` (`h1`), `i` is in column `q` (`hq`), and the
    matrix and the bias row are the arrays' own (`h2`, `h3`). Then the block's level at `(p, q)` is the arrays' level at `i`. -/
theorem levelG_block {n r : ℕ} (lr : (⟨2, ![n, 256]⟩ : Shape).Idx → EReal) (non : (⟨2, ![n, 128]⟩ : Shape).Idx → EReal)
    (wt : (⟨2, ![256, 128]⟩ : Shape).Idx → EReal) (b : (⟨2, ![1, 128]⟩ : Shape).Idx → EReal)
    (x0 : (⟨2, ![r, 256]⟩ : Shape).Idx → EReal) (x7 : (⟨2, ![r, 128]⟩ : Shape).Idx → EReal)
    (x3 : (⟨2, ![256, 128]⟩ : Shape).Idx → EReal) (x10 : (⟨2, ![1, 128]⟩ : Shape).Idx → EReal)
    (p : Fin r) (q : Fin 128) (i : (⟨2, ![n, 128]⟩ : Shape).Idx)
    (h0 : ∀ k : Fin 256, x0 (ix2 p k) = lr (ix2 (i 0 : Fin n) k)) (h1 : x7 (ix2 p q) = non i) (hq : (i 1 : Fin 128) = q)
    (h2 : x3 = wt) (h3 : x10 = b) :
    levelG x0 x7 x3 x10 (ix2 p q) = levelG lr non wt b i := by
  subst h2 h3
  have hi : i = ix2 (i 0 : Fin n) q := hq ▸ eq_ix2 i
  have h1' : x7 (ix2 p q) = non (ix2 (i 0 : Fin n) q) := h1.trans (congrArg non hi)
  show levelAt x0 x7 x3 x10 p q = levelAt lr non x3 x10 (i 0) (i 1)
  rw [hq]
  unfold levelAt
  simp only [h0, h1']

/-- The block indices of a region's five windows at a grid point `t`: the pair rows, the label rows and the output rows
    are at row block `t` (column block 0), the matrix and the bias row at block `(0, 0)`. -/
macro "idx_facts%" cfg:ident : term => `(∀ t : Fin ($cfg).N,
    (($cfg).win 0).index t (0 : Fin 2) = t.val ∧ (($cfg).win 0).index t (1 : Fin 2) = 0
    ∧ (($cfg).win 1).index t (0 : Fin 2) = t.val ∧ (($cfg).win 1).index t (1 : Fin 2) = 0
    ∧ (($cfg).win 2).index t (0 : Fin 2) = 0 ∧ (($cfg).win 2).index t (1 : Fin 2) = 0
    ∧ (($cfg).win 3).index t (0 : Fin 2) = 0 ∧ (($cfg).win 3).index t (1 : Fin 2) = 0
    ∧ (($cfg).win 4).index t (0 : Fin 2) = t.val ∧ (($cfg).win 4).index t (1 : Fin 2) = 0)

/-- WHAT A POINT WRITES BACK, for a region whose windows are the pair rows, the label rows, the matrix, the bias row and the
    output rows. At grid point `t` the body's one store writes the whole staging block; the payload read at `(p, q)` is
    the level of the four input blocks there; and each input block is its array read where the output block sits (an
    element of a block sits at block index × block size + its own coordinate; the row-blocked windows move with the
    point, the matrix and the bias row are whole). So the block written back is the output window's block of the arrays'
    level. The parameters: the region's entry contents and core, its generated names, its block's row count `r`, its
    array's row count `n`, and the payload's value at an index. -/
macro "region_block" V:term:max c:term:max t:term:max cfg:ident grid:ident dat:ident after4:ident out4:ident pay:ident
    iblk:ident spec:ident hidx:ident r:num n:num paylem:term:max : tactic => `(tactic| (
  show (($cfg).win 4).cut (($grid).coords $t) (($dat $V $c).after 4 $t) = _
  rw [$after4:ident]
  unfold $out4
  rw [View.canon_unit_zero hz2]
  simp only [ld_whole2]
  obtain ⟨e00, e01, e10, e11, e20, e21, e30, e31, e40, e41⟩ := $hidx $t
  funext j
  obtain ⟨p, q, hj⟩ : ∃ (p : Fin $r) (q : Fin 128), j = ix2 p q := ⟨j 0, j 1, eq_ix2 j⟩
  subst hj
  show $pay ($iblk $V $c 0 $t) ($iblk $V $c 2 $t) ($iblk $V $c 1 $t) ($iblk $V $c 3 $t) (ix2 p q) = _
  unfold $pay
  refine ($paylem _ _ _ _ p q).trans ?_
  refine (levelG_block ($V $c (Pipeline.arrRef $spec 0)) ($V $c (Pipeline.arrRef $spec 1)) ($V $c (Pipeline.arrRef $spec 2)) ($V $c (Pipeline.arrRef $spec 3))
    _ _ _ _ p q (((($cfg).win 4).blk $t).view.emb (ix2 p q)) ?_ ?_ ?_ ?_ ?_).trans rfl
  · intro k
    unfold $iblk
    show $V $c (Pipeline.arrRef $spec 0) (((($cfg).win 0).blk $t).view.emb (ix2 p k)) = _
    refine congrArg ($V $c (Pipeline.arrRef $spec 0)) (funext fun a => Fin.ext ?_)
    match a with
    | ⟨0, _⟩ => show (($cfg).win 0).index $t (0 : Fin 2) * $r + 1 * p.val = (($cfg).win 4).index $t (0 : Fin 2) * $r + 1 * p.val; rw [e00, e40]
    | ⟨1, _⟩ => show (($cfg).win 0).index $t (1 : Fin 2) * 256 + 1 * k.val = k.val; rw [e01]; omega
  · unfold $iblk
    show $V $c (Pipeline.arrRef $spec 1) (((($cfg).win 1).blk $t).view.emb (ix2 p q)) = _
    refine congrArg ($V $c (Pipeline.arrRef $spec 1)) (funext fun a => Fin.ext ?_)
    match a with
    | ⟨0, _⟩ => show (($cfg).win 1).index $t (0 : Fin 2) * $r + 1 * p.val = (($cfg).win 4).index $t (0 : Fin 2) * $r + 1 * p.val; rw [e10, e40]
    | ⟨1, _⟩ => show (($cfg).win 1).index $t (1 : Fin 2) * 128 + 1 * q.val = (($cfg).win 4).index $t (1 : Fin 2) * 128 + 1 * q.val; rw [e11, e41]
  · exact Fin.ext (show (($cfg).win 4).index $t (1 : Fin 2) * 128 + 1 * q.val = q.val by rw [e41]; omega)
  · unfold $iblk
    funext y
    show $V $c (Pipeline.arrRef $spec 2) (((($cfg).win 2).blk $t).view.emb y) = _
    refine congrArg ($V $c (Pipeline.arrRef $spec 2)) (funext fun a => Fin.ext ?_)
    match a with
    | ⟨0, _⟩ => show (($cfg).win 2).index $t (0 : Fin 2) * 256 + 1 * (y 0).val = (y 0).val; rw [e20]; omega
    | ⟨1, _⟩ => show (($cfg).win 2).index $t (1 : Fin 2) * 128 + 1 * (y 1).val = (y 1).val; rw [e21]; omega
  · unfold $iblk
    funext y
    show $V $c (Pipeline.arrRef $spec 3) (((($cfg).win 3).blk $t).view.emb y) = _
    refine congrArg ($V $c (Pipeline.arrRef $spec 3)) (funext fun a => Fin.ext ?_)
    match a with
    | ⟨0, _⟩ => show (($cfg).win 3).index $t (0 : Fin 2) * 1 + 1 * (y 0).val = (y 0).val; rw [e30]; omega
    | ⟨1, _⟩ => show (($cfg).win 3).index $t (1 : Fin 2) * 128 + 1 * (y 1).val = (y 1).val; rw [e31]; omega))

/-- THE BLOCKS COVER THE ARRAY: the point that covers row `x` is `x / r` (on a grid of `g` points over `n = g * r` rows of
    the output array `arr`); every point writes its block back. -/
macro "region_cover" i:term:max cfg:ident arr:ident flush4:ident hidx:ident hN:ident g:num r:num n:num : tactic => `(tactic| (
  have hg : ($cfg).N = $g := $hN
  have hi0 : (($i) 0).val < $n := (($i) 0).isLt
  have hi1 : (($i) 1).val < 128 := (($i) 1).isLt
  have ht : (($i) 0).val / $r < ($cfg).N := by rw [hg]; omega
  obtain ⟨-, -, -, -, -, -, -, -, e40, e41⟩ := $hidx ⟨(($i) 0).val / $r, ht⟩
  refine ⟨⟨(($i) 0).val / $r, ht⟩, $flush4 _, ?_⟩
  show $i ∈ ((View.whole $arr).slice ((($cfg).win 4).rect ⟨(($i) 0).val / $r, ht⟩)).set
  rw [View.set_slice_whole, Rect.mem_set_unit]
  intro a
  match a with
  | ⟨0, _⟩ =>
    show (($cfg).win 4).index ⟨(($i) 0).val / $r, ht⟩ (0 : Fin 2) * $r ≤ (($i) 0).val ∧ (($i) 0).val < (($cfg).win 4).index ⟨(($i) 0).val / $r, ht⟩ (0 : Fin 2) * $r + $r
    rw [e40]; show (($i) 0).val / $r * $r ≤ (($i) 0).val ∧ (($i) 0).val < (($i) 0).val / $r * $r + $r; omega
  | ⟨1, _⟩ =>
    show (($cfg).win 4).index ⟨(($i) 0).val / $r, ht⟩ (1 : Fin 2) * 128 ≤ (($i) 1).val ∧ (($i) 1).val < (($cfg).win 4).index ⟨(($i) 0).val / $r, ht⟩ (1 : Fin 2) * 128 + 128
    rw [e41]; omega))

variable (V : (c : Dev nD) → (b : Ref sig .tc) → Buf (Elt Ideal) ((c : Thread nD τ).loc b))

/-! ## Region 0: 262144 rows, 64 blocks of 4096 -/

/-- The block indices of region 0's windows, decided over its grid. -/
theorem idx0 : idx_facts% cfg0 := (by decide +kernel : ∀ t : Fin grid0.N, _)

set_option maxHeartbeats 4000000 in
/-- What point `t` of region 0 writes back is the output window's block at `t` of the level of the region's four input
    arrays. -/
theorem flushed0 (c : Dev nD) (t : Fin cfg0.N) :
    (dat0 V c).flushed 4 t = ((cfg0.win 4).blk t).view.read (Elt Ideal)
      (levelG (V c (Pipeline.arrRef spec0 0)) (V c (Pipeline.arrRef spec0 1)) (V c (Pipeline.arrRef spec0 2)) (V c (Pipeline.arrRef spec0 3))) := by
  region_block V c t cfg0 grid0 dat0 after0_4 out0_4 k0_pay1 iblk0 spec0 idx0 4096 262144
    (Cert.TreeLevel.payload_apply _ rfl rfl rfl rfl rfl rfl _ _ _ _ _ _)

set_option maxHeartbeats 1000000 in
/-- Region 0 leaves in its output array the level of its four input arrays: the 262144 parent rows of its 262144 pair rows and
    label rows under the shared matrix and bias row. -/
theorem out0 (c : Dev nD) : (dat0 (F := Ideal) V c).arrAt 4 cfg0.N
    = levelG (V c main_v17) (V c main_v25) (V c main_v15) (V c main_v16) :=
  (dat0 V c).arrAt_eq_of_cover 4 _ (fun t _ => flushed0 V c t) (fun i => by
    region_cover i cfg0 main_v26 flush0_4 idx0 N_0 64 4096 262144)

/-! ## Region 1: 131072 rows, 32 blocks of 4096 -/

/-- The block indices of region 1's windows, decided over its grid. -/
theorem idx1 : idx_facts% cfg1 := (by decide +kernel : ∀ t : Fin grid1.N, _)

set_option maxHeartbeats 4000000 in
/-- What point `t` of region 1 writes back is the output window's block at `t` of the level of the region's four input
    arrays. -/
theorem flushed1 (c : Dev nD) (t : Fin cfg1.N) :
    (dat1 V c).flushed 4 t = ((cfg1.win 4).blk t).view.read (Elt Ideal)
      (levelG (V c (Pipeline.arrRef spec1 0)) (V c (Pipeline.arrRef spec1 1)) (V c (Pipeline.arrRef spec1 2)) (V c (Pipeline.arrRef spec1 3))) := by
  region_block V c t cfg1 grid1 dat1 after1_4 out1_4 k1_pay1 iblk1 spec1 idx1 4096 131072
    (Cert.TreeLevel.payload_apply _ rfl rfl rfl rfl rfl rfl _ _ _ _ _ _)

set_option maxHeartbeats 1000000 in
/-- Region 1 leaves in its output array the level of its four input arrays: the 131072 parent rows of its 131072 pair rows and
    label rows under the shared matrix and bias row. -/
theorem out1 (c : Dev nD) : (dat1 (F := Ideal) V c).arrAt 4 cfg1.N
    = levelG (V c main_v27) (V c main_v35) (V c main_v15) (V c main_v16) :=
  (dat1 V c).arrAt_eq_of_cover 4 _ (fun t _ => flushed1 V c t) (fun i => by
    region_cover i cfg1 main_v36 flush1_4 idx1 N_1 32 4096 131072)

/-! ## Region 2: 65536 rows, 16 blocks of 4096 -/

/-- The block indices of region 2's windows, decided over its grid. -/
theorem idx2 : idx_facts% cfg2 := (by decide +kernel : ∀ t : Fin grid2.N, _)

set_option maxHeartbeats 4000000 in
/-- What point `t` of region 2 writes back is the output window's block at `t` of the level of the region's four input
    arrays. -/
theorem flushed2 (c : Dev nD) (t : Fin cfg2.N) :
    (dat2 V c).flushed 4 t = ((cfg2.win 4).blk t).view.read (Elt Ideal)
      (levelG (V c (Pipeline.arrRef spec2 0)) (V c (Pipeline.arrRef spec2 1)) (V c (Pipeline.arrRef spec2 2)) (V c (Pipeline.arrRef spec2 3))) := by
  region_block V c t cfg2 grid2 dat2 after2_4 out2_4 k2_pay1 iblk2 spec2 idx2 4096 65536
    (Cert.TreeLevel.payload_apply _ rfl rfl rfl rfl rfl rfl _ _ _ _ _ _)

set_option maxHeartbeats 1000000 in
/-- Region 2 leaves in its output array the level of its four input arrays: the 65536 parent rows of its 65536 pair rows and
    label rows under the shared matrix and bias row. -/
theorem out2 (c : Dev nD) : (dat2 (F := Ideal) V c).arrAt 4 cfg2.N
    = levelG (V c main_v37) (V c main_v45) (V c main_v15) (V c main_v16) :=
  (dat2 V c).arrAt_eq_of_cover 4 _ (fun t _ => flushed2 V c t) (fun i => by
    region_cover i cfg2 main_v46 flush2_4 idx2 N_2 16 4096 65536)

/-! ## Region 3: 32768 rows, 8 blocks of 4096 -/

/-- The block indices of region 3's windows, decided over its grid. -/
theorem idx3 : idx_facts% cfg3 := (by decide +kernel : ∀ t : Fin grid3.N, _)

set_option maxHeartbeats 4000000 in
/-- What point `t` of region 3 writes back is the output window's block at `t` of the level of the region's four input
    arrays. -/
theorem flushed3 (c : Dev nD) (t : Fin cfg3.N) :
    (dat3 V c).flushed 4 t = ((cfg3.win 4).blk t).view.read (Elt Ideal)
      (levelG (V c (Pipeline.arrRef spec3 0)) (V c (Pipeline.arrRef spec3 1)) (V c (Pipeline.arrRef spec3 2)) (V c (Pipeline.arrRef spec3 3))) := by
  region_block V c t cfg3 grid3 dat3 after3_4 out3_4 k3_pay1 iblk3 spec3 idx3 4096 32768
    (Cert.TreeLevel.payload_apply _ rfl rfl rfl rfl rfl rfl _ _ _ _ _ _)

set_option maxHeartbeats 1000000 in
/-- Region 3 leaves in its output array the level of its four input arrays: the 32768 parent rows of its 32768 pair rows and
    label rows under the shared matrix and bias row. -/
theorem out3 (c : Dev nD) : (dat3 (F := Ideal) V c).arrAt 4 cfg3.N
    = levelG (V c main_v47) (V c main_v55) (V c main_v15) (V c main_v16) :=
  (dat3 V c).arrAt_eq_of_cover 4 _ (fun t _ => flushed3 V c t) (fun i => by
    region_cover i cfg3 main_v56 flush3_4 idx3 N_3 8 4096 32768)

/-! ## Region 4: 16384 rows, 4 blocks of 4096 -/

/-- The block indices of region 4's windows, decided over its grid. -/
theorem idx4 : idx_facts% cfg4 := (by decide +kernel : ∀ t : Fin grid4.N, _)

set_option maxHeartbeats 4000000 in
/-- What point `t` of region 4 writes back is the output window's block at `t` of the level of the region's four input
    arrays. -/
theorem flushed4 (c : Dev nD) (t : Fin cfg4.N) :
    (dat4 V c).flushed 4 t = ((cfg4.win 4).blk t).view.read (Elt Ideal)
      (levelG (V c (Pipeline.arrRef spec4 0)) (V c (Pipeline.arrRef spec4 1)) (V c (Pipeline.arrRef spec4 2)) (V c (Pipeline.arrRef spec4 3))) := by
  region_block V c t cfg4 grid4 dat4 after4_4 out4_4 k4_pay1 iblk4 spec4 idx4 4096 16384
    (Cert.TreeLevel.payload_apply _ rfl rfl rfl rfl rfl rfl _ _ _ _ _ _)

set_option maxHeartbeats 1000000 in
/-- Region 4 leaves in its output array the level of its four input arrays: the 16384 parent rows of its 16384 pair rows and
    label rows under the shared matrix and bias row. -/
theorem out4 (c : Dev nD) : (dat4 (F := Ideal) V c).arrAt 4 cfg4.N
    = levelG (V c main_v57) (V c main_v65) (V c main_v15) (V c main_v16) :=
  (dat4 V c).arrAt_eq_of_cover 4 _ (fun t _ => flushed4 V c t) (fun i => by
    region_cover i cfg4 main_v66 flush4_4 idx4 N_4 4 4096 16384)

end Cert.KernelIdeal.RegionValue

end
-- ==== Proof.RegionValueB.lean ====
/-
  What kernel regions 5 to 9 leave in their output arrays: each the level of its four input arrays. The argument is
  stated once in the sibling module for regions 0 to 4 (`levelG_block`, `region_block`, `region_cover`); here it is
  instantiated at each region's windows and sizes.
-/
import proofs.«112655_j85761906966779_1_alg».proof.Proof.RegionValueA

set_option maxRecDepth 16384

noncomputable section

namespace Cert.KernelIdeal.RegionValue

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.TreeLevel

variable (V : (c : Dev nD) → (b : Ref sig .tc) → Buf (Elt Ideal) ((c : Thread nD τ).loc b))

/-! ## Region 5: 8192 rows, 2 blocks of 4096 -/

/-- The block indices of region 5's windows, decided over its grid. -/
theorem idx5 : idx_facts% cfg5 := (by decide +kernel : ∀ t : Fin grid5.N, _)

set_option maxHeartbeats 4000000 in
/-- What point `t` of region 5 writes back is the output window's block at `t` of the level of the region's four input
    arrays. -/
theorem flushed5 (c : Dev nD) (t : Fin cfg5.N) :
    (dat5 V c).flushed 4 t = ((cfg5.win 4).blk t).view.read (Elt Ideal)
      (levelG (V c (Pipeline.arrRef spec5 0)) (V c (Pipeline.arrRef spec5 1)) (V c (Pipeline.arrRef spec5 2)) (V c (Pipeline.arrRef spec5 3))) := by
  region_block V c t cfg5 grid5 dat5 after5_4 out5_4 k5_pay1 iblk5 spec5 idx5 4096 8192
    (Cert.TreeLevel.payload_apply _ rfl rfl rfl rfl rfl rfl _ _ _ _ _ _)

set_option maxHeartbeats 1000000 in
/-- Region 5 leaves in its output array the level of its four input arrays: the 8192 parent rows of its 8192 pair rows and
    label rows under the shared matrix and bias row. -/
theorem out5 (c : Dev nD) : (dat5 (F := Ideal) V c).arrAt 4 cfg5.N
    = levelG (V c main_v67) (V c main_v75) (V c main_v15) (V c main_v16) :=
  (dat5 V c).arrAt_eq_of_cover 4 _ (fun t _ => flushed5 V c t) (fun i => by
    region_cover i cfg5 main_v76 flush5_4 idx5 N_5 2 4096 8192)

/-! ## Region 6: 4096 rows, 1 block of 4096 -/

/-- The block indices of region 6's windows, decided over its grid. -/
theorem idx6 : idx_facts% cfg6 := (by decide +kernel : ∀ t : Fin grid6.N, _)

set_option maxHeartbeats 4000000 in
/-- What point `t` of region 6 writes back is the output window's block at `t` of the level of the region's four input
    arrays. -/
theorem flushed6 (c : Dev nD) (t : Fin cfg6.N) :
    (dat6 V c).flushed 4 t = ((cfg6.win 4).blk t).view.read (Elt Ideal)
      (levelG (V c (Pipeline.arrRef spec6 0)) (V c (Pipeline.arrRef spec6 1)) (V c (Pipeline.arrRef spec6 2)) (V c (Pipeline.arrRef spec6 3))) := by
  region_block V c t cfg6 grid6 dat6 after6_4 out6_4 k6_pay1 iblk6 spec6 idx6 4096 4096
    (Cert.TreeLevel.payload_apply _ rfl rfl rfl rfl rfl rfl _ _ _ _ _ _)

set_option maxHeartbeats 1000000 in
/-- Region 6 leaves in its output array the level of its four input arrays: the 4096 parent rows of its 4096 pair rows and
    label rows under the shared matrix and bias row. -/
theorem out6 (c : Dev nD) : (dat6 (F := Ideal) V c).arrAt 4 cfg6.N
    = levelG (V c main_v77) (V c main_v85) (V c main_v15) (V c main_v16) :=
  (dat6 V c).arrAt_eq_of_cover 4 _ (fun t _ => flushed6 V c t) (fun i => by
    region_cover i cfg6 main_v86 flush6_4 idx6 N_6 1 4096 4096)

/-! ## Region 7: 2048 rows, 1 block of 2048 -/

/-- The block indices of region 7's windows, decided over its grid. -/
theorem idx7 : idx_facts% cfg7 := (by decide +kernel : ∀ t : Fin grid7.N, _)

set_option maxHeartbeats 4000000 in
/-- What point `t` of region 7 writes back is the output window's block at `t` of the level of the region's four input
    arrays. -/
theorem flushed7 (c : Dev nD) (t : Fin cfg7.N) :
    (dat7 V c).flushed 4 t = ((cfg7.win 4).blk t).view.read (Elt Ideal)
      (levelG (V c (Pipeline.arrRef spec7 0)) (V c (Pipeline.arrRef spec7 1)) (V c (Pipeline.arrRef spec7 2)) (V c (Pipeline.arrRef spec7 3))) := by
  region_block V c t cfg7 grid7 dat7 after7_4 out7_4 k7_pay1 iblk7 spec7 idx7 2048 2048
    (Cert.TreeLevel.payload_apply _ rfl rfl rfl rfl rfl rfl _ _ _ _ _ _)

set_option maxHeartbeats 1000000 in
/-- Region 7 leaves in its output array the level of its four input arrays: the 2048 parent rows of its 2048 pair rows and
    label rows under the shared matrix and bias row. -/
theorem out7 (c : Dev nD) : (dat7 (F := Ideal) V c).arrAt 4 cfg7.N
    = levelG (V c main_v87) (V c main_v95) (V c main_v15) (V c main_v16) :=
  (dat7 V c).arrAt_eq_of_cover 4 _ (fun t _ => flushed7 V c t) (fun i => by
    region_cover i cfg7 main_v96 flush7_4 idx7 N_7 1 2048 2048)

/-! ## Region 8: 1024 rows, 1 block of 1024 -/

/-- The block indices of region 8's windows, decided over its grid. -/
theorem idx8 : idx_facts% cfg8 := (by decide +kernel : ∀ t : Fin grid8.N, _)

set_option maxHeartbeats 4000000 in
/-- What point `t` of region 8 writes back is the output window's block at `t` of the level of the region's four input
    arrays. -/
theorem flushed8 (c : Dev nD) (t : Fin cfg8.N) :
    (dat8 V c).flushed 4 t = ((cfg8.win 4).blk t).view.read (Elt Ideal)
      (levelG (V c (Pipeline.arrRef spec8 0)) (V c (Pipeline.arrRef spec8 1)) (V c (Pipeline.arrRef spec8 2)) (V c (Pipeline.arrRef spec8 3))) := by
  region_block V c t cfg8 grid8 dat8 after8_4 out8_4 k8_pay1 iblk8 spec8 idx8 1024 1024
    (Cert.TreeLevel.payload_apply _ rfl rfl rfl rfl rfl rfl _ _ _ _ _ _)

set_option maxHeartbeats 1000000 in
/-- Region 8 leaves in its output array the level of its four input arrays: the 1024 parent rows of its 1024 pair rows and
    label rows under the shared matrix and bias row. -/
theorem out8 (c : Dev nD) : (dat8 (F := Ideal) V c).arrAt 4 cfg8.N
    = levelG (V c main_v97) (V c main_v105) (V c main_v15) (V c main_v16) :=
  (dat8 V c).arrAt_eq_of_cover 4 _ (fun t _ => flushed8 V c t) (fun i => by
    region_cover i cfg8 main_v106 flush8_4 idx8 N_8 1 1024 1024)

/-! ## Region 9: 512 rows, 1 block of 512 -/

/-- The block indices of region 9's windows, decided over its grid. -/
theorem idx9 : idx_facts% cfg9 := (by decide +kernel : ∀ t : Fin grid9.N, _)

set_option maxHeartbeats 4000000 in
/-- What point `t` of region 9 writes back is the output window's block at `t` of the level of the region's four input
    arrays. -/
theorem flushed9 (c : Dev nD) (t : Fin cfg9.N) :
    (dat9 V c).flushed 4 t = ((cfg9.win 4).blk t).view.read (Elt Ideal)
      (levelG (V c (Pipeline.arrRef spec9 0)) (V c (Pipeline.arrRef spec9 1)) (V c (Pipeline.arrRef spec9 2)) (V c (Pipeline.arrRef spec9 3))) := by
  region_block V c t cfg9 grid9 dat9 after9_4 out9_4 k9_pay1 iblk9 spec9 idx9 512 512
    (Cert.TreeLevel.payload_apply _ rfl rfl rfl rfl rfl rfl _ _ _ _ _ _)

set_option maxHeartbeats 1000000 in
/-- Region 9 leaves in its output array the level of its four input arrays: the 512 parent rows of its 512 pair rows and
    label rows under the shared matrix and bias row. -/
theorem out9 (c : Dev nD) : (dat9 (F := Ideal) V c).arrAt 4 cfg9.N
    = levelG (V c main_v107) (V c main_v115) (V c main_v15) (V c main_v16) :=
  (dat9 V c).arrAt_eq_of_cover 4 _ (fun t _ => flushed9 V c t) (fun i => by
    region_cover i cfg9 main_v116 flush9_4 idx9 N_9 1 512 512)

end Cert.KernelIdeal.RegionValue

end
-- ==== Proof.RegionValueC.lean ====
/-
  What kernel regions 10 to 14 leave in their output arrays: each the level of its four input arrays. The argument is
  stated once in the sibling module for regions 0 to 4 (`levelG_block`, `region_block`, `region_cover`); here it is
  instantiated at each region's windows and sizes.
-/
import proofs.«112655_j85761906966779_1_alg».proof.Proof.RegionValueA

set_option maxRecDepth 16384

noncomputable section

namespace Cert.KernelIdeal.RegionValue

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.TreeLevel

variable (V : (c : Dev nD) → (b : Ref sig .tc) → Buf (Elt Ideal) ((c : Thread nD τ).loc b))

/-! ## Region 10: 256 rows, 1 block of 256 -/

/-- The block indices of region 10's windows, decided over its grid. -/
theorem idx10 : idx_facts% cfg10 := (by decide +kernel : ∀ t : Fin grid10.N, _)

set_option maxHeartbeats 4000000 in
/-- What point `t` of region 10 writes back is the output window's block at `t` of the level of the region's four input
    arrays. -/
theorem flushed10 (c : Dev nD) (t : Fin cfg10.N) :
    (dat10 V c).flushed 4 t = ((cfg10.win 4).blk t).view.read (Elt Ideal)
      (levelG (V c (Pipeline.arrRef spec10 0)) (V c (Pipeline.arrRef spec10 1)) (V c (Pipeline.arrRef spec10 2)) (V c (Pipeline.arrRef spec10 3))) := by
  region_block V c t cfg10 grid10 dat10 after10_4 out10_4 k10_pay1 iblk10 spec10 idx10 256 256
    (Cert.TreeLevel.payload_apply _ rfl rfl rfl rfl rfl rfl _ _ _ _ _ _)

set_option maxHeartbeats 1000000 in
/-- Region 10 leaves in its output array the level of its four input arrays: the 256 parent rows of its 256 pair rows and
    label rows under the shared matrix and bias row. -/
theorem out10 (c : Dev nD) : (dat10 (F := Ideal) V c).arrAt 4 cfg10.N
    = levelG (V c main_v117) (V c main_v125) (V c main_v15) (V c main_v16) :=
  (dat10 V c).arrAt_eq_of_cover 4 _ (fun t _ => flushed10 V c t) (fun i => by
    region_cover i cfg10 main_v126 flush10_4 idx10 N_10 1 256 256)

/-! ## Region 11: 128 rows, 1 block of 128 -/

/-- The block indices of region 11's windows, decided over its grid. -/
theorem idx11 : idx_facts% cfg11 := (by decide +kernel : ∀ t : Fin grid11.N, _)

set_option maxHeartbeats 4000000 in
/-- What point `t` of region 11 writes back is the output window's block at `t` of the level of the region's four input
    arrays. -/
theorem flushed11 (c : Dev nD) (t : Fin cfg11.N) :
    (dat11 V c).flushed 4 t = ((cfg11.win 4).blk t).view.read (Elt Ideal)
      (levelG (V c (Pipeline.arrRef spec11 0)) (V c (Pipeline.arrRef spec11 1)) (V c (Pipeline.arrRef spec11 2)) (V c (Pipeline.arrRef spec11 3))) := by
  region_block V c t cfg11 grid11 dat11 after11_4 out11_4 k11_pay1 iblk11 spec11 idx11 128 128
    (Cert.TreeLevel.payload_apply _ rfl rfl rfl rfl rfl rfl _ _ _ _ _ _)

set_option maxHeartbeats 1000000 in
/-- Region 11 leaves in its output array the level of its four input arrays: the 128 parent rows of its 128 pair rows and
    label rows under the shared matrix and bias row. -/
theorem out11 (c : Dev nD) : (dat11 (F := Ideal) V c).arrAt 4 cfg11.N
    = levelG (V c main_v127) (V c main_v135) (V c main_v15) (V c main_v16) :=
  (dat11 V c).arrAt_eq_of_cover 4 _ (fun t _ => flushed11 V c t) (fun i => by
    region_cover i cfg11 main_v136 flush11_4 idx11 N_11 1 128 128)

/-! ## Region 12: 64 rows, 1 block of 64 -/

/-- The block indices of region 12's windows, decided over its grid. -/
theorem idx12 : idx_facts% cfg12 := (by decide +kernel : ∀ t : Fin grid12.N, _)

set_option maxHeartbeats 4000000 in
/-- What point `t` of region 12 writes back is the output window's block at `t` of the level of the region's four input
    arrays. -/
theorem flushed12 (c : Dev nD) (t : Fin cfg12.N) :
    (dat12 V c).flushed 4 t = ((cfg12.win 4).blk t).view.read (Elt Ideal)
      (levelG (V c (Pipeline.arrRef spec12 0)) (V c (Pipeline.arrRef spec12 1)) (V c (Pipeline.arrRef spec12 2)) (V c (Pipeline.arrRef spec12 3))) := by
  region_block V c t cfg12 grid12 dat12 after12_4 out12_4 k12_pay1 iblk12 spec12 idx12 64 64
    (Cert.TreeLevel.payload_apply _ rfl rfl rfl rfl rfl rfl _ _ _ _ _ _)

set_option maxHeartbeats 1000000 in
/-- Region 12 leaves in its output array the level of its four input arrays: the 64 parent rows of its 64 pair rows and
    label rows under the shared matrix and bias row. -/
theorem out12 (c : Dev nD) : (dat12 (F := Ideal) V c).arrAt 4 cfg12.N
    = levelG (V c main_v137) (V c main_v145) (V c main_v15) (V c main_v16) :=
  (dat12 V c).arrAt_eq_of_cover 4 _ (fun t _ => flushed12 V c t) (fun i => by
    region_cover i cfg12 main_v146 flush12_4 idx12 N_12 1 64 64)

/-! ## Region 13: 32 rows, 1 block of 32 -/

/-- The block indices of region 13's windows, decided over its grid. -/
theorem idx13 : idx_facts% cfg13 := (by decide +kernel : ∀ t : Fin grid13.N, _)

set_option maxHeartbeats 4000000 in
/-- What point `t` of region 13 writes back is the output window's block at `t` of the level of the region's four input
    arrays. -/
theorem flushed13 (c : Dev nD) (t : Fin cfg13.N) :
    (dat13 V c).flushed 4 t = ((cfg13.win 4).blk t).view.read (Elt Ideal)
      (levelG (V c (Pipeline.arrRef spec13 0)) (V c (Pipeline.arrRef spec13 1)) (V c (Pipeline.arrRef spec13 2)) (V c (Pipeline.arrRef spec13 3))) := by
  region_block V c t cfg13 grid13 dat13 after13_4 out13_4 k13_pay1 iblk13 spec13 idx13 32 32
    (Cert.TreeLevel.payload_apply _ rfl rfl rfl rfl rfl rfl _ _ _ _ _ _)

set_option maxHeartbeats 1000000 in
/-- Region 13 leaves in its output array the level of its four input arrays: the 32 parent rows of its 32 pair rows and
    label rows under the shared matrix and bias row. -/
theorem out13 (c : Dev nD) : (dat13 (F := Ideal) V c).arrAt 4 cfg13.N
    = levelG (V c main_v147) (V c main_v155) (V c main_v15) (V c main_v16) :=
  (dat13 V c).arrAt_eq_of_cover 4 _ (fun t _ => flushed13 V c t) (fun i => by
    region_cover i cfg13 main_v156 flush13_4 idx13 N_13 1 32 32)

/-! ## Region 14: 16 rows, 1 block of 16 -/

/-- The block indices of region 14's windows, decided over its grid. -/
theorem idx14 : idx_facts% cfg14 := (by decide +kernel : ∀ t : Fin grid14.N, _)

set_option maxHeartbeats 4000000 in
/-- What point `t` of region 14 writes back is the output window's block at `t` of the level of the region's four input
    arrays. -/
theorem flushed14 (c : Dev nD) (t : Fin cfg14.N) :
    (dat14 V c).flushed 4 t = ((cfg14.win 4).blk t).view.read (Elt Ideal)
      (levelG (V c (Pipeline.arrRef spec14 0)) (V c (Pipeline.arrRef spec14 1)) (V c (Pipeline.arrRef spec14 2)) (V c (Pipeline.arrRef spec14 3))) := by
  region_block V c t cfg14 grid14 dat14 after14_4 out14_4 k14_pay1 iblk14 spec14 idx14 16 16
    (Cert.TreeLevel.payload_apply _ rfl rfl rfl rfl rfl rfl _ _ _ _ _ _)

set_option maxHeartbeats 1000000 in
/-- Region 14 leaves in its output array the level of its four input arrays: the 16 parent rows of its 16 pair rows and
    label rows under the shared matrix and bias row. -/
theorem out14 (c : Dev nD) : (dat14 (F := Ideal) V c).arrAt 4 cfg14.N
    = levelG (V c main_v157) (V c main_v165) (V c main_v15) (V c main_v16) :=
  (dat14 V c).arrAt_eq_of_cover 4 _ (fun t _ => flushed14 V c t) (fun i => by
    region_cover i cfg14 main_v166 flush14_4 idx14 N_14 1 16 16)

end Cert.KernelIdeal.RegionValue

end
-- ==== Proof.RegionValueD.lean ====
/-
  What kernel regions 15 to 18 leave in their output arrays: each the level of its four input arrays. The argument is
  stated once in the sibling module for regions 0 to 4 (`levelG_block`, `region_block`, `region_cover`); here it is
  instantiated at each region's windows and sizes.
-/
import proofs.«112655_j85761906966779_1_alg».proof.Proof.RegionValueA

set_option maxRecDepth 16384

noncomputable section

namespace Cert.KernelIdeal.RegionValue

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.TreeLevel

variable (V : (c : Dev nD) → (b : Ref sig .tc) → Buf (Elt Ideal) ((c : Thread nD τ).loc b))

/-! ## Region 15: 8 rows, 1 block of 8 -/

/-- The block indices of region 15's windows, decided over its grid. -/
theorem idx15 : idx_facts% cfg15 := (by decide +kernel : ∀ t : Fin grid15.N, _)

set_option maxHeartbeats 4000000 in
/-- What point `t` of region 15 writes back is the output window's block at `t` of the level of the region's four input
    arrays. -/
theorem flushed15 (c : Dev nD) (t : Fin cfg15.N) :
    (dat15 V c).flushed 4 t = ((cfg15.win 4).blk t).view.read (Elt Ideal)
      (levelG (V c (Pipeline.arrRef spec15 0)) (V c (Pipeline.arrRef spec15 1)) (V c (Pipeline.arrRef spec15 2)) (V c (Pipeline.arrRef spec15 3))) := by
  region_block V c t cfg15 grid15 dat15 after15_4 out15_4 k15_pay1 iblk15 spec15 idx15 8 8
    (Cert.TreeLevel.payload_apply _ rfl rfl rfl rfl rfl rfl _ _ _ _ _ _)

set_option maxHeartbeats 1000000 in
/-- Region 15 leaves in its output array the level of its four input arrays: the 8 parent rows of its 8 pair rows and
    label rows under the shared matrix and bias row. -/
theorem out15 (c : Dev nD) : (dat15 (F := Ideal) V c).arrAt 4 cfg15.N
    = levelG (V c main_v167) (V c main_v175) (V c main_v15) (V c main_v16) :=
  (dat15 V c).arrAt_eq_of_cover 4 _ (fun t _ => flushed15 V c t) (fun i => by
    region_cover i cfg15 main_v176 flush15_4 idx15 N_15 1 8 8)

/-! ## Region 16: 4 rows, 1 block of 4 -/

/-- The block indices of region 16's windows, decided over its grid. -/
theorem idx16 : idx_facts% cfg16 := (by decide +kernel : ∀ t : Fin grid16.N, _)

set_option maxHeartbeats 4000000 in
/-- What point `t` of region 16 writes back is the output window's block at `t` of the level of the region's four input
    arrays. -/
theorem flushed16 (c : Dev nD) (t : Fin cfg16.N) :
    (dat16 V c).flushed 4 t = ((cfg16.win 4).blk t).view.read (Elt Ideal)
      (levelG (V c (Pipeline.arrRef spec16 0)) (V c (Pipeline.arrRef spec16 1)) (V c (Pipeline.arrRef spec16 2)) (V c (Pipeline.arrRef spec16 3))) := by
  region_block V c t cfg16 grid16 dat16 after16_4 out16_4 k16_pay1 iblk16 spec16 idx16 4 4
    (Cert.TreeLevel.payload_apply _ rfl rfl rfl rfl rfl rfl _ _ _ _ _ _)

set_option maxHeartbeats 1000000 in
/-- Region 16 leaves in its output array the level of its four input arrays: the 4 parent rows of its 4 pair rows and
    label rows under the shared matrix and bias row. -/
theorem out16 (c : Dev nD) : (dat16 (F := Ideal) V c).arrAt 4 cfg16.N
    = levelG (V c main_v177) (V c main_v185) (V c main_v15) (V c main_v16) :=
  (dat16 V c).arrAt_eq_of_cover 4 _ (fun t _ => flushed16 V c t) (fun i => by
    region_cover i cfg16 main_v186 flush16_4 idx16 N_16 1 4 4)

/-! ## Region 17: 2 rows, 1 block of 2 -/

/-- The block indices of region 17's windows, decided over its grid. -/
theorem idx17 : idx_facts% cfg17 := (by decide +kernel : ∀ t : Fin grid17.N, _)

set_option maxHeartbeats 4000000 in
/-- What point `t` of region 17 writes back is the output window's block at `t` of the level of the region's four input
    arrays. -/
theorem flushed17 (c : Dev nD) (t : Fin cfg17.N) :
    (dat17 V c).flushed 4 t = ((cfg17.win 4).blk t).view.read (Elt Ideal)
      (levelG (V c (Pipeline.arrRef spec17 0)) (V c (Pipeline.arrRef spec17 1)) (V c (Pipeline.arrRef spec17 2)) (V c (Pipeline.arrRef spec17 3))) := by
  region_block V c t cfg17 grid17 dat17 after17_4 out17_4 k17_pay1 iblk17 spec17 idx17 2 2
    (Cert.TreeLevel.payload_apply _ rfl rfl rfl rfl rfl rfl _ _ _ _ _ _)

set_option maxHeartbeats 1000000 in
/-- Region 17 leaves in its output array the level of its four input arrays: the 2 parent rows of its 2 pair rows and
    label rows under the shared matrix and bias row. -/
theorem out17 (c : Dev nD) : (dat17 (F := Ideal) V c).arrAt 4 cfg17.N
    = levelG (V c main_v187) (V c main_v195) (V c main_v15) (V c main_v16) :=
  (dat17 V c).arrAt_eq_of_cover 4 _ (fun t _ => flushed17 V c t) (fun i => by
    region_cover i cfg17 main_v196 flush17_4 idx17 N_17 1 2 2)

/-! ## Region 18: 1 rows, 1 block of 1 -/

/-- The block indices of region 18's windows, decided over its grid. -/
theorem idx18 : idx_facts% cfg18 := (by decide +kernel : ∀ t : Fin grid18.N, _)

set_option maxHeartbeats 4000000 in
/-- What point `t` of region 18 writes back is the output window's block at `t` of the level of the region's four input
    arrays. -/
theorem flushed18 (c : Dev nD) (t : Fin cfg18.N) :
    (dat18 V c).flushed 4 t = ((cfg18.win 4).blk t).view.read (Elt Ideal)
      (levelG (V c (Pipeline.arrRef spec18 0)) (V c (Pipeline.arrRef spec18 1)) (V c (Pipeline.arrRef spec18 2)) (V c (Pipeline.arrRef spec18 3))) := by
  region_block V c t cfg18 grid18 dat18 after18_4 out18_4 k18_pay1 iblk18 spec18 idx18 1 1
    (Cert.TreeLevel.payload_apply_one _ rfl rfl rfl rfl rfl rfl _ _ _ _ _)

set_option maxHeartbeats 1000000 in
/-- Region 18 leaves in its output array the level of its four input arrays: the 1 parent rows of its 1 pair rows and
    label rows under the shared matrix and bias row. -/
theorem out18 (c : Dev nD) : (dat18 (F := Ideal) V c).arrAt 4 cfg18.N
    = levelG (V c main_v197) (V c main_v205) (V c main_v15) (V c main_v16) :=
  (dat18 V c).arrAt_eq_of_cover 4 _ (fun t _ => flushed18 V c t) (fun i => by
    region_cover i cfg18 main_v206 flush18_4 idx18 N_18 1 1 1)

end Cert.KernelIdeal.RegionValue

end
-- ==== Proof.RegionValue.lean ====
/-
  What each of the nineteen kernel regions leaves in its output array: the level of its four input arrays
  (`Cert.KernelIdeal.RegionValue.out0` to `out18`), gathered from the four modules that prove them.
-/
import proofs.«112655_j85761906966779_1_alg».proof.Proof.RegionValueA
import proofs.«112655_j85761906966779_1_alg».proof.Proof.RegionValueB
import proofs.«112655_j85761906966779_1_alg».proof.Proof.RegionValueC
import proofs.«112655_j85761906966779_1_alg».proof.Proof.RegionValueD
-- ==== Proof.KernelChain.lean ====
/-
  The kernel's result is the root of the table of states.

  @main alternates stretches of host operations and kernel regions. Four buffers go through every boundary unchanged
  once the first stretch has written them: the label indices and the label table (arguments, never written), the
  transposed weight matrix and the bias row (written by the first stretch, read by every region). Level by level: if
  the boundary before level `k`'s stretch carries those four and holds the state `st k` where the previous region left
  its result, then the stretch reads that state as pair rows and looks the label rows up, the region leaves the level
  function of those arrays — which is the level in the host's operations, `st (k+1)` —, and the boundary after the region
  carries the four again. Nineteen steps from the launch give the root in the result buffer.
-/
import Lean
import proofs.«112655_j85761906966779_1_alg».proof.Proof.Gen.KernelIdeal.Frame
import proofs.«112655_j85761906966779_1_alg».proof.Proof.TreeStates
import proofs.«112655_j85761906966779_1_alg».proof.Proof.LevelMath
import proofs.«112655_j85761906966779_1_alg».proof.Proof.Stretches
import proofs.«112655_j85761906966779_1_alg».proof.Proof.RegionValue

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.TreeLevel

variable (m : (ℓ : Loc nD τ sig) → Buf (Elt Ideal) ℓ) (ρ : Dev nD → PrngReg)

/-- What a boundary's contents `W` on core `c` carry from the launch: the label indices and the label table as
    launched, the weight argument's transpose, and the bias argument read as one row. -/
structure Carried (c : Dev nD) (W : Valuation τ sig (Elt Ideal)) : Prop where
  a2 : W (Proc.devRef .tc main_arg2) = m ((c : Thread nD τ).loc main_arg2)
  a5 : W (Proc.devRef .tc main_arg5) = m ((c : Thread nD τ).loc main_arg5)
  wt : W (Proc.devRef .tc main_v15)
    = transpose S256x128 [1, 0] (m ((c : Thread nD τ).loc main_arg6)) transposes_S128x256_S256x128_1_0
  bb : W (Proc.devRef .tc main_v16) = shapeCast S1x128 (m ((c : Thread nD τ).loc main_arg7)) shapeCasts_S128_S1x128

/-! ## The first level -/

/-- After the first stretch and the first region: the four carried buffers, and the 262144 parents of the leaves. -/
theorem chain0 (c : Dev nD) :
    Carried m c (W2 m ρ c) ∧ W2 m ρ c (Proc.devRef .tc main_v26) = Cert.TreeStates.st1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hk := Stretch.keep0 (W0 m ρ c)
  have hC1 : Carried m c (W1 m ρ c) := ⟨hk.1, hk.2, Stretch.wt0 (W0 m ρ c), Stretch.bb0 (W0 m ρ c)⟩
  refine ⟨⟨(W2_of_ne m ρ c main_arg2 (by decide)).trans hC1.a2, (W2_of_ne m ρ c main_arg5 (by decide)).trans hC1.a5,
    ((W2_arr m ρ c 2).trans (((dat0 (V1 m ρ) c).arrAt_in 2 rfl cfg0.N).trans (A_eq0 (V1 m ρ) c 2))).trans hC1.wt,
    ((W2_arr m ρ c 3).trans (((dat0 (V1 m ρ) c).arrAt_in 3 rfl cfg0.N).trans (A_eq0 (V1 m ρ) c 3))).trans hC1.bb⟩, ?_⟩
  unfold Cert.TreeStates.st1 Cert.TreeStates.st0
  exact level_step _ _ rfl rfl rfl rfl rfl rfl _ _ _ _ _ _ _ _ shapeCasts_S128_S1x128 _ _ _ _ _ _ _ _ _ _
    ((W2_arr m ρ c 4).trans (RegionValue.out0 (V1 m ρ) c))
    (Stretch.lr0 (W0 m ρ c)) (Stretch.non0 (W0 m ρ c)) hC1.wt hC1.bb

/-! ## Levels 1 … 17 -/

open Lean Elab Command in
/-- `level_chain k`: the step through the stretch before region `k` and region `k`, from the boundary `2k` to the
    boundary `2k + 2` — the carried buffers stay, and the region's result is the next state. -/
elab "level_chain " k:num : command => do
  let k := k.getNat
  let name (s : String) : Ident := mkIdent ((s.splitOn ".").foldl Name.mkStr Name.anonymous)
  let Wa := name s!"W{2 * k}"
  let Wb := name s!"W{2 * k + 1}"
  let Wc := name s!"W{2 * k + 2}"
  let Vb := name s!"V{2 * k + 1}"
  let WcNe := name s!"W{2 * k + 2}_of_ne"
  let WcArr := name s!"W{2 * k + 2}_arr"
  let dat := name s!"dat{k}"
  let cfg := name s!"cfg{k}"
  let Aeq := name s!"A_eq{k}"
  let prev := name s!"main_v{16 + 10 * k}"
  let out := name s!"main_v{26 + 10 * k}"
  let stA := name s!"Cert.TreeStates.st{k}"
  let stB := name s!"Cert.TreeStates.st{k + 1}"
  let keep := name s!"Stretch.keep{k}"
  let lr := name s!"Stretch.lr{k}"
  let non := name s!"Stretch.non{k}"
  let rv := name s!"RegionValue.out{k}"
  elabCommand (← `(theorem $(name s!"chain{k}") (m : (ℓ : Loc nD τ sig) → Buf (Elt Ideal) ℓ) (ρ : Dev nD → PrngReg) (c : Dev nD)
      (hC : Carried m c ($Wa m ρ c))
      (hp : $Wa m ρ c (Proc.devRef .tc $prev) = $stA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
      Carried m c ($Wc m ρ c) ∧ $Wc m ρ c (Proc.devRef .tc $out) = $stB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    have hk := $keep ($Wa m ρ c)
    have hC1 : Carried m c ($Wb m ρ c) :=
      ⟨hk.1.trans hC.a2, hk.2.1.trans hC.a5, hk.2.2.1.trans hC.wt, hk.2.2.2.trans hC.bb⟩
    refine ⟨⟨($WcNe m ρ c main_arg2 (by decide)).trans hC1.a2, ($WcNe m ρ c main_arg5 (by decide)).trans hC1.a5,
      (($WcArr m ρ c 2).trans ((($dat ($Vb m ρ) c).arrAt_in 2 rfl ($cfg).N).trans ($Aeq ($Vb m ρ) c 2))).trans hC1.wt,
      (($WcArr m ρ c 3).trans ((($dat ($Vb m ρ) c).arrAt_in 3 rfl ($cfg).N).trans ($Aeq ($Vb m ρ) c 3))).trans hC1.bb⟩, ?_⟩
    unfold $stB
    exact level_step _ _ rfl rfl rfl rfl rfl rfl _ _ _ _ _ _ _ _ shapeCasts_S128_S1x128 _ _ _ _ _ _ _ _ _ _
      (($WcArr m ρ c 4).trans ($rv ($Vb m ρ) c))
      (($lr ($Wa m ρ c)).trans (congrArg (fun x => shapeCast _ x _) hp))
      (($non ($Wa m ρ c)).trans (by rw [hC.a5, hC.a2]; rfl))
      hC1.wt hC1.bb))

level_chain 1
level_chain 2
level_chain 3
level_chain 4
level_chain 5
level_chain 6
level_chain 7
level_chain 8
level_chain 9
level_chain 10
level_chain 11
level_chain 12
level_chain 13
level_chain 14
level_chain 15
level_chain 16
level_chain 17

/-! ## The root -/

/-- The last step: the region of one row leaves the root. -/
theorem chain18 (c : Dev nD) (hC : Carried m c (W36 m ρ c))
    (hp : W36 m ρ c (Proc.devRef .tc main_v196) = Cert.TreeStates.st18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W38 m ρ c (Proc.devRef .tc main_v206) = Cert.TreeStates.st19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hk := Stretch.keep18 (W36 m ρ c)
  have hC1 : Carried m c (W37 m ρ c) :=
    ⟨hk.1.trans hC.a2, hk.2.1.trans hC.a5, hk.2.2.1.trans hC.wt, hk.2.2.2.trans hC.bb⟩
  unfold Cert.TreeStates.st19
  exact root_step _ _ rfl rfl rfl rfl rfl rfl _ _ _ _ _ _ _ shapeCasts_S128_S1x128 _ _ _ _ _ _ _ _ _ _
    ((W38_arr m ρ c 4).trans (RegionValue.out18 (V37 m ρ) c))
    ((Stretch.lr18 (W36 m ρ c)).trans (congrArg (fun x => shapeCast _ x _) hp))
    ((Stretch.non18 (W36 m ρ c)).trans (by rw [hC.a5, hC.a2]; rfl))
    hC1.wt hC1.bb

/-- THE KERNEL'S RESULT: after the last region the result buffer holds the root of the table of states of the
    argument arrays as launched. -/
theorem result (c : Dev nD) :
    W38 m ρ c (Proc.devRef .tc main_v206) = Cert.TreeStates.st19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨c0, s0⟩ := chain0 m ρ c
  obtain ⟨c1, s1⟩ := chain1 m ρ c c0 s0
  obtain ⟨c2, s2⟩ := chain2 m ρ c c1 s1
  obtain ⟨c3, s3⟩ := chain3 m ρ c c2 s2
  obtain ⟨c4, s4⟩ := chain4 m ρ c c3 s3
  obtain ⟨c5, s5⟩ := chain5 m ρ c c4 s4
  obtain ⟨c6, s6⟩ := chain6 m ρ c c5 s5
  obtain ⟨c7, s7⟩ := chain7 m ρ c c6 s6
  obtain ⟨c8, s8⟩ := chain8 m ρ c c7 s7
  obtain ⟨c9, s9⟩ := chain9 m ρ c c8 s8
  obtain ⟨c10, s10⟩ := chain10 m ρ c c9 s9
  obtain ⟨c11, s11⟩ := chain11 m ρ c c10 s10
  obtain ⟨c12, s12⟩ := chain12 m ρ c c11 s11
  obtain ⟨c13, s13⟩ := chain13 m ρ c c12 s12
  obtain ⟨c14, s14⟩ := chain14 m ρ c c13 s13
  obtain ⟨c15, s15⟩ := chain15 m ρ c c14 s14
  obtain ⟨c16, s16⟩ := chain16 m ρ c c15 s15
  obtain ⟨c17, s17⟩ := chain17 m ρ c c16 s16
  exact chain18 m ρ c c17 s17

end Cert.KernelIdeal.Chain

end
-- ==== Proof.RefRun.lean ====
/-
  The reference's run, with its result named as the root of the table of states.
-/
import proofs.«112655_j85761906966779_1_alg».proof.Proof.Gen.ReferenceIdeal.Run
import proofs.«112655_j85761906966779_1_alg».proof.Proof.TreeStates

noncomputable section

namespace Cert.ReferenceIdeal.RefValue

open Idealize.ShloMosaic Idealize.ShloMosaic.TcCoe Idealize.SL.Sem Cert.ReferenceIdeal Cert.TreeStates

/-- The reference's run: every weakly fair execution terminates without a fault, the result buffer ends at the root
    state `st19` of the eight argument arrays as launched, and the argument arrays end unchanged. The generated run
    states the result as the composed term of the program's operations; level by level that term is the table of
    states unfolded. -/
theorem run_st (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v317)
        = st19 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (by
      unfold st19 st18 st17 st16 st15 st14 st13 st12 st11 st10 st9 st8 st7 st6 st5 st4 st3 st2 st1 st0
      rfl), (h c).2⟩)
    (Cert.ReferenceIdeal.Value.run (F := Ideal) m ρ)

end Cert.ReferenceIdeal.RefValue

end
-- ==== Proof.lean ====
/-
  The certificate: a tree of nineteen levels computed by one kernel region per level equals the reference's tree.

  Both programs build the same leaves with the same host lookups, and at each level read the child states as pair
  rows and look the label rows up in the same way. A level of the kernel is a grid of row blocks, each computing
  `tanh (pairs · Wᵀ + labels + bias)` on its rows with the product accumulated from zero; the reference computes
  `tanh (labels + pairs · Wᵀ + bias)` on the whole array. At the ideal values the narrow format of the kernel's product
  operands is the identity, a product into a zero accumulator is the plain sum of products, and the two sums differ by
  commutativity of addition on the extended reals — no finiteness is needed. So level by level the two programs hold the
  same state (`Cert.TreeStates.st k`), and the results are both the root `st19` of the arguments.

  The three frames: the kernel's two are the generated frame certificates; the reference's is its generated run with
  the result dropped. The idealization rewrote nothing, so `preserves` is trivial.
-/
import proofs.«112655_j85761906966779_1_alg».proof.Defs
import proofs.«112655_j85761906966779_1_alg».proof.Proof.Gen.Kernel
import proofs.«112655_j85761906966779_1_alg».proof.Proof.Gen.Kernel.Skeleton
import proofs.«112655_j85761906966779_1_alg».proof.Proof.Gen.Kernel.Launch
import proofs.«112655_j85761906966779_1_alg».proof.Proof.Gen.Kernel.Points
import proofs.«112655_j85761906966779_1_alg».proof.Proof.Gen.Kernel.Frame
import proofs.«112655_j85761906966779_1_alg».proof.Proof.Gen.KernelIdeal
import proofs.«112655_j85761906966779_1_alg».proof.Proof.Gen.KernelIdeal.Skeleton
import proofs.«112655_j85761906966779_1_alg».proof.Proof.Gen.KernelIdeal.Launch
import proofs.«112655_j85761906966779_1_alg».proof.Proof.Gen.KernelIdeal.Points
import proofs.«112655_j85761906966779_1_alg».proof.Proof.Gen.KernelIdeal.Frame
import proofs.«112655_j85761906966779_1_alg».proof.Proof.Gen.ReferenceIdeal
import proofs.«112655_j85761906966779_1_alg».proof.Proof.Gen.Pre_finite_inputs
import proofs.«112655_j85761906966779_1_alg».proof.Proof.Gen.ReferenceIdeal.Run
import proofs.«112655_j85761906966779_1_alg».proof.Proof.KernelRun
import proofs.«112655_j85761906966779_1_alg».proof.Proof.KernelChain
import proofs.«112655_j85761906966779_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the root state of those arguments. -/
theorem algebraic : Cert.algebraic_KernelIdeal_ReferenceIdeal := by
  intro m ρ m' ρ' _ hagree
  refine ⟨fun c => Cert.TreeStates.st19
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RefValue.run_st m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
